-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x1 .f32) (main_arg7 : FVec F S1 .f32) (main_arg8 : FVec F S128x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64 .f32) (main_arg6 : FVec F S128x1 .f32) (main_arg7 : FVec F S1 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1700000x64 : Shape := ⟨2, ![1700000, 64]⟩
abbrev S1x1 : Shape := ⟨2, ![1, 1]⟩
abbrev S64x1 : Shape := ⟨2, ![64, 1]⟩

abbrev nBuf : Space → Nat
  | .hbm => 70
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .f32⟩
  | .hbm, ⟨43, _⟩ => ⟨S_, .f32⟩
  | .hbm, ⟨44, _⟩ => ⟨S100000x64, .f32⟩
  | .hbm, ⟨45, _⟩ => ⟨S1700000x1, .i32⟩
  | .hbm, ⟨46, _⟩ => ⟨S100000x64, .f32⟩
  | .hbm, ⟨47, _⟩ => ⟨S1x64, .f32⟩
  | .hbm, ⟨48, _⟩ => ⟨S1x1, .f32⟩
  | .hbm, ⟨49, _⟩ => ⟨S100000x1, .f32⟩
  | .hbm, ⟨50, _⟩ => ⟨S100000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x1, .f32⟩
  | .hbm, ⟨60, _⟩ => ⟨S_, .f32⟩
  | .hbm, ⟨61, _⟩ => ⟨S100000x1, .f32⟩
  | .hbm, ⟨62, _⟩ => ⟨S1700000x1, .i32⟩
  | .hbm, ⟨63, _⟩ => ⟨S100000x1, .f32⟩
  | .hbm, ⟨64, _⟩ => ⟨S100000x1, .f32⟩
  | .hbm, ⟨65, _⟩ => ⟨S1x1, .f32⟩
  | .hbm, ⟨66, _⟩ => ⟨S100000x1, .f32⟩
  | .hbm, ⟨67, _⟩ => ⟨S100000x1, .f32⟩
  | .hbm, ⟨68, _⟩ => ⟨S100000x1, .f32⟩
  | .hbm, ⟨69, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S128x64, .f32⟩
  | .local _ .vmem, ⟨4, _⟩ => ⟨S1x64, .f32⟩
  | .local _ .vmem, ⟨5, _⟩ => ⟨S2000x1, .f32⟩
  | .local _ .vmem, ⟨6, _⟩ => ⟨S2000x1, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S128x1, .f32⟩
  | .local _ .vmem, ⟨19, _⟩ => ⟨S128x1, .f32⟩
  | .local _ .vmem, ⟨20, _⟩ => ⟨S1x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x64 : S_.BroadcastsInDim S100000x64 (![] : Fin 0 → Fin S100000x64.rank)
  shapeCasts_S1_S1x1 : S1.ShapeCasts S1x1
  shapeCasts_S2000x64_S2000x64 : S2000x64.ShapeCasts S2000x64
  inb_S128x1_S128x1_0_0 : ∀ a, (![0, 0] : Fin 2 → Nat) a + S128x1.size a ≤ S128x1.size a
  h_S128x1 : 0 < S128x1.numel
  slices_S128x1_o0_0_S64x1 : S128x1.Slices ![0, 0] S64x1
  slices_S128x1_o64_0_S64x1 : S128x1.Slices ![64, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S100000x1.size a
  hwx1_7 : ∀ i : grid1.Coords, EltTy.bits .f32 = 32 ∨ (Rect.block (s := S100000x1) S2000x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S100000x1.size a
  hwx1_8 : ∀ i : grid1.Coords, EltTy.bits .f32 = 32 ∨ (Rect.block (s := S100000x1) S2000x1.size (cc1_transform_8 i) (hinb1_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S2000x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x1, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x1, .f32⟩
  | .hbm, ⟨88, _⟩ => ⟨S1700000x1, .f32⟩
  | .hbm, ⟨89, _⟩ => ⟨S1700000x1, .f32⟩
  | .hbm, ⟨90, _⟩ => ⟨S_, .f32⟩
  | .hbm, ⟨91, _⟩ => ⟨S100000x1, .f32⟩
  | .hbm, ⟨92, _⟩ => ⟨S1700000x1, .i32⟩
  | .hbm, ⟨93, _⟩ => ⟨S100000x1, .f32⟩
  | .hbm, ⟨94, _⟩ => ⟨S1x1, .f32⟩
  | .hbm, ⟨95, _⟩ => ⟨S100000x1, .f32⟩
  | .hbm, ⟨96, _⟩ => ⟨S100000x1, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000x1, .f32⟩
  | .hbm, ⟨102, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S100000x128 : S_.BroadcastsInDim S100000x128 (![] : Fin 0 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.RefRunFast.lean ====
/-
  The reference's run, read back stage by stage.

  The reference's @main is a straight line of 93 host operations; a run leaves every buffer at the fold of the operations'
  results over the launch contents. The fold is read here in nine consecutive stretches, cut where few values are still
  needed: after the edges' source and target numbers; after the comparison, the inverse square root and the zero vector that
  the per-node factor selects from; after that select; after the edge factor; after the first-layer aggregate; after the
  direct branch; after the hidden layer; after the second-layer aggregate; the rest. For each stretch, from ANY contents V:
  a value that a later stretch reads is the reference's stage of that name, given that the values the stretch itself reads
  are their stages (an argument is read off V directly); a value the stretch does not write keeps its contents; and no
  operation writes an argument. Chaining the nine gives the result buffer at the last stage of the arguments, and the
  arguments unchanged.
-/
import proofs.«122140_j46574625358105_2_alg».proof.Proof.RefOps
import proofs.«122140_j46574625358105_2_alg».proof.Proof.RefRead
import Idealize.ShloMosaic.Lib.StableHlo.Run

noncomputable section

namespace Cert.ReferenceIdeal.Fast

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

/-! ## The stretches -/

section Lists
variable {F : FTy → Type} [FloatOps F]

/-- Operations 1–7 of the 93, in order. -/
abbrev l1 : List (HloOp τ sig (Elt F)) :=
  [
    nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8–20 of the 93, in order. -/
abbrev l2 : List (HloOp τ sig (Elt F)) :=
  [
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000) ]

/-- Operations 21–21 of the 93, in order. -/
abbrev l3 : List (HloOp τ sig (Elt F)) :=
  [
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22–40 of the 93, in order. -/
abbrev l4 : List (HloOp τ sig (Elt F)) :=
  [
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operations 41–60 of the 93, in order. -/
abbrev l5 : List (HloOp τ sig (Elt F)) :=
  [
    binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Operations 61–64 of the 93, in order. -/
abbrev l6 : List (HloOp τ sig (Elt F)) :=
  [
    binary main_arg0 main_arg4 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)) ]

/-- Operations 65–68 of the 93, in order. -/
abbrev l7 : List (HloOp τ sig (Elt F)) :=
  [
    binary main_v46 main_v50 main_v51 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf ]

/-- Operations 69–84 of the 93, in order. -/
abbrev l8 : List (HloOp τ sig (Elt F)) :=
  [
    binary main_v52 main_arg6 main_v53 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    nullary main_c_9 (constantI S_ 32 0#32),
    unary main_c_9 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    unary main_v29 main_v61 (broadcastInDim S1700000x1 ![0] bcast_S1700000_S1700000x1_0 : (⟨S1700000, .f32⟩ : BufTy).Contents (Elt F) → (⟨S1700000x1, .f32⟩ : BufTy).Contents (Elt F)),
    binary main_v60 main_v61 main_v62 (mulf : (⟨S1700000x1, .f32⟩ : BufTy).Contents (Elt F) → (⟨S1700000x1, .f32⟩ : BufTy).Contents (Elt F) → (⟨S1700000x1, .f32⟩ : BufTy).Contents (Elt F)),
    nullary main_cst_11 (constant S_ .f32 0x00000000#32),
    unary main_cst_11 main_v63 (broadcastInDim S100000x1 ![] bcast_S_S100000x1 : (⟨S_, .f32⟩ : BufTy).Contents (Elt F) → (⟨S100000x1, .f32⟩ : BufTy).Contents (Elt F)),
    unary main_v6 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)) ]

/-- Operations 85–93 of the 93, in order. -/
abbrev l9 : List (HloOp τ sig (Elt F)) :=
  [
    unary main_arg7 main_v66 (broadcastInDim S1x1 ![1] bcast_S1_S1x1_1 : (⟨S1, .f32⟩ : BufTy).Contents (Elt F) → (⟨S1x1, .f32⟩ : BufTy).Contents (Elt F)),
    unary main_v66 main_v67 (broadcastInDim S100000x1 ![0, 1] bcast_S1x1_S100000x1_0_1 : (⟨S1x1, .f32⟩ : BufTy).Contents (Elt F) → (⟨S100000x1, .f32⟩ : BufTy).Contents (Elt F)),
    binary main_v65 main_v67 main_v68 (addf : (⟨S100000x1, .f32⟩ : BufTy).Contents (Elt F) → (⟨S100000x1, .f32⟩ : BufTy).Contents (Elt F) → (⟨S100000x1, .f32⟩ : BufTy).Contents (Elt F)),
    binary main_v52 main_arg8 main_v69 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg9 main_v70 (broadcastInDim S1x1 ![1] bcast_S1_S1x1_1 : (⟨S1, .f32⟩ : BufTy).Contents (Elt F) → (⟨S1x1, .f32⟩ : BufTy).Contents (Elt F)),
    unary main_v70 main_v71 (broadcastInDim S100000x1 ![0, 1] bcast_S1x1_S100000x1_0_1 : (⟨S1x1, .f32⟩ : BufTy).Contents (Elt F) → (⟨S100000x1, .f32⟩ : BufTy).Contents (Elt F)),
    binary main_v69 main_v71 main_v72 (addf : (⟨S100000x1, .f32⟩ : BufTy).Contents (Elt F) → (⟨S100000x1, .f32⟩ : BufTy).Contents (Elt F) → (⟨S100000x1, .f32⟩ : BufTy).Contents (Elt F)),
    binary main_v68 main_v72 main_v73 (addf : (⟨S100000x1, .f32⟩ : BufTy).Contents (Elt F) → (⟨S100000x1, .f32⟩ : BufTy).Contents (Elt F) → (⟨S100000x1, .f32⟩ : BufTy).Contents (Elt F)),
    reshape main_v73 main_v74 rfl shapeCasts_S100000x1_S100000 ]

end Lists

set_option maxRecDepth 8192 in
set_option maxHeartbeats 4000000 in
/-- The operations are these stretches, one after the other. -/
theorem ops_eq : (ops : List (HloOp τ sig (Elt Ideal))) = l1 ++ (l2 ++ (l3 ++ (l4 ++ (l5 ++ (l6 ++ (l7 ++ (l8 ++ (l9)))))))) := rfl

theorem mem_l1 {op : HloOp τ sig (Elt Ideal)} (h : op ∈ (l1 (F := Ideal))) : op ∈ (ops : List (HloOp τ sig (Elt Ideal))) := by
  rw [ops_eq]; exact List.mem_append_left _ h

theorem mem_l2 {op : HloOp τ sig (Elt Ideal)} (h : op ∈ (l2 (F := Ideal))) : op ∈ (ops : List (HloOp τ sig (Elt Ideal))) := by
  rw [ops_eq]; exact List.mem_append_right _ (List.mem_append_left _ h)

theorem mem_l3 {op : HloOp τ sig (Elt Ideal)} (h : op ∈ (l3 (F := Ideal))) : op ∈ (ops : List (HloOp τ sig (Elt Ideal))) := by
  rw [ops_eq]; exact List.mem_append_right _ (List.mem_append_right _ (List.mem_append_left _ h))

theorem mem_l4 {op : HloOp τ sig (Elt Ideal)} (h : op ∈ (l4 (F := Ideal))) : op ∈ (ops : List (HloOp τ sig (Elt Ideal))) := by
  rw [ops_eq]; exact List.mem_append_right _ (List.mem_append_right _ (List.mem_append_right _ (List.mem_append_left _ h)))

theorem mem_l5 {op : HloOp τ sig (Elt Ideal)} (h : op ∈ (l5 (F := Ideal))) : op ∈ (ops : List (HloOp τ sig (Elt Ideal))) := by
  rw [ops_eq]; exact List.mem_append_right _ (List.mem_append_right _ (List.mem_append_right _ (List.mem_append_right _ (List.mem_append_left _ h))))

theorem mem_l6 {op : HloOp τ sig (Elt Ideal)} (h : op ∈ (l6 (F := Ideal))) : op ∈ (ops : List (HloOp τ sig (Elt Ideal))) := by
  rw [ops_eq]; exact List.mem_append_right _ (List.mem_append_right _ (List.mem_append_right _ (List.mem_append_right _ (List.mem_append_right _ (List.mem_append_left _ h)))))

theorem mem_l7 {op : HloOp τ sig (Elt Ideal)} (h : op ∈ (l7 (F := Ideal))) : op ∈ (ops : List (HloOp τ sig (Elt Ideal))) := by
  rw [ops_eq]; exact List.mem_append_right _ (List.mem_append_right _ (List.mem_append_right _ (List.mem_append_right _ (List.mem_append_right _ (List.mem_append_right _ (List.mem_append_left _ h))))))

theorem mem_l8 {op : HloOp τ sig (Elt Ideal)} (h : op ∈ (l8 (F := Ideal))) : op ∈ (ops : List (HloOp τ sig (Elt Ideal))) := by
  rw [ops_eq]; exact List.mem_append_right _ (List.mem_append_right _ (List.mem_append_right _ (List.mem_append_right _ (List.mem_append_right _ (List.mem_append_right _ (List.mem_append_right _ (List.mem_append_left _ h)))))))

theorem mem_l9 {op : HloOp τ sig (Elt Ideal)} (h : op ∈ (l9 (F := Ideal))) : op ∈ (ops : List (HloOp τ sig (Elt Ideal))) := by
  rw [ops_eq]; exact List.mem_append_right _ (List.mem_append_right _ (List.mem_append_right _ (List.mem_append_right _ (List.mem_append_right _ (List.mem_append_right _ (List.mem_append_right _ (List.mem_append_right _ (h))))))))

/-- The fold over two stretches is the fold over the second from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

theorem ops_after (V : Valuation τ sig (Elt Ideal)) : after ops V = (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) := by
  rw [ops_eq]; simp only [after_append]

set_option maxRecDepth 8192 in
set_option maxHeartbeats 4000000 in
/-- No operation writes argument 0. -/
theorem arg0_not_written : ∀ op ∈ (ops : List (HloOp τ sig (Elt Ideal))), Proc.devRef (τ := τ) .tc main_arg0 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 1. -/
theorem arg1_not_written : ∀ op ∈ (ops : List (HloOp τ sig (Elt Ideal))), Proc.devRef (τ := τ) .tc main_arg1 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 2. -/
theorem arg2_not_written : ∀ op ∈ (ops : List (HloOp τ sig (Elt Ideal))), Proc.devRef (τ := τ) .tc main_arg2 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 3. -/
theorem arg3_not_written : ∀ op ∈ (ops : List (HloOp τ sig (Elt Ideal))), Proc.devRef (τ := τ) .tc main_arg3 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 4. -/
theorem arg4_not_written : ∀ op ∈ (ops : List (HloOp τ sig (Elt Ideal))), Proc.devRef (τ := τ) .tc main_arg4 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 5. -/
theorem arg5_not_written : ∀ op ∈ (ops : List (HloOp τ sig (Elt Ideal))), Proc.devRef (τ := τ) .tc main_arg5 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 6. -/
theorem arg6_not_written : ∀ op ∈ (ops : List (HloOp τ sig (Elt Ideal))), Proc.devRef (τ := τ) .tc main_arg6 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 7. -/
theorem arg7_not_written : ∀ op ∈ (ops : List (HloOp τ sig (Elt Ideal))), Proc.devRef (τ := τ) .tc main_arg7 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 8. -/
theorem arg8_not_written : ∀ op ∈ (ops : List (HloOp τ sig (Elt Ideal))), Proc.devRef (τ := τ) .tc main_arg8 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

set_option maxRecDepth 8192 in
set_option maxHeartbeats 4000000 in
/-- No operation writes argument 9. -/
theorem arg9_not_written : ∀ op ∈ (ops : List (HloOp τ sig (Elt Ideal))), Proc.devRef (τ := τ) .tc main_arg9 ∉ op.writes :=
  List.forall_iff_forall_mem.mp (by
    simp only [ops, List.Forall, nullary_writes, unary_writes, binary_writes, ternary_writes, quaternary_writes, reshape_writes, Finset.mem_singleton]
    repeat' apply And.intro
    all_goals exact devRef_ne_of_ne (by decide))

/-! ### Stretch 1 -/

set_option maxRecDepth 8192 in
set_option maxHeartbeats 4000000 in
theorem s1_main_v3 (V : Valuation τ sig (Elt Ideal)) :
    after (l1 (F := Ideal)) V (Proc.devRef .tc main_v3) = val_main_v3 (F := Ideal) (V (Proc.devRef .tc main_arg1)) := by
  after_results_simp
  rfl

set_option maxRecDepth 8192 in
set_option maxHeartbeats 4000000 in
theorem s1_main_v6 (V : Valuation τ sig (Elt Ideal)) :
    after (l1 (F := Ideal)) V (Proc.devRef .tc main_v6) = val_main_v6 (F := Ideal) (V (Proc.devRef .tc main_arg1)) := by
  after_results_simp
  rfl

/-! ### Stretch 2 -/

set_option maxRecDepth 8192 in
set_option maxHeartbeats 4000000 in
theorem s2_main_v12 (V : Valuation τ sig (Elt Ideal)) (x1 : (⟨S2x1600000, .i32⟩ : BufTy).Contents (Elt Ideal))
    (h_main_v6 : V (Proc.devRef .tc main_v6) = val_main_v6 (F := Ideal) x1) :
    after (l2 (F := Ideal)) V (Proc.devRef .tc main_v12) = val_main_v12 (F := Ideal) x1 := by
  after_results_simp
  rw [h_main_v6]
  rfl

set_option maxRecDepth 8192 in
set_option maxHeartbeats 4000000 in
theorem s2_main_v13 (V : Valuation τ sig (Elt Ideal)) (x1 : (⟨S2x1600000, .i32⟩ : BufTy).Contents (Elt Ideal))
    (h_main_v6 : V (Proc.devRef .tc main_v6) = val_main_v6 (F := Ideal) x1) :
    after (l2 (F := Ideal)) V (Proc.devRef .tc main_v13) = val_main_v13 (F := Ideal) x1 := by
  after_results_simp
  rw [h_main_v6]
  rfl

set_option maxRecDepth 8192 in
set_option maxHeartbeats 4000000 in
theorem s2_main_call0_v1 (V : Valuation τ sig (Elt Ideal)) :
    after (l2 (F := Ideal)) V (Proc.devRef .tc main_call0_v1) = val_main_call0_v1 (F := Ideal) := by
  after_results_simp
  rfl

set_option maxRecDepth 8192 in
set_option maxHeartbeats 4000000 in
theorem s2_keep_main_v3 (V : Valuation τ sig (Elt Ideal)) : after (l2 (F := Ideal)) V (Proc.devRef .tc main_v3) = V (Proc.devRef .tc main_v3) := by
  after_results_simp

set_option maxRecDepth 8192 in
set_option maxHeartbeats 4000000 in
theorem s2_keep_main_v6 (V : Valuation τ sig (Elt Ideal)) : after (l2 (F := Ideal)) V (Proc.devRef .tc main_v6) = V (Proc.devRef .tc main_v6) := by
  after_results_simp

/-! ### Stretch 3 -/

set_option maxRecDepth 8192 in
set_option maxHeartbeats 4000000 in
/-- The select, read over any contents. -/
theorem s3_raw (V : Valuation τ sig (Elt Ideal)) :
    after (l3 (F := Ideal)) V (Proc.devRef .tc main_v14)
      = select (V (Proc.devRef .tc main_v12)) (V (Proc.devRef .tc main_v13)) (V (Proc.devRef .tc main_call0_v1)) := by
  after_results_simp
  rfl

set_option maxRecDepth 8192 in
set_option maxHeartbeats 4000000 in
theorem s3_main_v14 (V : Valuation τ sig (Elt Ideal)) (x1 : (⟨S2x1600000, .i32⟩ : BufTy).Contents (Elt Ideal))
    (h_main_v12 : V (Proc.devRef .tc main_v12) = val_main_v12 (F := Ideal) x1)
    (h_main_v13 : V (Proc.devRef .tc main_v13) = val_main_v13 (F := Ideal) x1)
    (h_main_call0_v1 : V (Proc.devRef .tc main_call0_v1) = val_main_call0_v1 (F := Ideal)) :
    after (l3 (F := Ideal)) V (Proc.devRef .tc main_v14) = val_main_v14 (F := Ideal) x1 := by
  rw [s3_raw, h_main_v12, h_main_v13, h_main_call0_v1]
  rfl

set_option maxRecDepth 8192 in
set_option maxHeartbeats 4000000 in
theorem s3_keep_main_v3 (V : Valuation τ sig (Elt Ideal)) : after (l3 (F := Ideal)) V (Proc.devRef .tc main_v3) = V (Proc.devRef .tc main_v3) := by
  after_results_simp

set_option maxRecDepth 8192 in
set_option maxHeartbeats 4000000 in
theorem s3_keep_main_v6 (V : Valuation τ sig (Elt Ideal)) : after (l3 (F := Ideal)) V (Proc.devRef .tc main_v6) = V (Proc.devRef .tc main_v6) := by
  after_results_simp

/-! ### Stretch 4 -/

set_option maxRecDepth 8192 in
set_option maxHeartbeats 4000000 in
theorem s4_main_v29 (V : Valuation τ sig (Elt Ideal)) (x1 : (⟨S2x1600000, .i32⟩ : BufTy).Contents (Elt Ideal))
    (h_main_v14 : V (Proc.devRef .tc main_v14) = val_main_v14 (F := Ideal) x1)
    (h_main_v3 : V (Proc.devRef .tc main_v3) = val_main_v3 (F := Ideal) x1)
    (h_main_v6 : V (Proc.devRef .tc main_v6) = val_main_v6 (F := Ideal) x1) :
    after (l4 (F := Ideal)) V (Proc.devRef .tc main_v29) = val_main_v29 (F := Ideal) x1 := by
  after_results_simp
  rw [h_main_v14, h_main_v3, h_main_v6]
  rfl

set_option maxRecDepth 8192 in
set_option maxHeartbeats 4000000 in
theorem s4_keep_main_v3 (V : Valuation τ sig (Elt Ideal)) : after (l4 (F := Ideal)) V (Proc.devRef .tc main_v3) = V (Proc.devRef .tc main_v3) := by
  after_results_simp

set_option maxRecDepth 8192 in
set_option maxHeartbeats 4000000 in
theorem s4_keep_main_v6 (V : Valuation τ sig (Elt Ideal)) : after (l4 (F := Ideal)) V (Proc.devRef .tc main_v6) = V (Proc.devRef .tc main_v6) := by
  after_results_simp

/-! ### Stretch 5 -/

set_option maxRecDepth 8192 in
set_option maxHeartbeats 4000000 in
theorem s5_main_v46 (V : Valuation τ sig (Elt Ideal)) (x1 : (⟨S2x1600000, .i32⟩ : BufTy).Contents (Elt Ideal))
    (h_main_v6 : V (Proc.devRef .tc main_v6) = val_main_v6 (F := Ideal) x1)
    (h_main_v3 : V (Proc.devRef .tc main_v3) = val_main_v3 (F := Ideal) x1)
    (h_main_v29 : V (Proc.devRef .tc main_v29) = val_main_v29 (F := Ideal) x1) :
    after (l5 (F := Ideal)) V (Proc.devRef .tc main_v46) = val_main_v46 (F := Ideal) (V (Proc.devRef .tc main_arg0)) x1 (V (Proc.devRef .tc main_arg2)) (V (Proc.devRef .tc main_arg3)) := by
  after_results_simp
  rw [h_main_v6, h_main_v3, h_main_v29]
  rfl

set_option maxRecDepth 8192 in
set_option maxHeartbeats 4000000 in
theorem s5_keep_main_v3 (V : Valuation τ sig (Elt Ideal)) : after (l5 (F := Ideal)) V (Proc.devRef .tc main_v3) = V (Proc.devRef .tc main_v3) := by
  after_results_simp

set_option maxRecDepth 8192 in
set_option maxHeartbeats 4000000 in
theorem s5_keep_main_v6 (V : Valuation τ sig (Elt Ideal)) : after (l5 (F := Ideal)) V (Proc.devRef .tc main_v6) = V (Proc.devRef .tc main_v6) := by
  after_results_simp

set_option maxRecDepth 8192 in
set_option maxHeartbeats 4000000 in
theorem s5_keep_main_v29 (V : Valuation τ sig (Elt Ideal)) : after (l5 (F := Ideal)) V (Proc.devRef .tc main_v29) = V (Proc.devRef .tc main_v29) := by
  after_results_simp

/-! ### Stretch 6 -/

set_option maxRecDepth 8192 in
set_option maxHeartbeats 4000000 in
theorem s6_main_v50 (V : Valuation τ sig (Elt Ideal)) :
    after (l6 (F := Ideal)) V (Proc.devRef .tc main_v50) = val_main_v50 (F := Ideal) (V (Proc.devRef .tc main_arg0)) (V (Proc.devRef .tc main_arg4)) (V (Proc.devRef .tc main_arg5)) := by
  after_results_simp
  rfl

set_option maxRecDepth 8192 in
set_option maxHeartbeats 4000000 in
theorem s6_keep_main_v3 (V : Valuation τ sig (Elt Ideal)) : after (l6 (F := Ideal)) V (Proc.devRef .tc main_v3) = V (Proc.devRef .tc main_v3) := by
  after_results_simp

set_option maxRecDepth 8192 in
set_option maxHeartbeats 4000000 in
theorem s6_keep_main_v6 (V : Valuation τ sig (Elt Ideal)) : after (l6 (F := Ideal)) V (Proc.devRef .tc main_v6) = V (Proc.devRef .tc main_v6) := by
  after_results_simp

set_option maxRecDepth 8192 in
set_option maxHeartbeats 4000000 in
theorem s6_keep_main_v29 (V : Valuation τ sig (Elt Ideal)) : after (l6 (F := Ideal)) V (Proc.devRef .tc main_v29) = V (Proc.devRef .tc main_v29) := by
  after_results_simp

set_option maxRecDepth 8192 in
set_option maxHeartbeats 4000000 in
theorem s6_keep_main_v46 (V : Valuation τ sig (Elt Ideal)) : after (l6 (F := Ideal)) V (Proc.devRef .tc main_v46) = V (Proc.devRef .tc main_v46) := by
  after_results_simp

/-! ### Stretch 7 -/

set_option maxRecDepth 8192 in
set_option maxHeartbeats 4000000 in
theorem s7_main_v52 (V : Valuation τ sig (Elt Ideal)) (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal))
    (h_main_v46 : V (Proc.devRef .tc main_v46) = val_main_v46 (F := Ideal) x0 x1 x2 x3)
    (h_main_v50 : V (Proc.devRef .tc main_v50) = val_main_v50 (F := Ideal) x0 x4 x5) :
    after (l7 (F := Ideal)) V (Proc.devRef .tc main_v52) = val_main_v52 (F := Ideal) x0 x1 x2 x3 x4 x5 := by
  after_results_simp
  rw [h_main_v46, h_main_v50]
  rfl

set_option maxRecDepth 8192 in
set_option maxHeartbeats 4000000 in
theorem s7_keep_main_v3 (V : Valuation τ sig (Elt Ideal)) : after (l7 (F := Ideal)) V (Proc.devRef .tc main_v3) = V (Proc.devRef .tc main_v3) := by
  after_results_simp

set_option maxRecDepth 8192 in
set_option maxHeartbeats 4000000 in
theorem s7_keep_main_v6 (V : Valuation τ sig (Elt Ideal)) : after (l7 (F := Ideal)) V (Proc.devRef .tc main_v6) = V (Proc.devRef .tc main_v6) := by
  after_results_simp

set_option maxRecDepth 8192 in
set_option maxHeartbeats 4000000 in
theorem s7_keep_main_v29 (V : Valuation τ sig (Elt Ideal)) : after (l7 (F := Ideal)) V (Proc.devRef .tc main_v29) = V (Proc.devRef .tc main_v29) := by
  after_results_simp

/-! ### Stretch 8 -/

set_option maxRecDepth 8192 in
set_option maxHeartbeats 4000000 in
theorem s8_main_v65 (V : Valuation τ sig (Elt Ideal)) (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal))
    (h_main_v6 : V (Proc.devRef .tc main_v6) = val_main_v6 (F := Ideal) x1)
    (h_main_v52 : V (Proc.devRef .tc main_v52) = val_main_v52 (F := Ideal) x0 x1 x2 x3 x4 x5)
    (h_main_v3 : V (Proc.devRef .tc main_v3) = val_main_v3 (F := Ideal) x1)
    (h_main_v29 : V (Proc.devRef .tc main_v29) = val_main_v29 (F := Ideal) x1) :
    after (l8 (F := Ideal)) V (Proc.devRef .tc main_v65) = val_main_v65 (F := Ideal) x0 x1 x2 x3 x4 x5 (V (Proc.devRef .tc main_arg6)) := by
  after_results_simp
  rw [h_main_v6, h_main_v52, h_main_v3, h_main_v29]
  rfl

set_option maxRecDepth 8192 in
set_option maxHeartbeats 4000000 in
theorem s8_keep_main_v52 (V : Valuation τ sig (Elt Ideal)) : after (l8 (F := Ideal)) V (Proc.devRef .tc main_v52) = V (Proc.devRef .tc main_v52) := by
  after_results_simp

/-! ### Stretch 9 -/

set_option maxRecDepth 8192 in
set_option maxHeartbeats 4000000 in
theorem s9_main_v74 (V : Valuation τ sig (Elt Ideal)) (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S128x1, .f32⟩ : BufTy).Contents (Elt Ideal))
    (h_main_v65 : V (Proc.devRef .tc main_v65) = val_main_v65 (F := Ideal) x0 x1 x2 x3 x4 x5 x6)
    (h_main_v52 : V (Proc.devRef .tc main_v52) = val_main_v52 (F := Ideal) x0 x1 x2 x3 x4 x5) :
    after (l9 (F := Ideal)) V (Proc.devRef .tc main_v74) = val_main_v74 (F := Ideal) x0 x1 x2 x3 x4 x5 x6 (V (Proc.devRef .tc main_arg7)) (V (Proc.devRef .tc main_arg8)) (V (Proc.devRef .tc main_arg9)) := by
  after_results_simp
  rw [h_main_v65, h_main_v52]
  rfl

/-! ## The chain -/

theorem c0_main_arg0 (V : Valuation τ sig (Elt Ideal)) : V (Proc.devRef .tc main_arg0) = V (Proc.devRef .tc main_arg0) := rfl
theorem c0_main_arg1 (V : Valuation τ sig (Elt Ideal)) : V (Proc.devRef .tc main_arg1) = V (Proc.devRef .tc main_arg1) := rfl
theorem c0_main_arg2 (V : Valuation τ sig (Elt Ideal)) : V (Proc.devRef .tc main_arg2) = V (Proc.devRef .tc main_arg2) := rfl
theorem c0_main_arg3 (V : Valuation τ sig (Elt Ideal)) : V (Proc.devRef .tc main_arg3) = V (Proc.devRef .tc main_arg3) := rfl
theorem c0_main_arg4 (V : Valuation τ sig (Elt Ideal)) : V (Proc.devRef .tc main_arg4) = V (Proc.devRef .tc main_arg4) := rfl
theorem c0_main_arg5 (V : Valuation τ sig (Elt Ideal)) : V (Proc.devRef .tc main_arg5) = V (Proc.devRef .tc main_arg5) := rfl
theorem c0_main_arg6 (V : Valuation τ sig (Elt Ideal)) : V (Proc.devRef .tc main_arg6) = V (Proc.devRef .tc main_arg6) := rfl
theorem c0_main_arg7 (V : Valuation τ sig (Elt Ideal)) : V (Proc.devRef .tc main_arg7) = V (Proc.devRef .tc main_arg7) := rfl
theorem c0_main_arg8 (V : Valuation τ sig (Elt Ideal)) : V (Proc.devRef .tc main_arg8) = V (Proc.devRef .tc main_arg8) := rfl
theorem c0_main_arg9 (V : Valuation τ sig (Elt Ideal)) : V (Proc.devRef .tc main_arg9) = V (Proc.devRef .tc main_arg9) := rfl

theorem c1_main_v3 (V : Valuation τ sig (Elt Ideal)) : (after (l1 (F := Ideal)) V) (Proc.devRef .tc main_v3) = val_main_v3 (F := Ideal) (V (Proc.devRef .tc main_arg1)) := by
  have e := s1_main_v3 V
  exact e

theorem c1_main_v6 (V : Valuation τ sig (Elt Ideal)) : (after (l1 (F := Ideal)) V) (Proc.devRef .tc main_v6) = val_main_v6 (F := Ideal) (V (Proc.devRef .tc main_arg1)) := by
  have e := s1_main_v6 V
  exact e

theorem c1_main_arg0 (V : Valuation τ sig (Elt Ideal)) : (after (l1 (F := Ideal)) V) (Proc.devRef .tc main_arg0) = V (Proc.devRef .tc main_arg0) :=
  (after_of_forall_not_mem (l1 (F := Ideal)) V fun op h => arg0_not_written op (mem_l1 h)).trans (c0_main_arg0 V)

theorem c1_main_arg1 (V : Valuation τ sig (Elt Ideal)) : (after (l1 (F := Ideal)) V) (Proc.devRef .tc main_arg1) = V (Proc.devRef .tc main_arg1) :=
  (after_of_forall_not_mem (l1 (F := Ideal)) V fun op h => arg1_not_written op (mem_l1 h)).trans (c0_main_arg1 V)

theorem c1_main_arg2 (V : Valuation τ sig (Elt Ideal)) : (after (l1 (F := Ideal)) V) (Proc.devRef .tc main_arg2) = V (Proc.devRef .tc main_arg2) :=
  (after_of_forall_not_mem (l1 (F := Ideal)) V fun op h => arg2_not_written op (mem_l1 h)).trans (c0_main_arg2 V)

theorem c1_main_arg3 (V : Valuation τ sig (Elt Ideal)) : (after (l1 (F := Ideal)) V) (Proc.devRef .tc main_arg3) = V (Proc.devRef .tc main_arg3) :=
  (after_of_forall_not_mem (l1 (F := Ideal)) V fun op h => arg3_not_written op (mem_l1 h)).trans (c0_main_arg3 V)

theorem c1_main_arg4 (V : Valuation τ sig (Elt Ideal)) : (after (l1 (F := Ideal)) V) (Proc.devRef .tc main_arg4) = V (Proc.devRef .tc main_arg4) :=
  (after_of_forall_not_mem (l1 (F := Ideal)) V fun op h => arg4_not_written op (mem_l1 h)).trans (c0_main_arg4 V)

theorem c1_main_arg5 (V : Valuation τ sig (Elt Ideal)) : (after (l1 (F := Ideal)) V) (Proc.devRef .tc main_arg5) = V (Proc.devRef .tc main_arg5) :=
  (after_of_forall_not_mem (l1 (F := Ideal)) V fun op h => arg5_not_written op (mem_l1 h)).trans (c0_main_arg5 V)

theorem c1_main_arg6 (V : Valuation τ sig (Elt Ideal)) : (after (l1 (F := Ideal)) V) (Proc.devRef .tc main_arg6) = V (Proc.devRef .tc main_arg6) :=
  (after_of_forall_not_mem (l1 (F := Ideal)) V fun op h => arg6_not_written op (mem_l1 h)).trans (c0_main_arg6 V)

theorem c1_main_arg7 (V : Valuation τ sig (Elt Ideal)) : (after (l1 (F := Ideal)) V) (Proc.devRef .tc main_arg7) = V (Proc.devRef .tc main_arg7) :=
  (after_of_forall_not_mem (l1 (F := Ideal)) V fun op h => arg7_not_written op (mem_l1 h)).trans (c0_main_arg7 V)

theorem c1_main_arg8 (V : Valuation τ sig (Elt Ideal)) : (after (l1 (F := Ideal)) V) (Proc.devRef .tc main_arg8) = V (Proc.devRef .tc main_arg8) :=
  (after_of_forall_not_mem (l1 (F := Ideal)) V fun op h => arg8_not_written op (mem_l1 h)).trans (c0_main_arg8 V)

theorem c1_main_arg9 (V : Valuation τ sig (Elt Ideal)) : (after (l1 (F := Ideal)) V) (Proc.devRef .tc main_arg9) = V (Proc.devRef .tc main_arg9) :=
  (after_of_forall_not_mem (l1 (F := Ideal)) V fun op h => arg9_not_written op (mem_l1 h)).trans (c0_main_arg9 V)

theorem c2_main_v12 (V : Valuation τ sig (Elt Ideal)) : (after (l2 (F := Ideal)) (after (l1 (F := Ideal)) V)) (Proc.devRef .tc main_v12) = val_main_v12 (F := Ideal) (V (Proc.devRef .tc main_arg1)) := by
  have e := s2_main_v12 (after (l1 (F := Ideal)) V) (V (Proc.devRef .tc main_arg1))
  exact e (c1_main_v6 V)

theorem c2_main_v13 (V : Valuation τ sig (Elt Ideal)) : (after (l2 (F := Ideal)) (after (l1 (F := Ideal)) V)) (Proc.devRef .tc main_v13) = val_main_v13 (F := Ideal) (V (Proc.devRef .tc main_arg1)) := by
  have e := s2_main_v13 (after (l1 (F := Ideal)) V) (V (Proc.devRef .tc main_arg1))
  exact e (c1_main_v6 V)

theorem c2_main_call0_v1 (V : Valuation τ sig (Elt Ideal)) : (after (l2 (F := Ideal)) (after (l1 (F := Ideal)) V)) (Proc.devRef .tc main_call0_v1) = val_main_call0_v1 (F := Ideal) := by
  have e := s2_main_call0_v1 (after (l1 (F := Ideal)) V)
  exact e

theorem c2_main_v3 (V : Valuation τ sig (Elt Ideal)) : (after (l2 (F := Ideal)) (after (l1 (F := Ideal)) V)) (Proc.devRef .tc main_v3) = val_main_v3 (F := Ideal) (V (Proc.devRef .tc main_arg1)) :=
  (s2_keep_main_v3 (after (l1 (F := Ideal)) V)).trans (c1_main_v3 V)

theorem c2_main_v6 (V : Valuation τ sig (Elt Ideal)) : (after (l2 (F := Ideal)) (after (l1 (F := Ideal)) V)) (Proc.devRef .tc main_v6) = val_main_v6 (F := Ideal) (V (Proc.devRef .tc main_arg1)) :=
  (s2_keep_main_v6 (after (l1 (F := Ideal)) V)).trans (c1_main_v6 V)

theorem c2_main_arg0 (V : Valuation τ sig (Elt Ideal)) : (after (l2 (F := Ideal)) (after (l1 (F := Ideal)) V)) (Proc.devRef .tc main_arg0) = V (Proc.devRef .tc main_arg0) :=
  (after_of_forall_not_mem (l2 (F := Ideal)) (after (l1 (F := Ideal)) V) fun op h => arg0_not_written op (mem_l2 h)).trans (c1_main_arg0 V)

theorem c2_main_arg1 (V : Valuation τ sig (Elt Ideal)) : (after (l2 (F := Ideal)) (after (l1 (F := Ideal)) V)) (Proc.devRef .tc main_arg1) = V (Proc.devRef .tc main_arg1) :=
  (after_of_forall_not_mem (l2 (F := Ideal)) (after (l1 (F := Ideal)) V) fun op h => arg1_not_written op (mem_l2 h)).trans (c1_main_arg1 V)

theorem c2_main_arg2 (V : Valuation τ sig (Elt Ideal)) : (after (l2 (F := Ideal)) (after (l1 (F := Ideal)) V)) (Proc.devRef .tc main_arg2) = V (Proc.devRef .tc main_arg2) :=
  (after_of_forall_not_mem (l2 (F := Ideal)) (after (l1 (F := Ideal)) V) fun op h => arg2_not_written op (mem_l2 h)).trans (c1_main_arg2 V)

theorem c2_main_arg3 (V : Valuation τ sig (Elt Ideal)) : (after (l2 (F := Ideal)) (after (l1 (F := Ideal)) V)) (Proc.devRef .tc main_arg3) = V (Proc.devRef .tc main_arg3) :=
  (after_of_forall_not_mem (l2 (F := Ideal)) (after (l1 (F := Ideal)) V) fun op h => arg3_not_written op (mem_l2 h)).trans (c1_main_arg3 V)

theorem c2_main_arg4 (V : Valuation τ sig (Elt Ideal)) : (after (l2 (F := Ideal)) (after (l1 (F := Ideal)) V)) (Proc.devRef .tc main_arg4) = V (Proc.devRef .tc main_arg4) :=
  (after_of_forall_not_mem (l2 (F := Ideal)) (after (l1 (F := Ideal)) V) fun op h => arg4_not_written op (mem_l2 h)).trans (c1_main_arg4 V)

theorem c2_main_arg5 (V : Valuation τ sig (Elt Ideal)) : (after (l2 (F := Ideal)) (after (l1 (F := Ideal)) V)) (Proc.devRef .tc main_arg5) = V (Proc.devRef .tc main_arg5) :=
  (after_of_forall_not_mem (l2 (F := Ideal)) (after (l1 (F := Ideal)) V) fun op h => arg5_not_written op (mem_l2 h)).trans (c1_main_arg5 V)

theorem c2_main_arg6 (V : Valuation τ sig (Elt Ideal)) : (after (l2 (F := Ideal)) (after (l1 (F := Ideal)) V)) (Proc.devRef .tc main_arg6) = V (Proc.devRef .tc main_arg6) :=
  (after_of_forall_not_mem (l2 (F := Ideal)) (after (l1 (F := Ideal)) V) fun op h => arg6_not_written op (mem_l2 h)).trans (c1_main_arg6 V)

theorem c2_main_arg7 (V : Valuation τ sig (Elt Ideal)) : (after (l2 (F := Ideal)) (after (l1 (F := Ideal)) V)) (Proc.devRef .tc main_arg7) = V (Proc.devRef .tc main_arg7) :=
  (after_of_forall_not_mem (l2 (F := Ideal)) (after (l1 (F := Ideal)) V) fun op h => arg7_not_written op (mem_l2 h)).trans (c1_main_arg7 V)

theorem c2_main_arg8 (V : Valuation τ sig (Elt Ideal)) : (after (l2 (F := Ideal)) (after (l1 (F := Ideal)) V)) (Proc.devRef .tc main_arg8) = V (Proc.devRef .tc main_arg8) :=
  (after_of_forall_not_mem (l2 (F := Ideal)) (after (l1 (F := Ideal)) V) fun op h => arg8_not_written op (mem_l2 h)).trans (c1_main_arg8 V)

theorem c2_main_arg9 (V : Valuation τ sig (Elt Ideal)) : (after (l2 (F := Ideal)) (after (l1 (F := Ideal)) V)) (Proc.devRef .tc main_arg9) = V (Proc.devRef .tc main_arg9) :=
  (after_of_forall_not_mem (l2 (F := Ideal)) (after (l1 (F := Ideal)) V) fun op h => arg9_not_written op (mem_l2 h)).trans (c1_main_arg9 V)

theorem c3_main_v14 (V : Valuation τ sig (Elt Ideal)) : (after (l3 (F := Ideal)) (after (l2 (F := Ideal)) (after (l1 (F := Ideal)) V))) (Proc.devRef .tc main_v14) = val_main_v14 (F := Ideal) (V (Proc.devRef .tc main_arg1)) := by
  have e := s3_main_v14 (after (l2 (F := Ideal)) (after (l1 (F := Ideal)) V)) (V (Proc.devRef .tc main_arg1))
  exact e (c2_main_v12 V) (c2_main_v13 V) (c2_main_call0_v1 V)

theorem c3_main_v3 (V : Valuation τ sig (Elt Ideal)) : (after (l3 (F := Ideal)) (after (l2 (F := Ideal)) (after (l1 (F := Ideal)) V))) (Proc.devRef .tc main_v3) = val_main_v3 (F := Ideal) (V (Proc.devRef .tc main_arg1)) :=
  (s3_keep_main_v3 (after (l2 (F := Ideal)) (after (l1 (F := Ideal)) V))).trans (c2_main_v3 V)

theorem c3_main_v6 (V : Valuation τ sig (Elt Ideal)) : (after (l3 (F := Ideal)) (after (l2 (F := Ideal)) (after (l1 (F := Ideal)) V))) (Proc.devRef .tc main_v6) = val_main_v6 (F := Ideal) (V (Proc.devRef .tc main_arg1)) :=
  (s3_keep_main_v6 (after (l2 (F := Ideal)) (after (l1 (F := Ideal)) V))).trans (c2_main_v6 V)

theorem c3_main_arg0 (V : Valuation τ sig (Elt Ideal)) : (after (l3 (F := Ideal)) (after (l2 (F := Ideal)) (after (l1 (F := Ideal)) V))) (Proc.devRef .tc main_arg0) = V (Proc.devRef .tc main_arg0) :=
  (after_of_forall_not_mem (l3 (F := Ideal)) (after (l2 (F := Ideal)) (after (l1 (F := Ideal)) V)) fun op h => arg0_not_written op (mem_l3 h)).trans (c2_main_arg0 V)

theorem c3_main_arg1 (V : Valuation τ sig (Elt Ideal)) : (after (l3 (F := Ideal)) (after (l2 (F := Ideal)) (after (l1 (F := Ideal)) V))) (Proc.devRef .tc main_arg1) = V (Proc.devRef .tc main_arg1) :=
  (after_of_forall_not_mem (l3 (F := Ideal)) (after (l2 (F := Ideal)) (after (l1 (F := Ideal)) V)) fun op h => arg1_not_written op (mem_l3 h)).trans (c2_main_arg1 V)

theorem c3_main_arg2 (V : Valuation τ sig (Elt Ideal)) : (after (l3 (F := Ideal)) (after (l2 (F := Ideal)) (after (l1 (F := Ideal)) V))) (Proc.devRef .tc main_arg2) = V (Proc.devRef .tc main_arg2) :=
  (after_of_forall_not_mem (l3 (F := Ideal)) (after (l2 (F := Ideal)) (after (l1 (F := Ideal)) V)) fun op h => arg2_not_written op (mem_l3 h)).trans (c2_main_arg2 V)

theorem c3_main_arg3 (V : Valuation τ sig (Elt Ideal)) : (after (l3 (F := Ideal)) (after (l2 (F := Ideal)) (after (l1 (F := Ideal)) V))) (Proc.devRef .tc main_arg3) = V (Proc.devRef .tc main_arg3) :=
  (after_of_forall_not_mem (l3 (F := Ideal)) (after (l2 (F := Ideal)) (after (l1 (F := Ideal)) V)) fun op h => arg3_not_written op (mem_l3 h)).trans (c2_main_arg3 V)

theorem c3_main_arg4 (V : Valuation τ sig (Elt Ideal)) : (after (l3 (F := Ideal)) (after (l2 (F := Ideal)) (after (l1 (F := Ideal)) V))) (Proc.devRef .tc main_arg4) = V (Proc.devRef .tc main_arg4) :=
  (after_of_forall_not_mem (l3 (F := Ideal)) (after (l2 (F := Ideal)) (after (l1 (F := Ideal)) V)) fun op h => arg4_not_written op (mem_l3 h)).trans (c2_main_arg4 V)

theorem c3_main_arg5 (V : Valuation τ sig (Elt Ideal)) : (after (l3 (F := Ideal)) (after (l2 (F := Ideal)) (after (l1 (F := Ideal)) V))) (Proc.devRef .tc main_arg5) = V (Proc.devRef .tc main_arg5) :=
  (after_of_forall_not_mem (l3 (F := Ideal)) (after (l2 (F := Ideal)) (after (l1 (F := Ideal)) V)) fun op h => arg5_not_written op (mem_l3 h)).trans (c2_main_arg5 V)

theorem c3_main_arg6 (V : Valuation τ sig (Elt Ideal)) : (after (l3 (F := Ideal)) (after (l2 (F := Ideal)) (after (l1 (F := Ideal)) V))) (Proc.devRef .tc main_arg6) = V (Proc.devRef .tc main_arg6) :=
  (after_of_forall_not_mem (l3 (F := Ideal)) (after (l2 (F := Ideal)) (after (l1 (F := Ideal)) V)) fun op h => arg6_not_written op (mem_l3 h)).trans (c2_main_arg6 V)

theorem c3_main_arg7 (V : Valuation τ sig (Elt Ideal)) : (after (l3 (F := Ideal)) (after (l2 (F := Ideal)) (after (l1 (F := Ideal)) V))) (Proc.devRef .tc main_arg7) = V (Proc.devRef .tc main_arg7) :=
  (after_of_forall_not_mem (l3 (F := Ideal)) (after (l2 (F := Ideal)) (after (l1 (F := Ideal)) V)) fun op h => arg7_not_written op (mem_l3 h)).trans (c2_main_arg7 V)

theorem c3_main_arg8 (V : Valuation τ sig (Elt Ideal)) : (after (l3 (F := Ideal)) (after (l2 (F := Ideal)) (after (l1 (F := Ideal)) V))) (Proc.devRef .tc main_arg8) = V (Proc.devRef .tc main_arg8) :=
  (after_of_forall_not_mem (l3 (F := Ideal)) (after (l2 (F := Ideal)) (after (l1 (F := Ideal)) V)) fun op h => arg8_not_written op (mem_l3 h)).trans (c2_main_arg8 V)

theorem c3_main_arg9 (V : Valuation τ sig (Elt Ideal)) : (after (l3 (F := Ideal)) (after (l2 (F := Ideal)) (after (l1 (F := Ideal)) V))) (Proc.devRef .tc main_arg9) = V (Proc.devRef .tc main_arg9) :=
  (after_of_forall_not_mem (l3 (F := Ideal)) (after (l2 (F := Ideal)) (after (l1 (F := Ideal)) V)) fun op h => arg9_not_written op (mem_l3 h)).trans (c2_main_arg9 V)

theorem c4_main_v29 (V : Valuation τ sig (Elt Ideal)) : (after (l4 (F := Ideal)) (after (l3 (F := Ideal)) (after (l2 (F := Ideal)) (after (l1 (F := Ideal)) V)))) (Proc.devRef .tc main_v29) = val_main_v29 (F := Ideal) (V (Proc.devRef .tc main_arg1)) := by
  have e := s4_main_v29 (after (l3 (F := Ideal)) (after (l2 (F := Ideal)) (after (l1 (F := Ideal)) V))) (V (Proc.devRef .tc main_arg1))
  exact e (c3_main_v14 V) (c3_main_v3 V) (c3_main_v6 V)

theorem c4_main_v3 (V : Valuation τ sig (Elt Ideal)) : (after (l4 (F := Ideal)) (after (l3 (F := Ideal)) (after (l2 (F := Ideal)) (after (l1 (F := Ideal)) V)))) (Proc.devRef .tc main_v3) = val_main_v3 (F := Ideal) (V (Proc.devRef .tc main_arg1)) :=
  (s4_keep_main_v3 (after (l3 (F := Ideal)) (after (l2 (F := Ideal)) (after (l1 (F := Ideal)) V)))).trans (c3_main_v3 V)

theorem c4_main_v6 (V : Valuation τ sig (Elt Ideal)) : (after (l4 (F := Ideal)) (after (l3 (F := Ideal)) (after (l2 (F := Ideal)) (after (l1 (F := Ideal)) V)))) (Proc.devRef .tc main_v6) = val_main_v6 (F := Ideal) (V (Proc.devRef .tc main_arg1)) :=
  (s4_keep_main_v6 (after (l3 (F := Ideal)) (after (l2 (F := Ideal)) (after (l1 (F := Ideal)) V)))).trans (c3_main_v6 V)

theorem c4_main_arg0 (V : Valuation τ sig (Elt Ideal)) : (after (l4 (F := Ideal)) (after (l3 (F := Ideal)) (after (l2 (F := Ideal)) (after (l1 (F := Ideal)) V)))) (Proc.devRef .tc main_arg0) = V (Proc.devRef .tc main_arg0) :=
  (after_of_forall_not_mem (l4 (F := Ideal)) (after (l3 (F := Ideal)) (after (l2 (F := Ideal)) (after (l1 (F := Ideal)) V))) fun op h => arg0_not_written op (mem_l4 h)).trans (c3_main_arg0 V)

theorem c4_main_arg1 (V : Valuation τ sig (Elt Ideal)) : (after (l4 (F := Ideal)) (after (l3 (F := Ideal)) (after (l2 (F := Ideal)) (after (l1 (F := Ideal)) V)))) (Proc.devRef .tc main_arg1) = V (Proc.devRef .tc main_arg1) :=
  (after_of_forall_not_mem (l4 (F := Ideal)) (after (l3 (F := Ideal)) (after (l2 (F := Ideal)) (after (l1 (F := Ideal)) V))) fun op h => arg1_not_written op (mem_l4 h)).trans (c3_main_arg1 V)

theorem c4_main_arg2 (V : Valuation τ sig (Elt Ideal)) : (after (l4 (F := Ideal)) (after (l3 (F := Ideal)) (after (l2 (F := Ideal)) (after (l1 (F := Ideal)) V)))) (Proc.devRef .tc main_arg2) = V (Proc.devRef .tc main_arg2) :=
  (after_of_forall_not_mem (l4 (F := Ideal)) (after (l3 (F := Ideal)) (after (l2 (F := Ideal)) (after (l1 (F := Ideal)) V))) fun op h => arg2_not_written op (mem_l4 h)).trans (c3_main_arg2 V)

theorem c4_main_arg3 (V : Valuation τ sig (Elt Ideal)) : (after (l4 (F := Ideal)) (after (l3 (F := Ideal)) (after (l2 (F := Ideal)) (after (l1 (F := Ideal)) V)))) (Proc.devRef .tc main_arg3) = V (Proc.devRef .tc main_arg3) :=
  (after_of_forall_not_mem (l4 (F := Ideal)) (after (l3 (F := Ideal)) (after (l2 (F := Ideal)) (after (l1 (F := Ideal)) V))) fun op h => arg3_not_written op (mem_l4 h)).trans (c3_main_arg3 V)

theorem c4_main_arg4 (V : Valuation τ sig (Elt Ideal)) : (after (l4 (F := Ideal)) (after (l3 (F := Ideal)) (after (l2 (F := Ideal)) (after (l1 (F := Ideal)) V)))) (Proc.devRef .tc main_arg4) = V (Proc.devRef .tc main_arg4) :=
  (after_of_forall_not_mem (l4 (F := Ideal)) (after (l3 (F := Ideal)) (after (l2 (F := Ideal)) (after (l1 (F := Ideal)) V))) fun op h => arg4_not_written op (mem_l4 h)).trans (c3_main_arg4 V)

theorem c4_main_arg5 (V : Valuation τ sig (Elt Ideal)) : (after (l4 (F := Ideal)) (after (l3 (F := Ideal)) (after (l2 (F := Ideal)) (after (l1 (F := Ideal)) V)))) (Proc.devRef .tc main_arg5) = V (Proc.devRef .tc main_arg5) :=
  (after_of_forall_not_mem (l4 (F := Ideal)) (after (l3 (F := Ideal)) (after (l2 (F := Ideal)) (after (l1 (F := Ideal)) V))) fun op h => arg5_not_written op (mem_l4 h)).trans (c3_main_arg5 V)

theorem c4_main_arg6 (V : Valuation τ sig (Elt Ideal)) : (after (l4 (F := Ideal)) (after (l3 (F := Ideal)) (after (l2 (F := Ideal)) (after (l1 (F := Ideal)) V)))) (Proc.devRef .tc main_arg6) = V (Proc.devRef .tc main_arg6) :=
  (after_of_forall_not_mem (l4 (F := Ideal)) (after (l3 (F := Ideal)) (after (l2 (F := Ideal)) (after (l1 (F := Ideal)) V))) fun op h => arg6_not_written op (mem_l4 h)).trans (c3_main_arg6 V)

theorem c4_main_arg7 (V : Valuation τ sig (Elt Ideal)) : (after (l4 (F := Ideal)) (after (l3 (F := Ideal)) (after (l2 (F := Ideal)) (after (l1 (F := Ideal)) V)))) (Proc.devRef .tc main_arg7) = V (Proc.devRef .tc main_arg7) :=
  (after_of_forall_not_mem (l4 (F := Ideal)) (after (l3 (F := Ideal)) (after (l2 (F := Ideal)) (after (l1 (F := Ideal)) V))) fun op h => arg7_not_written op (mem_l4 h)).trans (c3_main_arg7 V)

theorem c4_main_arg8 (V : Valuation τ sig (Elt Ideal)) : (after (l4 (F := Ideal)) (after (l3 (F := Ideal)) (after (l2 (F := Ideal)) (after (l1 (F := Ideal)) V)))) (Proc.devRef .tc main_arg8) = V (Proc.devRef .tc main_arg8) :=
  (after_of_forall_not_mem (l4 (F := Ideal)) (after (l3 (F := Ideal)) (after (l2 (F := Ideal)) (after (l1 (F := Ideal)) V))) fun op h => arg8_not_written op (mem_l4 h)).trans (c3_main_arg8 V)

theorem c4_main_arg9 (V : Valuation τ sig (Elt Ideal)) : (after (l4 (F := Ideal)) (after (l3 (F := Ideal)) (after (l2 (F := Ideal)) (after (l1 (F := Ideal)) V)))) (Proc.devRef .tc main_arg9) = V (Proc.devRef .tc main_arg9) :=
  (after_of_forall_not_mem (l4 (F := Ideal)) (after (l3 (F := Ideal)) (after (l2 (F := Ideal)) (after (l1 (F := Ideal)) V))) fun op h => arg9_not_written op (mem_l4 h)).trans (c3_main_arg9 V)

theorem c5_main_v46 (V : Valuation τ sig (Elt Ideal)) : (after (l5 (F := Ideal)) (after (l4 (F := Ideal)) (after (l3 (F := Ideal)) (after (l2 (F := Ideal)) (after (l1 (F := Ideal)) V))))) (Proc.devRef .tc main_v46) = val_main_v46 (F := Ideal) (V (Proc.devRef .tc main_arg0)) (V (Proc.devRef .tc main_arg1)) (V (Proc.devRef .tc main_arg2)) (V (Proc.devRef .tc main_arg3)) := by
  have e := s5_main_v46 (after (l4 (F := Ideal)) (after (l3 (F := Ideal)) (after (l2 (F := Ideal)) (after (l1 (F := Ideal)) V)))) (V (Proc.devRef .tc main_arg1))
  rw [c4_main_arg0 V, c4_main_arg2 V, c4_main_arg3 V] at e
  exact e (c4_main_v6 V) (c4_main_v3 V) (c4_main_v29 V)

theorem c5_main_v3 (V : Valuation τ sig (Elt Ideal)) : (after (l5 (F := Ideal)) (after (l4 (F := Ideal)) (after (l3 (F := Ideal)) (after (l2 (F := Ideal)) (after (l1 (F := Ideal)) V))))) (Proc.devRef .tc main_v3) = val_main_v3 (F := Ideal) (V (Proc.devRef .tc main_arg1)) :=
  (s5_keep_main_v3 (after (l4 (F := Ideal)) (after (l3 (F := Ideal)) (after (l2 (F := Ideal)) (after (l1 (F := Ideal)) V))))).trans (c4_main_v3 V)

theorem c5_main_v6 (V : Valuation τ sig (Elt Ideal)) : (after (l5 (F := Ideal)) (after (l4 (F := Ideal)) (after (l3 (F := Ideal)) (after (l2 (F := Ideal)) (after (l1 (F := Ideal)) V))))) (Proc.devRef .tc main_v6) = val_main_v6 (F := Ideal) (V (Proc.devRef .tc main_arg1)) :=
  (s5_keep_main_v6 (after (l4 (F := Ideal)) (after (l3 (F := Ideal)) (after (l2 (F := Ideal)) (after (l1 (F := Ideal)) V))))).trans (c4_main_v6 V)

theorem c5_main_v29 (V : Valuation τ sig (Elt Ideal)) : (after (l5 (F := Ideal)) (after (l4 (F := Ideal)) (after (l3 (F := Ideal)) (after (l2 (F := Ideal)) (after (l1 (F := Ideal)) V))))) (Proc.devRef .tc main_v29) = val_main_v29 (F := Ideal) (V (Proc.devRef .tc main_arg1)) :=
  (s5_keep_main_v29 (after (l4 (F := Ideal)) (after (l3 (F := Ideal)) (after (l2 (F := Ideal)) (after (l1 (F := Ideal)) V))))).trans (c4_main_v29 V)

theorem c5_main_arg0 (V : Valuation τ sig (Elt Ideal)) : (after (l5 (F := Ideal)) (after (l4 (F := Ideal)) (after (l3 (F := Ideal)) (after (l2 (F := Ideal)) (after (l1 (F := Ideal)) V))))) (Proc.devRef .tc main_arg0) = V (Proc.devRef .tc main_arg0) :=
  (after_of_forall_not_mem (l5 (F := Ideal)) (after (l4 (F := Ideal)) (after (l3 (F := Ideal)) (after (l2 (F := Ideal)) (after (l1 (F := Ideal)) V)))) fun op h => arg0_not_written op (mem_l5 h)).trans (c4_main_arg0 V)

theorem c5_main_arg1 (V : Valuation τ sig (Elt Ideal)) : (after (l5 (F := Ideal)) (after (l4 (F := Ideal)) (after (l3 (F := Ideal)) (after (l2 (F := Ideal)) (after (l1 (F := Ideal)) V))))) (Proc.devRef .tc main_arg1) = V (Proc.devRef .tc main_arg1) :=
  (after_of_forall_not_mem (l5 (F := Ideal)) (after (l4 (F := Ideal)) (after (l3 (F := Ideal)) (after (l2 (F := Ideal)) (after (l1 (F := Ideal)) V)))) fun op h => arg1_not_written op (mem_l5 h)).trans (c4_main_arg1 V)

theorem c5_main_arg2 (V : Valuation τ sig (Elt Ideal)) : (after (l5 (F := Ideal)) (after (l4 (F := Ideal)) (after (l3 (F := Ideal)) (after (l2 (F := Ideal)) (after (l1 (F := Ideal)) V))))) (Proc.devRef .tc main_arg2) = V (Proc.devRef .tc main_arg2) :=
  (after_of_forall_not_mem (l5 (F := Ideal)) (after (l4 (F := Ideal)) (after (l3 (F := Ideal)) (after (l2 (F := Ideal)) (after (l1 (F := Ideal)) V)))) fun op h => arg2_not_written op (mem_l5 h)).trans (c4_main_arg2 V)

theorem c5_main_arg3 (V : Valuation τ sig (Elt Ideal)) : (after (l5 (F := Ideal)) (after (l4 (F := Ideal)) (after (l3 (F := Ideal)) (after (l2 (F := Ideal)) (after (l1 (F := Ideal)) V))))) (Proc.devRef .tc main_arg3) = V (Proc.devRef .tc main_arg3) :=
  (after_of_forall_not_mem (l5 (F := Ideal)) (after (l4 (F := Ideal)) (after (l3 (F := Ideal)) (after (l2 (F := Ideal)) (after (l1 (F := Ideal)) V)))) fun op h => arg3_not_written op (mem_l5 h)).trans (c4_main_arg3 V)

theorem c5_main_arg4 (V : Valuation τ sig (Elt Ideal)) : (after (l5 (F := Ideal)) (after (l4 (F := Ideal)) (after (l3 (F := Ideal)) (after (l2 (F := Ideal)) (after (l1 (F := Ideal)) V))))) (Proc.devRef .tc main_arg4) = V (Proc.devRef .tc main_arg4) :=
  (after_of_forall_not_mem (l5 (F := Ideal)) (after (l4 (F := Ideal)) (after (l3 (F := Ideal)) (after (l2 (F := Ideal)) (after (l1 (F := Ideal)) V)))) fun op h => arg4_not_written op (mem_l5 h)).trans (c4_main_arg4 V)

theorem c5_main_arg5 (V : Valuation τ sig (Elt Ideal)) : (after (l5 (F := Ideal)) (after (l4 (F := Ideal)) (after (l3 (F := Ideal)) (after (l2 (F := Ideal)) (after (l1 (F := Ideal)) V))))) (Proc.devRef .tc main_arg5) = V (Proc.devRef .tc main_arg5) :=
  (after_of_forall_not_mem (l5 (F := Ideal)) (after (l4 (F := Ideal)) (after (l3 (F := Ideal)) (after (l2 (F := Ideal)) (after (l1 (F := Ideal)) V)))) fun op h => arg5_not_written op (mem_l5 h)).trans (c4_main_arg5 V)

theorem c5_main_arg6 (V : Valuation τ sig (Elt Ideal)) : (after (l5 (F := Ideal)) (after (l4 (F := Ideal)) (after (l3 (F := Ideal)) (after (l2 (F := Ideal)) (after (l1 (F := Ideal)) V))))) (Proc.devRef .tc main_arg6) = V (Proc.devRef .tc main_arg6) :=
  (after_of_forall_not_mem (l5 (F := Ideal)) (after (l4 (F := Ideal)) (after (l3 (F := Ideal)) (after (l2 (F := Ideal)) (after (l1 (F := Ideal)) V)))) fun op h => arg6_not_written op (mem_l5 h)).trans (c4_main_arg6 V)

theorem c5_main_arg7 (V : Valuation τ sig (Elt Ideal)) : (after (l5 (F := Ideal)) (after (l4 (F := Ideal)) (after (l3 (F := Ideal)) (after (l2 (F := Ideal)) (after (l1 (F := Ideal)) V))))) (Proc.devRef .tc main_arg7) = V (Proc.devRef .tc main_arg7) :=
  (after_of_forall_not_mem (l5 (F := Ideal)) (after (l4 (F := Ideal)) (after (l3 (F := Ideal)) (after (l2 (F := Ideal)) (after (l1 (F := Ideal)) V)))) fun op h => arg7_not_written op (mem_l5 h)).trans (c4_main_arg7 V)

theorem c5_main_arg8 (V : Valuation τ sig (Elt Ideal)) : (after (l5 (F := Ideal)) (after (l4 (F := Ideal)) (after (l3 (F := Ideal)) (after (l2 (F := Ideal)) (after (l1 (F := Ideal)) V))))) (Proc.devRef .tc main_arg8) = V (Proc.devRef .tc main_arg8) :=
  (after_of_forall_not_mem (l5 (F := Ideal)) (after (l4 (F := Ideal)) (after (l3 (F := Ideal)) (after (l2 (F := Ideal)) (after (l1 (F := Ideal)) V)))) fun op h => arg8_not_written op (mem_l5 h)).trans (c4_main_arg8 V)

theorem c5_main_arg9 (V : Valuation τ sig (Elt Ideal)) : (after (l5 (F := Ideal)) (after (l4 (F := Ideal)) (after (l3 (F := Ideal)) (after (l2 (F := Ideal)) (after (l1 (F := Ideal)) V))))) (Proc.devRef .tc main_arg9) = V (Proc.devRef .tc main_arg9) :=
  (after_of_forall_not_mem (l5 (F := Ideal)) (after (l4 (F := Ideal)) (after (l3 (F := Ideal)) (after (l2 (F := Ideal)) (after (l1 (F := Ideal)) V)))) fun op h => arg9_not_written op (mem_l5 h)).trans (c4_main_arg9 V)

theorem c6_main_v50 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_v50) = val_main_v50 (F := Ideal) (V (Proc.devRef .tc main_arg0)) (V (Proc.devRef .tc main_arg4)) (V (Proc.devRef .tc main_arg5)) := by
  have e := s6_main_v50 (after (l5 (F := Ideal)) (after (l4 (F := Ideal)) (after (l3 (F := Ideal)) (after (l2 (F := Ideal)) (after (l1 (F := Ideal)) V)))))
  rw [c5_main_arg0 V, c5_main_arg4 V, c5_main_arg5 V] at e
  exact e

theorem c6_main_v3 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_v3) = val_main_v3 (F := Ideal) (V (Proc.devRef .tc main_arg1)) :=
  (s6_keep_main_v3 (after (l5 (F := Ideal)) (after (l4 (F := Ideal)) (after (l3 (F := Ideal)) (after (l2 (F := Ideal)) (after (l1 (F := Ideal)) V)))))).trans (c5_main_v3 V)

theorem c6_main_v6 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_v6) = val_main_v6 (F := Ideal) (V (Proc.devRef .tc main_arg1)) :=
  (s6_keep_main_v6 (after (l5 (F := Ideal)) (after (l4 (F := Ideal)) (after (l3 (F := Ideal)) (after (l2 (F := Ideal)) (after (l1 (F := Ideal)) V)))))).trans (c5_main_v6 V)

theorem c6_main_v29 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_v29) = val_main_v29 (F := Ideal) (V (Proc.devRef .tc main_arg1)) :=
  (s6_keep_main_v29 (after (l5 (F := Ideal)) (after (l4 (F := Ideal)) (after (l3 (F := Ideal)) (after (l2 (F := Ideal)) (after (l1 (F := Ideal)) V)))))).trans (c5_main_v29 V)

theorem c6_main_v46 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_v46) = val_main_v46 (F := Ideal) (V (Proc.devRef .tc main_arg0)) (V (Proc.devRef .tc main_arg1)) (V (Proc.devRef .tc main_arg2)) (V (Proc.devRef .tc main_arg3)) :=
  (s6_keep_main_v46 (after (l5 (F := Ideal)) (after (l4 (F := Ideal)) (after (l3 (F := Ideal)) (after (l2 (F := Ideal)) (after (l1 (F := Ideal)) V)))))).trans (c5_main_v46 V)

theorem c6_main_arg0 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg0) = V (Proc.devRef .tc main_arg0) :=
  (after_of_forall_not_mem (l6 (F := Ideal)) (after (l5 (F := Ideal)) (after (l4 (F := Ideal)) (after (l3 (F := Ideal)) (after (l2 (F := Ideal)) (after (l1 (F := Ideal)) V))))) fun op h => arg0_not_written op (mem_l6 h)).trans (c5_main_arg0 V)

theorem c6_main_arg1 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg1) = V (Proc.devRef .tc main_arg1) :=
  (after_of_forall_not_mem (l6 (F := Ideal)) (after (l5 (F := Ideal)) (after (l4 (F := Ideal)) (after (l3 (F := Ideal)) (after (l2 (F := Ideal)) (after (l1 (F := Ideal)) V))))) fun op h => arg1_not_written op (mem_l6 h)).trans (c5_main_arg1 V)

theorem c6_main_arg2 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg2) = V (Proc.devRef .tc main_arg2) :=
  (after_of_forall_not_mem (l6 (F := Ideal)) (after (l5 (F := Ideal)) (after (l4 (F := Ideal)) (after (l3 (F := Ideal)) (after (l2 (F := Ideal)) (after (l1 (F := Ideal)) V))))) fun op h => arg2_not_written op (mem_l6 h)).trans (c5_main_arg2 V)

theorem c6_main_arg3 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg3) = V (Proc.devRef .tc main_arg3) :=
  (after_of_forall_not_mem (l6 (F := Ideal)) (after (l5 (F := Ideal)) (after (l4 (F := Ideal)) (after (l3 (F := Ideal)) (after (l2 (F := Ideal)) (after (l1 (F := Ideal)) V))))) fun op h => arg3_not_written op (mem_l6 h)).trans (c5_main_arg3 V)

theorem c6_main_arg4 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg4) = V (Proc.devRef .tc main_arg4) :=
  (after_of_forall_not_mem (l6 (F := Ideal)) (after (l5 (F := Ideal)) (after (l4 (F := Ideal)) (after (l3 (F := Ideal)) (after (l2 (F := Ideal)) (after (l1 (F := Ideal)) V))))) fun op h => arg4_not_written op (mem_l6 h)).trans (c5_main_arg4 V)

theorem c6_main_arg5 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg5) = V (Proc.devRef .tc main_arg5) :=
  (after_of_forall_not_mem (l6 (F := Ideal)) (after (l5 (F := Ideal)) (after (l4 (F := Ideal)) (after (l3 (F := Ideal)) (after (l2 (F := Ideal)) (after (l1 (F := Ideal)) V))))) fun op h => arg5_not_written op (mem_l6 h)).trans (c5_main_arg5 V)

theorem c6_main_arg6 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg6) = V (Proc.devRef .tc main_arg6) :=
  (after_of_forall_not_mem (l6 (F := Ideal)) (after (l5 (F := Ideal)) (after (l4 (F := Ideal)) (after (l3 (F := Ideal)) (after (l2 (F := Ideal)) (after (l1 (F := Ideal)) V))))) fun op h => arg6_not_written op (mem_l6 h)).trans (c5_main_arg6 V)

theorem c6_main_arg7 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg7) = V (Proc.devRef .tc main_arg7) :=
  (after_of_forall_not_mem (l6 (F := Ideal)) (after (l5 (F := Ideal)) (after (l4 (F := Ideal)) (after (l3 (F := Ideal)) (after (l2 (F := Ideal)) (after (l1 (F := Ideal)) V))))) fun op h => arg7_not_written op (mem_l6 h)).trans (c5_main_arg7 V)

theorem c6_main_arg8 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg8) = V (Proc.devRef .tc main_arg8) :=
  (after_of_forall_not_mem (l6 (F := Ideal)) (after (l5 (F := Ideal)) (after (l4 (F := Ideal)) (after (l3 (F := Ideal)) (after (l2 (F := Ideal)) (after (l1 (F := Ideal)) V))))) fun op h => arg8_not_written op (mem_l6 h)).trans (c5_main_arg8 V)

theorem c6_main_arg9 (V : Valuation τ sig (Elt Ideal)) : (after (l6 (F := Ideal)) (after (l5 (F := Ideal)) (after (l4 (F := Ideal)) (after (l3 (F := Ideal)) (after (l2 (F := Ideal)) (after (l1 (F := Ideal)) V)))))) (Proc.devRef .tc main_arg9) = V (Proc.devRef .tc main_arg9) :=
  (after_of_forall_not_mem (l6 (F := Ideal)) (after (l5 (F := Ideal)) (after (l4 (F := Ideal)) (after (l3 (F := Ideal)) (after (l2 (F := Ideal)) (after (l1 (F := Ideal)) V))))) fun op h => arg9_not_written op (mem_l6 h)).trans (c5_main_arg9 V)

theorem c7_main_v52 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_v52) = val_main_v52 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have e := s7_main_v52 (after (l6 (F := Ideal)) (after (l5 (F := Ideal)) (after (l4 (F := Ideal)) (after (l3 (F := Ideal)) (after (l2 (F := Ideal)) (after (l1 (F := Ideal)) V)))))) (V (Proc.devRef .tc main_arg0)) (V (Proc.devRef .tc main_arg1)) (V (Proc.devRef .tc main_arg2)) (V (Proc.devRef .tc main_arg3)) (V (Proc.devRef .tc main_arg4)) (V (Proc.devRef .tc main_arg5))
  exact e (c6_main_v46 V) (c6_main_v50 V)

theorem c7_main_v3 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_v3) = val_main_v3 (F := Ideal) (V (Proc.devRef .tc main_arg1)) :=
  (s7_keep_main_v3 (after (l6 (F := Ideal)) (after (l5 (F := Ideal)) (after (l4 (F := Ideal)) (after (l3 (F := Ideal)) (after (l2 (F := Ideal)) (after (l1 (F := Ideal)) V))))))).trans (c6_main_v3 V)

theorem c7_main_v6 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_v6) = val_main_v6 (F := Ideal) (V (Proc.devRef .tc main_arg1)) :=
  (s7_keep_main_v6 (after (l6 (F := Ideal)) (after (l5 (F := Ideal)) (after (l4 (F := Ideal)) (after (l3 (F := Ideal)) (after (l2 (F := Ideal)) (after (l1 (F := Ideal)) V))))))).trans (c6_main_v6 V)

theorem c7_main_v29 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_v29) = val_main_v29 (F := Ideal) (V (Proc.devRef .tc main_arg1)) :=
  (s7_keep_main_v29 (after (l6 (F := Ideal)) (after (l5 (F := Ideal)) (after (l4 (F := Ideal)) (after (l3 (F := Ideal)) (after (l2 (F := Ideal)) (after (l1 (F := Ideal)) V))))))).trans (c6_main_v29 V)

theorem c7_main_arg0 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg0) = V (Proc.devRef .tc main_arg0) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg0_not_written op (mem_l7 h)).trans (c6_main_arg0 V)

theorem c7_main_arg1 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg1) = V (Proc.devRef .tc main_arg1) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg1_not_written op (mem_l7 h)).trans (c6_main_arg1 V)

theorem c7_main_arg2 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg2) = V (Proc.devRef .tc main_arg2) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg2_not_written op (mem_l7 h)).trans (c6_main_arg2 V)

theorem c7_main_arg3 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg3) = V (Proc.devRef .tc main_arg3) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg3_not_written op (mem_l7 h)).trans (c6_main_arg3 V)

theorem c7_main_arg4 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg4) = V (Proc.devRef .tc main_arg4) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg4_not_written op (mem_l7 h)).trans (c6_main_arg4 V)

theorem c7_main_arg5 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg5) = V (Proc.devRef .tc main_arg5) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg5_not_written op (mem_l7 h)).trans (c6_main_arg5 V)

theorem c7_main_arg6 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg6) = V (Proc.devRef .tc main_arg6) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg6_not_written op (mem_l7 h)).trans (c6_main_arg6 V)

theorem c7_main_arg7 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg7) = V (Proc.devRef .tc main_arg7) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg7_not_written op (mem_l7 h)).trans (c6_main_arg7 V)

theorem c7_main_arg8 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg8) = V (Proc.devRef .tc main_arg8) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg8_not_written op (mem_l7 h)).trans (c6_main_arg8 V)

theorem c7_main_arg9 (V : Valuation τ sig (Elt Ideal)) : (after (l7 (F := Ideal)) (after (l6 (F := Ideal)) (after (l5 (F := Ideal)) (after (l4 (F := Ideal)) (after (l3 (F := Ideal)) (after (l2 (F := Ideal)) (after (l1 (F := Ideal)) V))))))) (Proc.devRef .tc main_arg9) = V (Proc.devRef .tc main_arg9) :=
  (after_of_forall_not_mem (l7 (F := Ideal)) (after (l6 (F := Ideal)) (after (l5 (F := Ideal)) (after (l4 (F := Ideal)) (after (l3 (F := Ideal)) (after (l2 (F := Ideal)) (after (l1 (F := Ideal)) V)))))) fun op h => arg9_not_written op (mem_l7 h)).trans (c6_main_arg9 V)

theorem c8_main_v65 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_v65) = val_main_v65 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have e := s8_main_v65 (after (l7 (F := Ideal)) (after (l6 (F := Ideal)) (after (l5 (F := Ideal)) (after (l4 (F := Ideal)) (after (l3 (F := Ideal)) (after (l2 (F := Ideal)) (after (l1 (F := Ideal)) V))))))) (V (Proc.devRef .tc main_arg0)) (V (Proc.devRef .tc main_arg1)) (V (Proc.devRef .tc main_arg2)) (V (Proc.devRef .tc main_arg3)) (V (Proc.devRef .tc main_arg4)) (V (Proc.devRef .tc main_arg5))
  rw [c7_main_arg6 V] at e
  exact e (c7_main_v6 V) (c7_main_v52 V) (c7_main_v3 V) (c7_main_v29 V)

theorem c8_main_v52 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_v52) = val_main_v52 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (s8_keep_main_v52 (after (l7 (F := Ideal)) (after (l6 (F := Ideal)) (after (l5 (F := Ideal)) (after (l4 (F := Ideal)) (after (l3 (F := Ideal)) (after (l2 (F := Ideal)) (after (l1 (F := Ideal)) V)))))))).trans (c7_main_v52 V)

theorem c8_main_arg0 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg0) = V (Proc.devRef .tc main_arg0) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg0_not_written op (mem_l8 h)).trans (c7_main_arg0 V)

theorem c8_main_arg1 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg1) = V (Proc.devRef .tc main_arg1) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg1_not_written op (mem_l8 h)).trans (c7_main_arg1 V)

theorem c8_main_arg2 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg2) = V (Proc.devRef .tc main_arg2) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg2_not_written op (mem_l8 h)).trans (c7_main_arg2 V)

theorem c8_main_arg3 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg3) = V (Proc.devRef .tc main_arg3) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg3_not_written op (mem_l8 h)).trans (c7_main_arg3 V)

theorem c8_main_arg4 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg4) = V (Proc.devRef .tc main_arg4) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg4_not_written op (mem_l8 h)).trans (c7_main_arg4 V)

theorem c8_main_arg5 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg5) = V (Proc.devRef .tc main_arg5) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg5_not_written op (mem_l8 h)).trans (c7_main_arg5 V)

theorem c8_main_arg6 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg6) = V (Proc.devRef .tc main_arg6) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg6_not_written op (mem_l8 h)).trans (c7_main_arg6 V)

theorem c8_main_arg7 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg7) = V (Proc.devRef .tc main_arg7) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg7_not_written op (mem_l8 h)).trans (c7_main_arg7 V)

theorem c8_main_arg8 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg8) = V (Proc.devRef .tc main_arg8) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg8_not_written op (mem_l8 h)).trans (c7_main_arg8 V)

theorem c8_main_arg9 (V : Valuation τ sig (Elt Ideal)) : (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (Proc.devRef .tc main_arg9) = V (Proc.devRef .tc main_arg9) :=
  (after_of_forall_not_mem (l8 (F := Ideal)) (after (l7 (F := Ideal)) (after (l6 (F := Ideal)) (after (l5 (F := Ideal)) (after (l4 (F := Ideal)) (after (l3 (F := Ideal)) (after (l2 (F := Ideal)) (after (l1 (F := Ideal)) V))))))) fun op h => arg9_not_written op (mem_l8 h)).trans (c7_main_arg9 V)

theorem c9_main_v74 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_v74) = val_main_v74 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have e := s9_main_v74 (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
  rw [c8_main_arg7 V, c8_main_arg8 V, c8_main_arg9 V] at e
  exact e (c8_main_v65 V) (c8_main_v52 V)

theorem c9_main_arg0 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg0) = V (Proc.devRef .tc main_arg0) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg0_not_written op (mem_l9 h)).trans (c8_main_arg0 V)

theorem c9_main_arg1 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg1) = V (Proc.devRef .tc main_arg1) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg1_not_written op (mem_l9 h)).trans (c8_main_arg1 V)

theorem c9_main_arg2 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg2) = V (Proc.devRef .tc main_arg2) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg2_not_written op (mem_l9 h)).trans (c8_main_arg2 V)

theorem c9_main_arg3 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg3) = V (Proc.devRef .tc main_arg3) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg3_not_written op (mem_l9 h)).trans (c8_main_arg3 V)

theorem c9_main_arg4 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg4) = V (Proc.devRef .tc main_arg4) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg4_not_written op (mem_l9 h)).trans (c8_main_arg4 V)

theorem c9_main_arg5 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg5) = V (Proc.devRef .tc main_arg5) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg5_not_written op (mem_l9 h)).trans (c8_main_arg5 V)

theorem c9_main_arg6 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg6) = V (Proc.devRef .tc main_arg6) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg6_not_written op (mem_l9 h)).trans (c8_main_arg6 V)

theorem c9_main_arg7 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg7) = V (Proc.devRef .tc main_arg7) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg7_not_written op (mem_l9 h)).trans (c8_main_arg7 V)

theorem c9_main_arg8 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg8) = V (Proc.devRef .tc main_arg8) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg8_not_written op (mem_l9 h)).trans (c8_main_arg8 V)

theorem c9_main_arg9 (V : Valuation τ sig (Elt Ideal)) : (after (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V))))))))) (Proc.devRef .tc main_arg9) = V (Proc.devRef .tc main_arg9) :=
  (after_of_forall_not_mem (l9 (F := Ideal)) (after (l8 (F := Ideal)) (after (l7 (F := Ideal)) (after (l6 (F := Ideal)) (after (l5 (F := Ideal)) (after (l4 (F := Ideal)) (after (l3 (F := Ideal)) (after (l2 (F := Ideal)) (after (l1 (F := Ideal)) V)))))))) fun op h => arg9_not_written op (mem_l9 h)).trans (c8_main_arg9 V)

/-! ## The run -/

set_option maxRecDepth 8192 in
set_option maxHeartbeats 4000000 in
/-- On every device, from any memory with zero counters: every weakly fair execution of @main terminates with the result
    buffer at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74)
        = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v74).trans ((congrFun (ops_after _) _).trans (c9_main_v74 (launchContents m c))),
      (h c main_arg0).trans ((congrFun (ops_after _) _).trans (c9_main_arg0 (launchContents m c))),
      (h c main_arg1).trans ((congrFun (ops_after _) _).trans (c9_main_arg1 (launchContents m c))),
      (h c main_arg2).trans ((congrFun (ops_after _) _).trans (c9_main_arg2 (launchContents m c))),
      (h c main_arg3).trans ((congrFun (ops_after _) _).trans (c9_main_arg3 (launchContents m c))),
      (h c main_arg4).trans ((congrFun (ops_after _) _).trans (c9_main_arg4 (launchContents m c))),
      (h c main_arg5).trans ((congrFun (ops_after _) _).trans (c9_main_arg5 (launchContents m c))),
      (h c main_arg6).trans ((congrFun (ops_after _) _).trans (c9_main_arg6 (launchContents m c))),
      (h c main_arg7).trans ((congrFun (ops_after _) _).trans (c9_main_arg7 (launchContents m c))),
      (h c main_arg8).trans ((congrFun (ops_after _) _).trans (c9_main_arg8 (launchContents m c))),
      (h c main_arg9).trans ((congrFun (ops_after _) _).trans (c9_main_arg9 (launchContents m c)))⟩)
    (run_seq scopedRefs_eq scopedSems_eq defs main (fun _ => ops) main_eq (fun _ => ops_sub) m ρ)

end Cert.ReferenceIdeal.Fast

end
-- ==== Proof.KernelRun.lean ====
/-
  The idealized kernel program's run, with its result named.

  The program is seven segments: three stretches of host operations, the first kernel region, a stretch, the second kernel
  region, a last stretch. Every weakly fair execution from a memory with zero counters ends, nothing faulting, with each
  unscoped buffer at the contents the segments' fold gives it; read at the result buffer this is the fold's value there, and at
  the argument buffers the launch contents. This is the launch theorem for several regions applied to the segments of the
  generated frame, the final state read at one more buffer than the frame itself reads.
-/
import proofs.«122140_j46574625358105_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the value the segments' fold gives it
    and the argument arrays as launched. -/
theorem run_value : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Run

end
-- ==== Proof.KernelHost.lean ====
/-
  The host operations of the idealized kernel program, read at the buffers the two kernel regions and the result use.

  Before the first region the program computes, from the edge array alone, the edges' source and target numbers (each half of the
  edge array followed by one self loop per node), the in-degree of every node (an accumulating scatter of ones by target) and
  its guarded inverse square root dinv, kept as a column. These are, operation for operation, the reference's own first
  operations, so each of these buffers holds the reference's stage of the same meaning. Between the regions the program gathers
  the rows of the first region's first output by source and scatter-adds them by target; after the second region it does the same
  with the second region's first output, scales by dinv, and adds the bias and the second output. A buffer that no operation
  writes and that is no output of a region keeps its contents across the segments.
-/
import proofs.«122140_j46574625358105_2_alg».proof.Proof.Gen.KernelIdeal.Frame
import proofs.«122140_j46574625358105_2_alg».proof.Proof.RefRead
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

/-! The dinv column, one stretch at a time: the comparison, the inverse square root and the zero vector after the first stretch
    are the reference's; the select of the second stretch and the reshape of the third are read over an arbitrary valuation. -/

set_option maxHeartbeats 8000000 in
theorem w1_v12 : W1 (F := Ideal) m ρ c (Proc.devRef .tc main_v12)
    = Cert.ReferenceIdeal.Read.val_main_v12 (F := Ideal) (m ((c : Thread nD τ).loc main_arg1)) := by
  show StableHlo.after hostOps0 (W0 m ρ c) (Proc.devRef .tc main_v12) = _
  after_results_simp
  rfl

set_option maxHeartbeats 8000000 in
theorem w1_v13 : W1 (F := Ideal) m ρ c (Proc.devRef .tc main_v13)
    = Cert.ReferenceIdeal.Read.val_main_v13 (F := Ideal) (m ((c : Thread nD τ).loc main_arg1)) := by
  show StableHlo.after hostOps0 (W0 m ρ c) (Proc.devRef .tc main_v13) = _
  after_results_simp
  rfl

set_option maxHeartbeats 8000000 in
theorem w1_v14 : W1 (F := Ideal) m ρ c (Proc.devRef .tc main_v14) = Cert.ReferenceIdeal.Read.val_main_call0_v1 (F := Ideal) := by
  show StableHlo.after hostOps0 (W0 m ρ c) (Proc.devRef .tc main_v14) = _
  after_results_simp
  rfl

set_option maxHeartbeats 8000000 in
/-- The second stretch (the select) from any contents. -/
theorem select_step (V1 : Valuation τ sig (Elt Ideal)) :
    StableHlo.after (hostOps0_1 (F := Ideal)) V1 (Proc.devRef .tc main_v15)
      = select (V1 (Proc.devRef .tc main_v12)) (V1 (Proc.devRef .tc main_v13)) (V1 (Proc.devRef .tc main_v14)) := by
  after_results_simp
  rfl

set_option maxHeartbeats 8000000 in
/-- The third stretch (the reshape to a column) from any contents. -/
theorem column_step (V2 : Valuation τ sig (Elt Ideal)) :
    StableHlo.after (hostOps0_2 (F := Ideal)) V2 (Proc.devRef .tc main_v16)
      = shapeCast S100000x1 (V2 (Proc.devRef .tc main_v15)) shapeCasts_S100000_S100000x1 := by
  after_results_simp
  rfl

/-- The dinv column is the reference's dinv vector as a column. -/
theorem w3_v16 : W3 (F := Ideal) m ρ c (Proc.devRef .tc main_v16)
    = shapeCast S100000x1 (Cert.ReferenceIdeal.Read.val_main_v14 (F := Ideal) (m ((c : Thread nD τ).loc main_arg1))) shapeCasts_S100000_S100000x1 := by
  show StableHlo.after hostOps0_2 (W2 m ρ c) (Proc.devRef .tc main_v16) = _
  rw [column_step]
  show shapeCast S100000x1 (StableHlo.after hostOps0_1 (W1 m ρ c) (Proc.devRef .tc main_v15)) shapeCasts_S100000_S100000x1 = _
  rw [select_step, w1_v12, w1_v13, w1_v14]
  rfl

set_option maxHeartbeats 4000000 in
/-- The first region's bias row is the bias vector as a row. -/
theorem w3_v17 : W3 (F := Ideal) m ρ c (Proc.devRef .tc main_v17) = shapeCast S1x64 (m ((c : Thread nD τ).loc main_arg5)) shapeCasts_S64_S1x64 := by
  show StableHlo.after hostOps0_2 (StableHlo.after hostOps0_1 (StableHlo.after hostOps0 (W0 m ρ c))) (Proc.devRef .tc main_v17) = _
  after_results_simp
  rfl

set_option maxHeartbeats 4000000 in
/-- The edges' source numbers are the reference's. -/
theorem w3_v3 : W3 (F := Ideal) m ρ c (Proc.devRef .tc main_v3)
    = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The edges' target numbers are the reference's. -/
theorem w3_v6 : W3 (F := Ideal) m ρ c (Proc.devRef .tc main_v6)
    = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

/-! The argument arrays are as launched. -/
set_option maxHeartbeats 4000000 in
theorem w3_arg0 : W3 (F := Ideal) m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

set_option maxHeartbeats 4000000 in
theorem w3_arg2 : W3 (F := Ideal) m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

set_option maxHeartbeats 4000000 in
theorem w3_arg3 : W3 (F := Ideal) m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

set_option maxHeartbeats 4000000 in
theorem w3_arg4 : W3 (F := Ideal) m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

set_option maxHeartbeats 4000000 in
theorem w3_arg6 : W3 (F := Ideal) m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

set_option maxHeartbeats 4000000 in
theorem w3_arg7 : W3 (F := Ideal) m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

set_option maxHeartbeats 4000000 in
theorem w3_arg8 : W3 (F := Ideal) m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

set_option maxHeartbeats 4000000 in
theorem w3_arg9 : W3 (F := Ideal) m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

/-! ## Across the first region: its inputs and the buffers it does not touch -/

theorem w4_v16 : W4 (F := Ideal) m ρ c (Proc.devRef .tc main_v16) = W3 (F := Ideal) m ρ c (Proc.devRef .tc main_v16) :=
  (W4_arr m ρ c 4).trans (((dat0 (V3 m ρ) c).arrAt_in 4 rfl _).trans (A_eq0 (V3 m ρ) c 4))
theorem w4_v3 : W4 (F := Ideal) m ρ c (Proc.devRef .tc main_v3) = W3 (F := Ideal) m ρ c (Proc.devRef .tc main_v3) :=
  W4_of_ne m ρ c main_v3 (by decide)
theorem w4_v6 : W4 (F := Ideal) m ρ c (Proc.devRef .tc main_v6) = W3 (F := Ideal) m ρ c (Proc.devRef .tc main_v6) :=
  W4_of_ne m ρ c main_v6 (by decide)
theorem w4_arg3 : W4 (F := Ideal) m ρ c (Proc.devRef .tc main_arg3) = W3 (F := Ideal) m ρ c (Proc.devRef .tc main_arg3) :=
  W4_of_ne m ρ c main_arg3 (by decide)
theorem w4_arg6 : W4 (F := Ideal) m ρ c (Proc.devRef .tc main_arg6) = W3 (F := Ideal) m ρ c (Proc.devRef .tc main_arg6) :=
  W4_of_ne m ρ c main_arg6 (by decide)
theorem w4_arg7 : W4 (F := Ideal) m ρ c (Proc.devRef .tc main_arg7) = W3 (F := Ideal) m ρ c (Proc.devRef .tc main_arg7) :=
  W4_of_ne m ρ c main_arg7 (by decide)
theorem w4_arg8 : W4 (F := Ideal) m ρ c (Proc.devRef .tc main_arg8) = W3 (F := Ideal) m ρ c (Proc.devRef .tc main_arg8) :=
  W4_of_ne m ρ c main_arg8 (by decide)
theorem w4_arg9 : W4 (F := Ideal) m ρ c (Proc.devRef .tc main_arg9) = W3 (F := Ideal) m ρ c (Proc.devRef .tc main_arg9) :=
  W4_of_ne m ρ c main_arg9 (by decide)

theorem w4_v18_0 : W4 (F := Ideal) m ρ c (Proc.devRef .tc main_v18_0) = (dat0 (V3 m ρ) c).arrAt 5 cfg0.N := W4_arr m ρ c 5
theorem w4_v18_1 : W4 (F := Ideal) m ρ c (Proc.devRef .tc main_v18_1) = (dat0 (V3 m ρ) c).arrAt 6 cfg0.N := W4_arr m ρ c 6

/-! ## At the second region's entry -/

set_option maxHeartbeats 4000000 in
/-- The aggregated first-layer features: the first region's first output, its rows gathered by source and scatter-added by target. -/
theorem w5_v28 : W5 (F := Ideal) m ρ c (Proc.devRef .tc main_v28)
    = Host.scatterAdd (F := Ideal) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 (W4 (F := Ideal) m ρ c (Proc.devRef .tc main_v6)))
        (Host.gather gather_S100000x64_S1700000x1_S1700000x64_1_0_n_n_0_1_164 (W4 (F := Ideal) m ρ c (Proc.devRef .tc main_v18_0))
          (broadcastInDim S1700000x1 ![0] bcast_S1700000_S1700000x1_0
            (select (cmpi .slt (W4 (F := Ideal) m ρ c (Proc.devRef .tc main_v3)) (broadcastInDim S1700000 ![] bcast_S_S1700000 (constantI S_ 32 0#32)))
              (addi (W4 (F := Ideal) m ρ c (Proc.devRef .tc main_v3)) (broadcastInDim S1700000 ![] bcast_S_S1700000 (constantI S_ 32 100000#32)))
              (W4 (F := Ideal) m ρ c (Proc.devRef .tc main_v3))))) := by
  show StableHlo.after hostOps1 (W4 m ρ c) (Proc.devRef .tc main_v28) = _
  after_results_simp

set_option maxHeartbeats 4000000 in
theorem w5_v29 : W5 (F := Ideal) m ρ c (Proc.devRef .tc main_v29)
    = shapeCast S1x64 (W4 (F := Ideal) m ρ c (Proc.devRef .tc main_arg3)) shapeCasts_S64_S1x64 := by
  show StableHlo.after hostOps1 (W4 m ρ c) (Proc.devRef .tc main_v29) = _
  after_results_simp
  rfl

set_option maxHeartbeats 4000000 in
theorem w5_v30 : W5 (F := Ideal) m ρ c (Proc.devRef .tc main_v30)
    = shapeCast S1x1 (W4 (F := Ideal) m ρ c (Proc.devRef .tc main_arg9)) shapeCasts_S1_S1x1 := by
  show StableHlo.after hostOps1 (W4 m ρ c) (Proc.devRef .tc main_v30) = _
  after_results_simp
  rfl

set_option maxHeartbeats 4000000 in
theorem w5_v16 : W5 (F := Ideal) m ρ c (Proc.devRef .tc main_v16) = W4 (F := Ideal) m ρ c (Proc.devRef .tc main_v16) := by
  show StableHlo.after hostOps1 (W4 m ρ c) (Proc.devRef .tc main_v16) = _
  after_results_simp

set_option maxHeartbeats 4000000 in
theorem w5_v18_1 : W5 (F := Ideal) m ρ c (Proc.devRef .tc main_v18_1) = W4 (F := Ideal) m ρ c (Proc.devRef .tc main_v18_1) := by
  show StableHlo.after hostOps1 (W4 m ρ c) (Proc.devRef .tc main_v18_1) = _
  after_results_simp

set_option maxHeartbeats 4000000 in
theorem w5_arg6 : W5 (F := Ideal) m ρ c (Proc.devRef .tc main_arg6) = W4 (F := Ideal) m ρ c (Proc.devRef .tc main_arg6) := by
  show StableHlo.after hostOps1 (W4 m ρ c) (Proc.devRef .tc main_arg6) = _
  after_results_simp

set_option maxHeartbeats 4000000 in
theorem w5_arg8 : W5 (F := Ideal) m ρ c (Proc.devRef .tc main_arg8) = W4 (F := Ideal) m ρ c (Proc.devRef .tc main_arg8) := by
  show StableHlo.after hostOps1 (W4 m ρ c) (Proc.devRef .tc main_arg8) = _
  after_results_simp

set_option maxHeartbeats 4000000 in
theorem w5_v3 : W5 (F := Ideal) m ρ c (Proc.devRef .tc main_v3) = W4 (F := Ideal) m ρ c (Proc.devRef .tc main_v3) := by
  show StableHlo.after hostOps1 (W4 m ρ c) (Proc.devRef .tc main_v3) = _
  after_results_simp

set_option maxHeartbeats 4000000 in
theorem w5_v6 : W5 (F := Ideal) m ρ c (Proc.devRef .tc main_v6) = W4 (F := Ideal) m ρ c (Proc.devRef .tc main_v6) := by
  show StableHlo.after hostOps1 (W4 m ρ c) (Proc.devRef .tc main_v6) = _
  after_results_simp

set_option maxHeartbeats 4000000 in
theorem w5_arg7 : W5 (F := Ideal) m ρ c (Proc.devRef .tc main_arg7) = W4 (F := Ideal) m ρ c (Proc.devRef .tc main_arg7) := by
  show StableHlo.after hostOps1 (W4 m ρ c) (Proc.devRef .tc main_arg7) = _
  after_results_simp

/-! ## Across the second region -/

theorem w6_v16 : W6 (F := Ideal) m ρ c (Proc.devRef .tc main_v16) = W5 (F := Ideal) m ρ c (Proc.devRef .tc main_v16) :=
  (W6_arr m ρ c 1).trans (((dat1 (V5 m ρ) c).arrAt_in 1 rfl _).trans (A_eq1 (V5 m ρ) c 1))
theorem w6_v3 : W6 (F := Ideal) m ρ c (Proc.devRef .tc main_v3) = W5 (F := Ideal) m ρ c (Proc.devRef .tc main_v3) :=
  W6_of_ne m ρ c main_v3 (by decide)
theorem w6_v6 : W6 (F := Ideal) m ρ c (Proc.devRef .tc main_v6) = W5 (F := Ideal) m ρ c (Proc.devRef .tc main_v6) :=
  W6_of_ne m ρ c main_v6 (by decide)
theorem w6_arg7 : W6 (F := Ideal) m ρ c (Proc.devRef .tc main_arg7) = W5 (F := Ideal) m ρ c (Proc.devRef .tc main_arg7) :=
  W6_of_ne m ρ c main_arg7 (by decide)

theorem w6_v31_0 : W6 (F := Ideal) m ρ c (Proc.devRef .tc main_v31_0) = (dat1 (V5 m ρ) c).arrAt 7 cfg1.N := W6_arr m ρ c 7
theorem w6_v31_1 : W6 (F := Ideal) m ρ c (Proc.devRef .tc main_v31_1) = (dat1 (V5 m ρ) c).arrAt 8 cfg1.N := W6_arr m ρ c 8

/-! ## The result -/

set_option maxHeartbeats 4000000 in
/-- The result vector: dinv times the aggregated second-layer feature, plus the bias, plus the second region's second output. -/
theorem w7_v47 : W7 (F := Ideal) m ρ c (Proc.devRef .tc main_v47)
    = shapeCast S100000
        (addf (F := Ideal)
          (addf (F := Ideal)
            (mulf (F := Ideal) (W6 (F := Ideal) m ρ c (Proc.devRef .tc main_v16))
              (Host.scatterAdd (F := Ideal) scatter_S100000x1_S1700000x1_S1700000x1_1_0_0_1
                (broadcastInDim S100000x1 ![] bcast_S_S100000x1 (constant (F := Ideal) S_ .f32 0x00000000#32))
                (broadcastInDim S1700000x1 ![0] bcast_S1700000_S1700000x1_0 (W6 (F := Ideal) m ρ c (Proc.devRef .tc main_v6)))
                (Host.gather gather_S100000x1_S1700000x1_S1700000x1_1_0_n_n_0_1_11 (W6 (F := Ideal) m ρ c (Proc.devRef .tc main_v31_0))
                  (broadcastInDim S1700000x1 ![0] bcast_S1700000_S1700000x1_0
                    (select (cmpi .slt (W6 (F := Ideal) m ρ c (Proc.devRef .tc main_v3)) (broadcastInDim S1700000 ![] bcast_S_S1700000 (constantI S_ 32 0#32)))
                      (addi (W6 (F := Ideal) m ρ c (Proc.devRef .tc main_v3)) (broadcastInDim S1700000 ![] bcast_S_S1700000 (constantI S_ 32 100000#32)))
                      (W6 (F := Ideal) m ρ c (Proc.devRef .tc main_v3)))))))
            (broadcastInDim S100000x1 ![0, 1] bcast_S1x1_S100000x1_0_1
              (broadcastInDim S1x1 ![1] bcast_S1_S1x1_1 (W6 (F := Ideal) m ρ c (Proc.devRef .tc main_arg7)))))
          (W6 (F := Ideal) m ρ c (Proc.devRef .tc main_v31_1)))
        shapeCasts_S100000x1_S100000 := by
  show StableHlo.after hostOps2 (W6 m ρ c) (Proc.devRef .tc main_v47) = _
  after_results_simp
  rfl

end Cert.KernelIdeal.Host

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.Region0Value.lean ====
/-
  Region 0: each output array after the region, as one function of the arrays the region finds.

  The region is a grid of 50 points. Point t works on rows [2000 t, 2000 t + 2000): it reads those rows of the
  100000×128 matrix x and of the 100000×1 column dinv, the whole 128×64 matrices W and W', and the whole 1×64 row b,
  and writes the same rows of the two 100000×64 outputs:
      first output  (p, q) := (∑ k, x(p, k) · W(k, q)) · dinv(p, 0),
      second output (p, q) := (∑ k, x(p, k) · W'(k, q)) + b(0, q).
  A block is the restriction of an array to the rows [2000 t, 2000 t + 2000) (all columns); the element (a, ·) of
  point t's block is the element (2000 t + a, ·) of the array. Row p of an output therefore depends only on row p of
  x and of dinv: what point t writes back is block t of ONE function of the entry arrays, the 50 blocks cover every
  row (row p lies in block p / 2000), and so the array ends holding that function.
-/
import proofs.«122140_j46574625358105_2_alg».proof.Proof.Gen.KernelIdeal.Frame
import proofs.«122140_j46574625358105_2_alg».proof.Proof.LibMatmulPlain
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's two results at an index -/

/-- The kernel's contraction is the plain one: rows of the left operand against columns of the right. -/
theorem dims_plain : dot_S2000x128_S128x64_S2000x64_1_0_0_1_n_n = DotDims.plain 2000 128 64 := rfl

/-- First result at (a, q): the product's entry times the column's entry of row a. -/
theorem pay2_apply (x0 : Vec Ideal S2000x128 .f32) (x1 : Vec Ideal S128x64 .f32) (x4 : Vec Ideal S2000x1 .f32)
    (a : Fin 2000) (q : Fin 64) :
    k0_pay2 x0 x1 x4 (ix2 a q)
      = (∑ k : Fin 128, x0 (ix2 a k) * x1 (ix2 k q)) * x4 (ix2 a (0 : Fin 1)) := by
  show mulf (matmul dot_S2000x128_S128x64_S2000x64_1_0_0_1_n_n none (truncf .bf16 x0 bitsLt_bf16_f32)
      (truncf .bf16 x1 bitsLt_bf16_f32) (constant (F := Ideal) S2000x64 .f32 0x00000000#32))
    (broadcastTo S2000x64 (shapeCast S2000x1 x4 shapeCasts_S2000x1_S2000x1) broadcasts_S2000x1_S2000x64) (ix2 a q) = _
  rw [mulf_apply, shapeCast_self, dims_plain, Cert.LibMatmulPlain.matmul_plain_zero_apply]
  rw [broadcastTo_apply x4 broadcasts_S2000x1_S2000x64 (ix2 a q) (ix2 a (0 : Fin 1)) (by
    intro d
    match d with
    | ⟨0, _⟩ => rfl
    | ⟨1, _⟩ => rfl)]
  rfl

/-- Second result at (a, q): the product's entry plus the row's entry of column q. -/
theorem pay3_apply (x0 : Vec Ideal S2000x128 .f32) (x2 : Vec Ideal S128x64 .f32) (x3 : Vec Ideal S1x64 .f32)
    (a : Fin 2000) (q : Fin 64) :
    k0_pay3 x0 x2 x3 (ix2 a q)
      = (∑ k : Fin 128, x0 (ix2 a k) * x2 (ix2 k q)) + x3 (ix2 (0 : Fin 1) q) := by
  show addf (matmul dot_S2000x128_S128x64_S2000x64_1_0_0_1_n_n none (truncf .bf16 x0 bitsLt_bf16_f32)
      (truncf .bf16 x2 bitsLt_bf16_f32) (constant (F := Ideal) S2000x64 .f32 0x00000000#32))
    (broadcastTo S2000x64 (shapeCast S1x64 x3 shapeCasts_S1x64_S1x64) broadcasts_S1x64_S2000x64) (ix2 a q) = _
  rw [addf_apply, shapeCast_self, dims_plain, Cert.LibMatmulPlain.matmul_plain_zero_apply]
  rw [broadcastTo_apply x3 broadcasts_S1x64_S2000x64 (ix2 a q) (ix2 (0 : Fin 1) q) (by
    intro d
    match d with
    | ⟨0, _⟩ => rfl
    | ⟨1, _⟩ => rfl)]
  rfl

/-! ## The two whole-array functions -/

/-- The first output as one function of x, W and dinv. -/
abbrev G5 (A0 : S100000x128.Idx → EReal) (A1 : S128x64.Idx → EReal) (A4 : S100000x1.Idx → EReal) :
    S100000x64.Idx → EReal :=
  fun i => (∑ k : Fin 128, A0 (ix2 (i 0) k) * A1 (ix2 k (i 1))) * A4 (ix2 (i 0) (0 : Fin 1))

/-- The second output as one function of x, W' and b. -/
abbrev G6 (A0 : S100000x128.Idx → EReal) (A2 : S128x64.Idx → EReal) (A3 : S1x64.Idx → EReal) :
    S100000x64.Idx → EReal :=
  fun i => (∑ k : Fin 128, A0 (ix2 (i 0) k) * A2 (ix2 k (i 1))) + A3 (ix2 (0 : Fin 1) (i 1))

/-! ## Where a block's element sits in its array -/

theorem hz : (![0, 0] : Fin 2 → Nat) = fun _ => 0 := funext fun a => by fin_cases a <;> rfl

/-- The index maps over the grid: the row-blocked windows (x, dinv, the two outputs) are at row block t and column
    block 0; the whole windows (W, W', b) are at block 0 on both axes. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row a of point t's block is row 2000 t + a of the array. -/
def row (t : Fin cfg0.N) (a : Fin 2000) : Fin 100000 :=
  ⟨t.val * 2000 + a.val, by have h : t.val < 50 := t.isLt; omega⟩

theorem emb0 (t : Fin cfg0.N) (a : Fin 2000) (k : Fin 128) :
    ((cfg0.win 0).blk t).view.emb (ix2 a k) = ix2 (row t a) k := by
  obtain ⟨e00, e01, -⟩ := idx_facts t
  funext d; apply Fin.ext
  match d with
  | ⟨0, _⟩ => show win0_0.index t (0 : Fin 2) * 2000 + 1 * a.val = t.val * 2000 + a.val; omega
  | ⟨1, _⟩ => show win0_0.index t (1 : Fin 2) * 128 + 1 * k.val = k.val; omega

theorem emb1 (t : Fin cfg0.N) (k : Fin 128) (q : Fin 64) :
    ((cfg0.win 1).blk t).view.emb (ix2 k q) = ix2 k q := by
  obtain ⟨-, -, e10, e11, -⟩ := idx_facts t
  funext d; apply Fin.ext
  match d with
  | ⟨0, _⟩ => show win0_1.index t (0 : Fin 2) * 128 + 1 * k.val = k.val; omega
  | ⟨1, _⟩ => show win0_1.index t (1 : Fin 2) * 64 + 1 * q.val = q.val; omega

theorem emb2 (t : Fin cfg0.N) (k : Fin 128) (q : Fin 64) :
    ((cfg0.win 2).blk t).view.emb (ix2 k q) = ix2 k q := by
  obtain ⟨-, -, -, -, e20, e21, -⟩ := idx_facts t
  funext d; apply Fin.ext
  match d with
  | ⟨0, _⟩ => show win0_2.index t (0 : Fin 2) * 128 + 1 * k.val = k.val; omega
  | ⟨1, _⟩ => show win0_2.index t (1 : Fin 2) * 64 + 1 * q.val = q.val; omega

theorem emb3 (t : Fin cfg0.N) (z : Fin 1) (q : Fin 64) :
    ((cfg0.win 3).blk t).view.emb (ix2 z q) = ix2 z q := by
  obtain ⟨-, -, -, -, -, -, e30, e31, -⟩ := idx_facts t
  funext d; apply Fin.ext
  match d with
  | ⟨0, _⟩ => show win0_3.index t (0 : Fin 2) * 1 + 1 * z.val = z.val; omega
  | ⟨1, _⟩ => show win0_3.index t (1 : Fin 2) * 64 + 1 * q.val = q.val; omega

theorem emb4 (t : Fin cfg0.N) (a : Fin 2000) (z : Fin 1) :
    ((cfg0.win 4).blk t).view.emb (ix2 a z) = ix2 (row t a) z := by
  obtain ⟨-, -, -, -, -, -, -, -, e40, e41, -⟩ := idx_facts t
  funext d; apply Fin.ext
  match d with
  | ⟨0, _⟩ => show win0_4.index t (0 : Fin 2) * 2000 + 1 * a.val = t.val * 2000 + a.val; omega
  | ⟨1, _⟩ => show win0_4.index t (1 : Fin 2) * 1 + 1 * z.val = z.val; omega

theorem emb5 (t : Fin cfg0.N) (a : Fin 2000) (q : Fin 64) :
    ((cfg0.win 5).blk t).view.emb (ix2 a q) = ix2 (row t a) q := by
  obtain ⟨-, -, -, -, -, -, -, -, -, -, e50, e51, -⟩ := idx_facts t
  funext d; apply Fin.ext
  match d with
  | ⟨0, _⟩ => show win0_5.index t (0 : Fin 2) * 2000 + 1 * a.val = t.val * 2000 + a.val; omega
  | ⟨1, _⟩ => show win0_5.index t (1 : Fin 2) * 64 + 1 * q.val = q.val; omega

theorem emb6 (t : Fin cfg0.N) (a : Fin 2000) (q : Fin 64) :
    ((cfg0.win 6).blk t).view.emb (ix2 a q) = ix2 (row t a) q := by
  obtain ⟨-, -, -, -, -, -, -, -, -, -, -, -, e60, e61⟩ := idx_facts t
  funext d; apply Fin.ext
  match d with
  | ⟨0, _⟩ => show win0_6.index t (0 : Fin 2) * 2000 + 1 * a.val = t.val * 2000 + a.val; omega
  | ⟨1, _⟩ => show win0_6.index t (1 : Fin 2) * 64 + 1 * q.val = q.val; omega

/-! ## The input blocks, read in the arrays -/

variable (V : (c : Dev nD) → (b : Ref sig .tc) → Buf (Elt Ideal) ((c : Thread nD τ).loc b))

theorem read0 (c : Dev nD) (t : Fin cfg0.N) (a : Fin 2000) (k : Fin 128) :
    iblk0 V c 0 t (ix2 a k) = V c main_arg0 (ix2 (row t a) k) := by
  show V c main_arg0 (((cfg0.win 0).blk t).view.emb (ix2 a k)) = _
  rw [emb0]

theorem read1 (c : Dev nD) (t : Fin cfg0.N) (k : Fin 128) (q : Fin 64) :
    iblk0 V c 1 t (ix2 k q) = V c main_arg2 (ix2 k q) := by
  show V c main_arg2 (((cfg0.win 1).blk t).view.emb (ix2 k q)) = _
  rw [emb1]

theorem read2 (c : Dev nD) (t : Fin cfg0.N) (k : Fin 128) (q : Fin 64) :
    iblk0 V c 2 t (ix2 k q) = V c main_arg4 (ix2 k q) := by
  show V c main_arg4 (((cfg0.win 2).blk t).view.emb (ix2 k q)) = _
  rw [emb2]

theorem read3 (c : Dev nD) (t : Fin cfg0.N) (z : Fin 1) (q : Fin 64) :
    iblk0 V c 3 t (ix2 z q) = V c main_v17 (ix2 z q) := by
  show V c main_v17 (((cfg0.win 3).blk t).view.emb (ix2 z q)) = _
  rw [emb3]

theorem read4 (c : Dev nD) (t : Fin cfg0.N) (a : Fin 2000) (z : Fin 1) :
    iblk0 V c 4 t (ix2 a z) = V c main_v16 (ix2 (row t a) z) := by
  show V c main_v16 (((cfg0.win 4).blk t).view.emb (ix2 a z)) = _
  rw [emb4]

/-! ## What a point writes back is its block of the whole-array function -/

theorem flushed5_eq (c : Dev nD) (t : Fin cfg0.N) :
    (dat0 (F := Ideal) V c).flushed 5 t
      = ((cfg0.win 5).blk t).view.read (Elt Ideal) (G5 (V c main_arg0) (V c main_arg2) (V c main_v16)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x64) hz,
    View.ld_unit_zero (S := S2000x1) hz]
  funext j
  obtain ⟨a, q, rfl⟩ : ∃ (a : Fin 2000) (q : Fin 64), j = ix2 a q := ⟨j 0, j 1, eq_ix2 j⟩
  show k0_pay2 (iblk0 V c 0 t) (iblk0 V c 1 t) (iblk0 V c 4 t) (ix2 a q)
    = G5 (V c main_arg0) (V c main_arg2) (V c main_v16) (((cfg0.win 5).blk t).view.emb (ix2 a q))
  rw [emb5]
  refine (pay2_apply (iblk0 V c 0 t) (iblk0 V c 1 t) (iblk0 V c 4 t) a q).trans ?_
  rw [read4]
  refine congrArg (· * _) (Finset.sum_congr rfl fun k _ => ?_)
  rw [read0, read1]

theorem flushed6_eq (c : Dev nD) (t : Fin cfg0.N) :
    (dat0 (F := Ideal) V c).flushed 6 t
      = ((cfg0.win 6).blk t).view.read (Elt Ideal) (G6 (V c main_arg0) (V c main_arg4) (V c main_v17)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x64) hz,
    View.ld_unit_zero (S := S1x64) hz]
  funext j
  obtain ⟨a, q, rfl⟩ : ∃ (a : Fin 2000) (q : Fin 64), j = ix2 a q := ⟨j 0, j 1, eq_ix2 j⟩
  show k0_pay3 (iblk0 V c 0 t) (iblk0 V c 2 t) (iblk0 V c 3 t) (ix2 a q)
    = G6 (V c main_arg0) (V c main_arg4) (V c main_v17) (((cfg0.win 6).blk t).view.emb (ix2 a q))
  rw [emb6]
  refine (pay3_apply (iblk0 V c 0 t) (iblk0 V c 2 t) (iblk0 V c 3 t) a q).trans ?_
  rw [read3]
  refine congrArg (· + _) (Finset.sum_congr rfl fun k _ => ?_)
  rw [read0, read2]

/-! ## The blocks cover the array -/

theorem mem_blk5 (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v18_0).slice (win0_5.rect t)).set ↔ _
  rw [View.set_slice_whole, Rect.mem_set_unit]
  exact Iff.rfl

theorem mem_blk6 (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v18_1).slice (win0_6.rect t)).set ↔ _
  rw [View.set_slice_whole, Rect.mem_set_unit]
  exact Iff.rfl

/-- Row p lies in the block of point p / 2000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, -, e50, e51, -⟩ := idx_facts t
  refine ⟨t, flush0_5 t, ?_⟩
  rw [mem_blk5]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 64 ≤ (i 1).val ∧ (i 1).val < win0_5.index t (1 : Fin 2) * 64 + 64
    omega

theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, -, -, -, e60, e61⟩ := idx_facts t
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 64 ≤ (i 1).val ∧ (i 1).val < win0_6.index t (1 : Fin 2) * 64 + 64
    omega

/-! ## The arrays after the region -/

theorem final5 (c : Dev nD) :
    (dat0 (F := Ideal) V c).arrAt 5 cfg0.N = G5 (V c main_arg0) (V c main_arg2) (V c main_v16) :=
  (dat0 (F := Ideal) V c).arrAt_eq_of_cover 5 _ (fun t _ => flushed5_eq V c t) cover5

theorem final6 (c : Dev nD) :
    (dat0 (F := Ideal) V c).arrAt 6 cfg0.N = G6 (V c main_arg0) (V c main_arg4) (V c main_v17) :=
  (dat0 (F := Ideal) V c).arrAt_eq_of_cover 6 _ (fun t _ => flushed6_eq V c t) cover6

/-- Product and sum of extended reals, with the type written out: an element read off a buffer is an extended real, and
    these spellings say so where the buffer's element type does not unfold by itself. The terms they build are the
    ordinary product and sum. -/
local infixl:70 " *ₑ " => (HMul.hMul : EReal → EReal → EReal)
local infixl:65 " +ₑ " => (HAdd.hAdd : EReal → EReal → EReal)

/-- The first output after the region, at row p and column q. -/
theorem final0_5_apply (c : Dev nD) (p : Fin 100000) (q : Fin 64) :
    (dat0 (F := Ideal) V c).arrAt 5 cfg0.N (ix2 p q)
      = (∑ k : Fin 128, V c main_arg0 (ix2 p k) *ₑ V c main_arg2 (ix2 k q)) *ₑ V c main_v16 (ix2 p (0 : Fin 1)) :=
  congrFun (final5 V c) (ix2 p q)

/-- The second output after the region, at row p and column q. -/
theorem final0_6_apply (c : Dev nD) (p : Fin 100000) (q : Fin 64) :
    (dat0 (F := Ideal) V c).arrAt 6 cfg0.N (ix2 p q)
      = (∑ k : Fin 128, V c main_arg0 (ix2 p k) *ₑ V c main_arg4 (ix2 k q)) +ₑ V c main_v17 (ix2 (0 : Fin 1) q) :=
  congrFun (final6 V c) (ix2 p q)

end Cert.KernelIdeal.Region0

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«122140_j46574625358105_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.RefIndex.lean ====
/-
  The reference's gathers and scatters, read through the row numbers.

  The reference names an edge's source row and target row by the two halves of the edge array, each followed by the identity
  edges (one self loop per node). A gather at the wrapped row numbers reads, for edge e, the row  src e  (of the sources) or
  tgt e  (of the targets): the stored number, wrapped if negative, read signed and clamped. An accumulating scatter at the raw
  target numbers lands edge e's update on row n only if the stored target number IS n; such a number is not negative, its wrap
  is itself, and so  tgt e = n : the factor the reference gathers by target for an edge that lands on row n is the row's own.
-/
import proofs.«122140_j46574625358105_2_alg».proof.Proof.RefRead
import proofs.«122140_j46574625358105_2_alg».proof.Proof.LibGatherRows
import proofs.«122140_j46574625358105_2_alg».proof.Proof.LibRowIndex

set_option maxRecDepth 16384

noncomputable section

namespace Cert.ReferenceIdeal.RefIndex

open Cert.ReferenceIdeal Cert.ReferenceIdeal.Gen Cert.ReferenceIdeal.Read
open Idealize.ShloMosaic Idealize.ShloMosaic.ValueIdx Cert.LibGatherRows Cert.LibRowIndex

variable (x1 : (⟨S2x1600000, .i32⟩ : BufTy).Contents (Elt Ideal))

/-- The row of the node table that edge `e`'s SOURCE number reads. -/
def src (e : Fin 1700000) : Fin 100000 := rowOf (N := 100000) (by decide) (val_main_v20 (F := Ideal) x1) e
/-- The row of the node table that edge `e`'s TARGET number reads. -/
def tgt (e : Fin 1700000) : Fin 100000 := rowOf (N := 100000) (by decide) (val_main_v27 (F := Ideal) x1) e

/-- The wrapped source numbers are printed four times; they are one array. -/
theorem v36_eq : val_main_v36 (F := Ideal) x1 = val_main_v20 (F := Ideal) x1 := rfl
theorem v59_eq : val_main_v59 (F := Ideal) x1 = val_main_v20 (F := Ideal) x1 := rfl
/-- The raw target numbers as a column are printed three times; they are one array. -/
theorem v64_eq : val_main_v64 (F := Ideal) x1 = val_main_v42 (F := Ideal) x1 := rfl

/-- The per-node factor gathered by source. -/
theorem v21_apply (e : Fin 1700000) :
    val_main_v21 (F := Ideal) x1 (ix1 e) = val_main_v14 (F := Ideal) x1 (ix1 (src x1 e)) := by
  unfold val_main_v21 src
  exact gather_vec_apply (N := 100000) (R := 1700000) (by decide) gather_S100000_S1700000x1_S1700000_n_0_n_n_0_1_1_wf
    (val_main_v14 (F := Ideal) x1) (val_main_v20 (F := Ideal) x1) e

/-- The per-node factor gathered by target. -/
theorem v28_apply (e : Fin 1700000) :
    val_main_v28 (F := Ideal) x1 (ix1 e) = val_main_v14 (F := Ideal) x1 (ix1 (tgt x1 e)) := by
  unfold val_main_v28 tgt
  exact gather_vec_apply (N := 100000) (R := 1700000) (by decide) gather_S100000_S1700000x1_S1700000_n_0_n_n_0_1_1_wf
    (val_main_v14 (F := Ideal) x1) (val_main_v27 (F := Ideal) x1) e

/-- Rows of a 64-wide table gathered by source. -/
theorem gather64_apply (T : S100000x64.Idx → EReal) (e : Fin 1700000) (q : Fin 64) :
    Host.gather gather_S100000x64_S1700000x1_S1700000x64_1_0_n_n_0_1_164 T (val_main_v20 (F := Ideal) x1) (ix2 e q)
      = T (ix2 (src x1 e) q) := by
  unfold src
  exact gather_rows_apply (N := 100000) (R := 1700000) (C := 64) (by decide)
    gather_S100000x64_S1700000x1_S1700000x64_1_0_n_n_0_1_164_wf T (val_main_v20 (F := Ideal) x1) e q

/-- Rows of a 1-wide table gathered by source. -/
theorem gather1_apply (T : S100000x1.Idx → EReal) (e : Fin 1700000) :
    Host.gather gather_S100000x1_S1700000x1_S1700000x1_1_0_n_n_0_1_11 T (val_main_v20 (F := Ideal) x1) (ix2 e (0 : Fin 1))
      = T (ix2 (src x1 e) (0 : Fin 1)) := by
  unfold src
  exact gather_rows_apply (N := 100000) (R := 1700000) (C := 1) (by decide)
    gather_S100000x1_S1700000x1_S1700000x1_1_0_n_n_0_1_11_wf T (val_main_v20 (F := Ideal) x1) e (0 : Fin 1)

/-- The raw target number of edge `e`, as the scatter reads it. -/
theorem v42_at (e : Fin 1700000) : val_main_v42 (F := Ideal) x1 (ix2 e (0 : Fin 1)) = val_main_v6 (F := Ideal) x1 (ix1 e) := by
  rw [val_main_v42_apply]
  exact congrArg _ (funext fun a => Fin.ext (by match a with | ⟨0, _⟩ => rfl))

/-- The wrapped target number of edge `e`, as the gather reads it. -/
theorem v27_at (e : Fin 1700000) :
    val_main_v27 (F := Ideal) x1 (ix2 e (0 : Fin 1))
      = Scalar.select (IntOp.cmpi .slt (val_main_v6 (F := Ideal) x1 (ix1 e)) 0#32)
          (IntOp.addi (val_main_v6 (F := Ideal) x1 (ix1 e)) 100000#32) (val_main_v6 (F := Ideal) x1 (ix1 e)) := by
  rw [val_main_v27_apply]
  have hi : idx_main_v27 (ix2 e (0 : Fin 1)) = ix1 e := funext fun a => Fin.ext (by match a with | ⟨0, _⟩ => rfl)
  rw [hi, val_main_v26_apply, val_main_v23_apply, val_main_v25_apply, val_main_v22_apply, val_main_v24_apply,
    val_main_c_4_apply, val_main_c_5_apply]

/-- An edge whose stored target number is the valid row `n` reads row `n` when gathered by target. -/
theorem tgt_of_stored (e : Fin 1700000) (n : Fin 100000)
    (h : (val_main_v42 (F := Ideal) x1 (ix2 e (0 : Fin 1))).toInt = (n.val : ℤ)) : tgt x1 e = n := by
  unfold tgt
  refine rowOf_of_toInt (by decide) _ e n ?_
  rw [v42_at] at h
  rw [v27_at, wrap_of_nonneg _ _ (by rw [h]; exact Int.natCast_nonneg _)]
  exact h

/-- An edge's update that the 64-wide scatter lands on element `i` has target row `i`'s row. -/
theorem tgt_of_lands64 (e : Fin 1700000) (f : Fin 64) (i : S100000x64.Idx)
    (h : scatter_S100000x64_S1700000x1_S1700000x64_1_0_0_1.resultIdx? (ix2 e f) (val_main_v42 (F := Ideal) x1) = some i) :
    tgt x1 e = i 0 :=
  tgt_of_stored x1 e (i 0) (scatter_rows_target (N := 100000) (R := 1700000) (C := 64)
    scatter_S100000x64_S1700000x1_S1700000x64_1_0_0_1_wf (val_main_v42 (F := Ideal) x1) e f i h)

/-- An edge's update that the 1-wide scatter lands on element `i` has target row `i`'s row. -/
theorem tgt_of_lands1 (e : Fin 1700000) (f : Fin 1) (i : S100000x1.Idx)
    (h : scatter_S100000x1_S1700000x1_S1700000x1_1_0_0_1.resultIdx? (ix2 e f) (val_main_v42 (F := Ideal) x1) = some i) :
    tgt x1 e = i 0 :=
  tgt_of_stored x1 e (i 0) (scatter_rows_target (N := 100000) (R := 1700000) (C := 1)
    scatter_S100000x1_S1700000x1_S1700000x1_1_0_0_1_wf (val_main_v42 (F := Ideal) x1) e f i h)

end Cert.ReferenceIdeal.RefIndex

end
-- ==== Proof.LibScatterScale.lean ====
/-
  Scaling the result of an accumulating scatter by a non-negative finite factor.

  Over the extended reals multiplication by a factor x distributes over a sum as soon as 0 ≤ x < ⊤, whatever the summands
  (infinite ones included). An accumulating scatter from the zero array puts at each element the sum of the updates that land
  on it. So if every update landing on element i is, in a second array of updates, multiplied by one factor x (that may depend
  on i), the second scatter's element i is the first one's times x: (∑ u) · x = ∑ (u · x).

  Also here: the inverse square root of a count, guarded against zero as  select(d > 0, rsqrt d, 0),  is non-negative and
  finite for every extended real d (at ⊥ and at d ≤ 0 it is 0, at ⊤ it is 0, at a positive real it is 1/√d).
-/
import Idealize.ShloMosaic.PureOps.Ideal

namespace Cert.LibScatterScale

open Idealize.ShloMosaic

/-- A finite sum of extended reals times a non-negative finite factor is the sum of the products. -/
theorem sum_mul_of_nonneg_of_ne_top {ι : Type} (S : Finset ι) (f : ι → EReal) {x : EReal} (h0 : 0 ≤ x) (ht : x ≠ ⊤) :
    (∑ j ∈ S, f j) * x = ∑ j ∈ S, f j * x := by
  classical
  induction S using Finset.induction_on with
  | empty => simp
  | insert a s ha ih =>
    rw [Finset.sum_insert ha, Finset.sum_insert ha, EReal.right_distrib_of_nonneg_of_ne_top h0 ht, ih]

/-- An accumulating scatter from the zero array: if each update that lands on element `i` is, in `upd'`, the one of `upd`
    times `x`, then element `i` of the scatter of `upd'` is element `i` of the scatter of `upd`, times `x`. -/
theorem hostScatterAdd_zero_mul {s si su : Shape} (d : ScatterDims s si su) {w : ℕ} (idx : IVec si w)
    (upd upd' : su.Idx → EReal) (i : s.Idx) {x : EReal} (h0 : 0 ≤ x) (ht : x ≠ ⊤)
    (h : ∀ j, d.resultIdx? j idx = some i → upd' j = upd j * x) :
    Ideal.hostScatterAdd d (fun _ => 0) idx upd' i = Ideal.hostScatterAdd d (fun _ => 0) idx upd i * x := by
  unfold Ideal.hostScatterAdd
  rw [EReal.right_distrib_of_nonneg_of_ne_top h0 ht, zero_mul, sum_mul_of_nonneg_of_ne_top _ _ h0 ht]
  congr 1
  exact Finset.sum_congr rfl (fun j hj => h j (Finset.mem_filter.mp hj).2)

/-- The same for the host operation, started from an array that is zero everywhere. -/
theorem host_scatterAdd_zero_mul {φ : FTy} {s si su : Shape} (d : ScatterDims s si su) {w : ℕ}
    (z : s.Idx → EReal) (hz : z = fun _ => 0) (idx : IVec si w)
    (upd upd' : su.Idx → EReal) (i : s.Idx) {x : EReal} (h0 : 0 ≤ x) (ht : x ≠ ⊤)
    (h : ∀ j, d.resultIdx? j idx = some i → upd' j = upd j * x) :
    Host.scatterAdd (F := Ideal) (φ := φ) d z idx upd' i = Host.scatterAdd (F := Ideal) (φ := φ) d z idx upd i * x := by
  subst hz
  exact hostScatterAdd_zero_mul d idx upd upd' i h0 ht h

/-- The guarded inverse square root `select(d > 0, rsqrt d, 0)` is non-negative and finite at every extended real. -/
theorem guarded_rsqrt_nonneg_ne_top (d : EReal) :
    0 ≤ Scalar.select (Ideal.cmp .ogt d 0) (Ideal.rsqrt d) 0 ∧ Scalar.select (Ideal.cmp .ogt d 0) (Ideal.rsqrt d) 0 ≠ ⊤ := by
  induction d using EReal.rec with
  | bot => simp [Scalar.select, Ideal.cmp]
  | top => simp [Scalar.select, Ideal.cmp]
  | coe r =>
    by_cases hr : 0 < r
    · have h1 : Ideal.cmp .ogt (r : EReal) 0 = 1 := by simp [Ideal.cmp, hr]
      have h2 : Ideal.rsqrt (r : EReal) = (((Real.sqrt r)⁻¹ : ℝ) : EReal) := by
        rw [Ideal.rsqrt_coe, if_neg (not_lt.mpr hr.le), if_neg hr.ne']
      rw [Scalar.select, if_pos h1, h2]
      exact ⟨by exact_mod_cast inv_nonneg.mpr (Real.sqrt_nonneg r), EReal.coe_ne_top _⟩
    · have h1 : Ideal.cmp .ogt (r : EReal) 0 ≠ 1 := by simp [Ideal.cmp, hr]
      rw [Scalar.select, if_neg h1]
      exact ⟨le_refl _, EReal.zero_ne_top⟩

end Cert.LibScatterScale
-- ==== Proof.RefBridge.lean ====
/-
  The two GCN layers, node-side scaling against edge-side scaling, over the reference's stages.

  Write dinv n for the guarded inverse square root of node n's in-degree, src e / tgt e for the rows an edge's source / target
  number reads, and "e lands on n" when the accumulating scatter puts edge e's update on row n (then tgt e = n). The reference
  scales each gathered row by the edge factor  norm e = dinv (src e) · dinv (tgt e)  and then scatter-adds; the kernel program
  scales the table's rows by dinv BEFORE the gather and the scattered rows by dinv AFTER the scatter. For an edge landing on n

      T (src e) · (dinv (src e) · dinv n)  =  (T (src e) · dinv (src e)) · dinv n,

  and since 0 ≤ dinv n < ⊤ the factor dinv n moves out of the sum over the edges landing on n, whatever the summands are. That
  is layer 1 (64 lanes, then the bias) and layer 2 (one lane). Between them the hidden layer is max(·, 0) of the two halves
  side by side, and a 128-term product with a weight column is the sum of its two 64-term halves.
-/
import proofs.«122140_j46574625358105_2_alg».proof.Proof.RefRead
import proofs.«122140_j46574625358105_2_alg».proof.Proof.RefIndex
import proofs.«122140_j46574625358105_2_alg».proof.Proof.LibScatterScale
import Idealize.ShloMosaic.PureOps.Ideal.Laws
import Idealize.ShloMosaic.Lib.Pipeline.Value

set_option maxRecDepth 16384

noncomputable section

namespace Cert.ReferenceIdeal.Bridge

open Cert.ReferenceIdeal Cert.ReferenceIdeal.Gen Cert.ReferenceIdeal.Read Cert.ReferenceIdeal.RefIndex
open Idealize.ShloMosaic Idealize.ShloMosaic.ValueIdx Cert.LibScatterScale

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S128x64, .f32⟩ : BufTy).Contents (Elt Ideal)) (x5 : (⟨S64, .f32⟩ : BufTy).Contents (Elt Ideal))
  (x6 : (⟨S128x1, .f32⟩ : BufTy).Contents (Elt Ideal)) (x7 : (⟨S1, .f32⟩ : BufTy).Contents (Elt Ideal))
  (x8 : (⟨S128x1, .f32⟩ : BufTy).Contents (Elt Ideal)) (x9 : (⟨S1, .f32⟩ : BufTy).Contents (Elt Ideal))

/-- The per-node factor: the guarded inverse square root of the in-degree. -/
abbrev dinv (p : Fin 100000) : EReal := val_main_v14 (F := Ideal) x1 (ix1 p)

/-- It is non-negative and finite, whatever the in-degree. -/
theorem dinv_nonneg_ne_top (p : Fin 100000) : 0 ≤ dinv x1 p ∧ dinv x1 p ≠ ⊤ := by
  have e : dinv x1 p = Scalar.select (Ideal.cmp .ogt (val_main_v10 (F := Ideal) x1 (ix1 p)) 0)
      (Ideal.rsqrt (val_main_v10 (F := Ideal) x1 (ix1 p))) 0 := by
    show val_main_v14 (F := Ideal) x1 (ix1 p) = _
    rw [val_main_v14_apply, val_main_v12_apply, val_main_v13_apply, val_main_call0_v1_apply, val_main_call0_v0_apply,
      val_main_cst_2_apply, val_main_v11_apply, val_main_cst_1_apply]
    simp only [Ideal.ofBits_def, Ideal.ofBits_zero_f32, Ideal.hostUnary_rsqrt_def]
    rfl
  rw [e]
  exact guarded_rsqrt_nonneg_ne_top _

/-- The scatters start from the zero array. -/
theorem v41_zero : val_main_v41 (F := Ideal) = fun _ => (0 : EReal) := by
  funext i
  rw [val_main_v41_apply, val_main_cst_8_apply, Ideal.ofBits_def, Ideal.ofBits_zero_f32]

theorem v63_zero : val_main_v63 (F := Ideal) = fun _ => (0 : EReal) := by
  funext i
  rw [val_main_v63_apply, val_main_cst_11_apply, Ideal.ofBits_def, Ideal.ofBits_zero_f32]

/-- The edge factor of edge `e`. -/
theorem norm_apply (e : Fin 1700000) :
    val_main_v29 (F := Ideal) x1 (ix1 e) = dinv x1 (src x1 e) * dinv x1 (tgt x1 e) := by
  rw [val_main_v29_apply, Ideal.mulf_def, v21_apply, v28_apply]

/-! ## Layer 1 -/

/-- LAYER 1. Let `T` be the projected features with row `p` already scaled by `dinv p`. Its rows gathered by source and
    scatter-added by target, then row `p` scaled by `dinv p`, plus the bias, is the reference's first-layer aggregate. -/
theorem layer1 (T : S100000x64.Idx → EReal)
    (hT : ∀ (p : Fin 100000) (q : Fin 64), T (ix2 p q) = val_main_v30 (F := Ideal) x0 x2 (ix2 p q) * dinv x1 p)
    (p : Fin 100000) (q : Fin 64) :
    Host.scatterAdd (F := Ideal) (φ := .f32) scatter_S100000x64_S1700000x1_S1700000x64_1_0_0_1 (val_main_v41 (F := Ideal))
        (val_main_v42 (F := Ideal) x1)
        (Host.gather gather_S100000x64_S1700000x1_S1700000x64_1_0_n_n_0_1_164 T (val_main_v20 (F := Ideal) x1)) (ix2 p q)
      * dinv x1 p + x3 (ix1 q)
    = val_main_v46 (F := Ideal) x0 x1 x2 x3 (ix2 p q) := by
  obtain ⟨h0, ht⟩ := dinv_nonneg_ne_top x1 p
  have H : ∀ j, scatter_S100000x64_S1700000x1_S1700000x64_1_0_0_1.resultIdx? j (val_main_v42 (F := Ideal) x1) = some (ix2 p q) →
      val_main_v40 (F := Ideal) x0 x1 x2 j
        = Host.gather gather_S100000x64_S1700000x1_S1700000x64_1_0_n_n_0_1_164 T (val_main_v20 (F := Ideal) x1) j * dinv x1 p := by
    intro j hj
    obtain ⟨e, f, rfl⟩ : ∃ (e : Fin 1700000) (f : Fin 64), j = ix2 e f := ⟨j 0, j 1, eq_ix2 j⟩
    have htg : tgt x1 e = p := tgt_of_lands64 x1 e f (ix2 p q) hj
    have e37 : val_main_v37 (F := Ideal) x0 x1 x2 (ix2 e f) = val_main_v30 (F := Ideal) x0 x2 (ix2 (src x1 e) f) := by
      unfold val_main_v37
      rw [v36_eq]
      exact gather64_apply x1 _ e f
    have e39 : val_main_v39 (F := Ideal) x1 (ix2 e f) = dinv x1 (src x1 e) * dinv x1 (tgt x1 e) := by
      rw [val_main_v39_apply, val_main_v38_apply]
      have hi2 : idx_main_v38 (idx_main_v39 (ix2 e f)) = ix1 e := funext fun a => Fin.ext (by match a with | ⟨0, _⟩ => rfl)
      rw [hi2, norm_apply]
    rw [val_main_v40_apply, Ideal.mulf_def, e37, e39, gather64_apply x1 T e f, hT, htg, mul_assoc]
  have key := host_scatterAdd_zero_mul (φ := .f32) scatter_S100000x64_S1700000x1_S1700000x64_1_0_0_1
    (val_main_v41 (F := Ideal)) v41_zero (val_main_v42 (F := Ideal) x1)
    (Host.gather gather_S100000x64_S1700000x1_S1700000x64_1_0_n_n_0_1_164 T (val_main_v20 (F := Ideal) x1))
    (val_main_v40 (F := Ideal) x0 x1 x2) (ix2 p q) h0 ht H
  rw [val_main_v46_apply, val_main_v45_apply, val_main_v44_apply]
  have hi : idx_main_v44 (idx_main_v45 (ix2 p q)) = ix1 q := funext fun a => Fin.ext (by match a with | ⟨0, _⟩ => rfl)
  rw [hi, Ideal.addf_def]
  unfold val_main_v43
  rw [key]

/-! ## The hidden layer -/

/-- The hidden layer's first half: max(·, 0) of the first-layer aggregate. -/
theorem hidden_left (p : Fin 100000) (c : Fin 64) :
    val_main_v52 (F := Ideal) x0 x1 x2 x3 x4 x5 (ix2 p (⟨c.val, by omega⟩ : Fin 128))
      = max (val_main_v46 (F := Ideal) x0 x1 x2 x3 (ix2 p c)) 0 := by
  rw [val_main_v52_apply, val_main_call1_v0_apply, val_main_call1_cst_apply, Ideal.maximumf_def, Ideal.ofBits_def,
    Ideal.ofBits_zero_f32]
  refine congrArg (fun z : EReal => max z 0) ?_
  unfold val_main_v51
  exact concatenate_pair_apply_left (t := S100000x128) (s₁ := S100000x64) (s₂ := S100000x64) (1 : Fin 2) _ _
    concatenates_S100000x64_S100000x64_S100000x128_d1 _ rfl (ix2 p c)
    (fun b => by match b with | ⟨0, _⟩ => rfl | ⟨1, _⟩ => rfl)

/-- The hidden layer's second half: max(·, 0) of the direct branch. -/
theorem hidden_right (p : Fin 100000) (c : Fin 64) :
    val_main_v52 (F := Ideal) x0 x1 x2 x3 x4 x5 (ix2 p (⟨64 + c.val, by omega⟩ : Fin 128))
      = max (val_main_v50 (F := Ideal) x0 x4 x5 (ix2 p c)) 0 := by
  rw [val_main_v52_apply, val_main_call1_v0_apply, val_main_call1_cst_apply, Ideal.maximumf_def, Ideal.ofBits_def,
    Ideal.ofBits_zero_f32]
  refine congrArg (fun z : EReal => max z 0) ?_
  unfold val_main_v51
  exact concatenate_pair_apply_right (t := S100000x128) (s₁ := S100000x64) (s₂ := S100000x64) (1 : Fin 2) _ _
    concatenates_S100000x64_S100000x64_S100000x128_d1 _ rfl rfl (ix2 p c)
    (fun b hb => by match b with | ⟨0, _⟩ => rfl | ⟨1, _⟩ => exact absurd rfl hb)
    (by show c.val + 64 = 64 + c.val; omega)

/-- A 128-term sum is the sum of its two 64-term halves. -/
theorem sum128_split (f : Fin 128 → EReal) :
    ∑ k : Fin 128, f k = (∑ c : Fin 64, f ⟨c.val, by omega⟩) + (∑ c : Fin 64, f ⟨64 + c.val, by omega⟩) :=
  Fin.sum_univ_add (a := 64) (b := 64) (fun k : Fin (64 + 64) => f k)

/-- A row of the hidden layer times a weight column, as its two halves. -/
theorem hidden_dot (W : (⟨S128x1, .f32⟩ : BufTy).Contents (Elt Ideal)) (p : Fin 100000) :
    (∑ k : Fin 128, val_main_v52 (F := Ideal) x0 x1 x2 x3 x4 x5 (ix2 p k) * W (ix2 k (0 : Fin 1)))
      = (∑ c : Fin 64, max (val_main_v46 (F := Ideal) x0 x1 x2 x3 (ix2 p c)) 0 * W (ix2 (⟨c.val, by omega⟩ : Fin 128) (0 : Fin 1)))
        + (∑ c : Fin 64, max (val_main_v50 (F := Ideal) x0 x4 x5 (ix2 p c)) 0 * W (ix2 (⟨64 + c.val, by omega⟩ : Fin 128) (0 : Fin 1))) := by
  rw [sum128_split]
  refine congrArg₂ (fun a b : EReal => a + b) ?_ ?_
  · exact Finset.sum_congr rfl fun c _ => by rw [hidden_left]
  · exact Finset.sum_congr rfl fun c _ => by rw [hidden_right]

/-- The second layer's projected feature of node `p`. -/
theorem v53_at (p : Fin 100000) :
    val_main_v53 (F := Ideal) x0 x1 x2 x3 x4 x5 x6 (ix2 p (0 : Fin 1))
      = ∑ k : Fin 128, val_main_v52 (F := Ideal) x0 x1 x2 x3 x4 x5 (ix2 p k) * x6 (ix2 k (0 : Fin 1)) := by
  rw [val_main_v53_apply]
  refine Finset.sum_congr rfl fun k _ => ?_
  have el : lidx_main_v53 (ix2 p (0 : Fin 1)) k = ix2 p k := funext fun a => Fin.ext (by match a with | ⟨0, _⟩ => rfl | ⟨1, _⟩ => rfl)
  have er : ridx_main_v53 (ix2 p (0 : Fin 1)) k = ix2 k (0 : Fin 1) := funext fun a => Fin.ext (by match a with | ⟨0, _⟩ => rfl | ⟨1, _⟩ => rfl)
  rw [el, er]

/-- The direct branch of the second layer at node `p`. -/
theorem v72_at (p : Fin 100000) :
    val_main_v72 (F := Ideal) x0 x1 x2 x3 x4 x5 x8 x9 (ix2 p (0 : Fin 1))
      = (∑ k : Fin 128, val_main_v52 (F := Ideal) x0 x1 x2 x3 x4 x5 (ix2 p k) * x8 (ix2 k (0 : Fin 1))) + x9 (ix1 (0 : Fin 1)) := by
  rw [val_main_v72_apply, Ideal.addf_def, val_main_v69_apply, val_main_v71_apply, val_main_v70_apply]
  have hi : idx_main_v70 (idx_main_v71 (ix2 p (0 : Fin 1))) = ix1 (0 : Fin 1) := funext fun a => Fin.ext (by match a with | ⟨0, _⟩ => rfl)
  rw [hi]
  refine congrArg (fun z : EReal => z + x9 (ix1 (0 : Fin 1))) ?_
  refine Finset.sum_congr rfl fun k _ => ?_
  have el : lidx_main_v69 (ix2 p (0 : Fin 1)) k = ix2 p k := funext fun a => Fin.ext (by match a with | ⟨0, _⟩ => rfl | ⟨1, _⟩ => rfl)
  have er : ridx_main_v69 (ix2 p (0 : Fin 1)) k = ix2 k (0 : Fin 1) := funext fun a => Fin.ext (by match a with | ⟨0, _⟩ => rfl | ⟨1, _⟩ => rfl)
  rw [el, er]

/-! ## Layer 2 -/

/-- LAYER 2. Let `T` be the second layer's projected feature with row `p` already scaled by `dinv p`. Gathered by source and
    scatter-added by target, then scaled by `dinv p`, it is the reference's second-layer aggregate (before its bias). -/
theorem layer2 (T : S100000x1.Idx → EReal)
    (hT : ∀ p : Fin 100000, T (ix2 p (0 : Fin 1)) = val_main_v53 (F := Ideal) x0 x1 x2 x3 x4 x5 x6 (ix2 p (0 : Fin 1)) * dinv x1 p)
    (p : Fin 100000) :
    dinv x1 p * Host.scatterAdd (F := Ideal) (φ := .f32) scatter_S100000x1_S1700000x1_S1700000x1_1_0_0_1 (val_main_v63 (F := Ideal))
        (val_main_v42 (F := Ideal) x1)
        (Host.gather gather_S100000x1_S1700000x1_S1700000x1_1_0_n_n_0_1_11 T (val_main_v20 (F := Ideal) x1)) (ix2 p (0 : Fin 1))
    = val_main_v65 (F := Ideal) x0 x1 x2 x3 x4 x5 x6 (ix2 p (0 : Fin 1)) := by
  obtain ⟨h0, ht⟩ := dinv_nonneg_ne_top x1 p
  have H : ∀ j, scatter_S100000x1_S1700000x1_S1700000x1_1_0_0_1.resultIdx? j (val_main_v42 (F := Ideal) x1) = some (ix2 p (0 : Fin 1)) →
      val_main_v62 (F := Ideal) x0 x1 x2 x3 x4 x5 x6 j
        = Host.gather gather_S100000x1_S1700000x1_S1700000x1_1_0_n_n_0_1_11 T (val_main_v20 (F := Ideal) x1) j * dinv x1 p := by
    intro j hj
    obtain ⟨e, f, rfl⟩ : ∃ (e : Fin 1700000) (f : Fin 1), j = ix2 e f := ⟨j 0, j 1, eq_ix2 j⟩
    obtain rfl : f = 0 := Subsingleton.elim _ _
    have htg : tgt x1 e = p := tgt_of_lands1 x1 e 0 (ix2 p (0 : Fin 1)) hj
    have e60 : val_main_v60 (F := Ideal) x0 x1 x2 x3 x4 x5 x6 (ix2 e (0 : Fin 1))
        = val_main_v53 (F := Ideal) x0 x1 x2 x3 x4 x5 x6 (ix2 (src x1 e) (0 : Fin 1)) := by
      unfold val_main_v60
      rw [v59_eq]
      exact gather1_apply x1 _ e
    have e61 : val_main_v61 (F := Ideal) x1 (ix2 e (0 : Fin 1)) = dinv x1 (src x1 e) * dinv x1 (tgt x1 e) := by
      rw [val_main_v61_apply]
      have hi2 : idx_main_v61 (ix2 e (0 : Fin 1)) = ix1 e := funext fun a => Fin.ext (by match a with | ⟨0, _⟩ => rfl)
      rw [hi2, norm_apply]
    rw [val_main_v62_apply, Ideal.mulf_def, e60, e61, gather1_apply x1 T e, hT, htg, mul_assoc]
  have key := host_scatterAdd_zero_mul (φ := .f32) scatter_S100000x1_S1700000x1_S1700000x1_1_0_0_1
    (val_main_v63 (F := Ideal)) v63_zero (val_main_v42 (F := Ideal) x1)
    (Host.gather gather_S100000x1_S1700000x1_S1700000x1_1_0_n_n_0_1_11 T (val_main_v20 (F := Ideal) x1))
    (val_main_v62 (F := Ideal) x0 x1 x2 x3 x4 x5 x6) (ix2 p (0 : Fin 1)) h0 ht H
  unfold val_main_v65
  rw [v64_eq, key, mul_comm]

/-- The reference's result at node `p`: the second-layer aggregate plus its bias, plus the direct branch. -/
theorem v74_at (p : Fin 100000) :
    val_main_v74 (F := Ideal) x0 x1 x2 x3 x4 x5 x6 x7 x8 x9 (ix1 p)
      = (val_main_v65 (F := Ideal) x0 x1 x2 x3 x4 x5 x6 (ix2 p (0 : Fin 1)) + x7 (ix1 (0 : Fin 1)))
        + val_main_v72 (F := Ideal) x0 x1 x2 x3 x4 x5 x8 x9 (ix2 p (0 : Fin 1)) := by
  rw [val_main_v74_apply]
  have hi : idx_main_v74 (ix1 p) = ix2 p (0 : Fin 1) :=
    funext fun a => Fin.ext (by match a with | ⟨0, _⟩ => exact Nat.div_one _ | ⟨1, _⟩ => rfl)
  rw [hi, val_main_v73_apply, Ideal.addf_def, val_main_v68_apply, Ideal.addf_def, val_main_v67_apply, val_main_v66_apply]
  have hi2 : idx_main_v66 (idx_main_v67 (ix2 p (0 : Fin 1))) = ix1 (0 : Fin 1) := funext fun a => Fin.ext (by match a with | ⟨0, _⟩ => rfl)
  rw [hi2]

/-- The direct branch of the first layer at `(p, q)`. -/
theorem v50_at (p : Fin 100000) (q : Fin 64) :
    val_main_v50 (F := Ideal) x0 x4 x5 (ix2 p q) = (∑ k : Fin 128, x0 (ix2 p k) * x4 (ix2 k q)) + x5 (ix1 q) := by
  rw [val_main_v50_apply, Ideal.addf_def, val_main_v47_apply, val_main_v49_apply, val_main_v48_apply]
  have hi : idx_main_v48 (idx_main_v49 (ix2 p q)) = ix1 q := funext fun a => Fin.ext (by match a with | ⟨0, _⟩ => rfl)
  rw [hi]
  refine congrArg (fun z : EReal => z + x5 (ix1 q)) ?_
  refine Finset.sum_congr rfl fun k _ => ?_
  have el : lidx_main_v47 (ix2 p q) k = ix2 p k := funext fun a => Fin.ext (by match a with | ⟨0, _⟩ => rfl | ⟨1, _⟩ => rfl)
  have er : ridx_main_v47 (ix2 p q) k = ix2 k q := funext fun a => Fin.ext (by match a with | ⟨0, _⟩ => rfl | ⟨1, _⟩ => rfl)
  rw [el, er]

/-- The projected first-layer features at `(p, q)`. -/
theorem v30_at (p : Fin 100000) (q : Fin 64) :
    val_main_v30 (F := Ideal) x0 x2 (ix2 p q) = ∑ k : Fin 128, x0 (ix2 p k) * x2 (ix2 k q) := by
  rw [val_main_v30_apply]
  refine Finset.sum_congr rfl fun k _ => ?_
  have el : lidx_main_v30 (ix2 p q) k = ix2 p k := funext fun a => Fin.ext (by match a with | ⟨0, _⟩ => rfl | ⟨1, _⟩ => rfl)
  have er : ridx_main_v30 (ix2 p q) k = ix2 k q := funext fun a => Fin.ext (by match a with | ⟨0, _⟩ => rfl | ⟨1, _⟩ => rfl)
  rw [el, er]

end Cert.ReferenceIdeal.Bridge

end
-- ==== Proof.KernelLayer1.lean ====
/-
  The first layer of the kernel program against the reference's stages.

  Write dinv p for the reference's guarded inverse square root of node p's in-degree, x for the 100000×128 features, W and W'
  for the two 128×64 weight matrices, b and b' for the two bias vectors.

  Before the first region the kernel program computes dinv from the edge array by the reference's own operations and keeps it
  as a 100000×1 column: row p of the column is dinv p. The first region's first output is, in row p, the projected features
  (x·W)(p, ·) times dinv p — row p of the output depends on row p of x and on dinv p only — that is, the reference's projected
  features with row p pre-scaled by dinv p. Its second output is (x·W')(p, ·) + b', the reference's direct branch.

  Between the regions the program gathers the rows of the pre-scaled table by the edges' source numbers and scatter-adds them by
  the edges' target numbers, with the same index arrays and the same zero start as the reference. The second region then
  scales row p of the aggregate by dinv p and adds b. Scaling a row by dinv before the gather and by dinv after the scatter is
  the reference's scaling of each gathered row by the edge factor dinv(src e)·dinv(tgt e) before the scatter, because an edge
  that lands on row p has target p and dinv p is non-negative and finite; so the result is the reference's first-layer
  aggregate.
-/
import proofs.«122140_j46574625358105_2_alg».proof.Proof.KernelHost
import proofs.«122140_j46574625358105_2_alg».proof.Proof.Region0Value
import proofs.«122140_j46574625358105_2_alg».proof.Proof.RefBridge
import Idealize.ShloMosaic.Lib.ValueLayout
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem

/-! ## A vector as a column -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

variable (m : (ℓ : Loc nD τ sig) → Buf (Elt Ideal) ℓ) (ρ : Dev nD → PrngReg) (c : Dev nD)

/-- Product and sum of extended reals with the type written out: an element read off a buffer is an extended real. The
    terms built are the ordinary product and sum. -/
local infixl:70 " *ₑ " => (HMul.hMul : EReal → EReal → EReal)
local infixl:65 " +ₑ " => (HAdd.hAdd : EReal → EReal → EReal)

/-! ## At the first region's entry -/

/-- The column the first region reads holds, in row p, the reference's factor dinv p. -/
theorem k16_at (p : Fin 100000) :
    W3 (F := Ideal) m ρ c (Proc.devRef .tc main_v16) (ix2 p (0 : Fin 1)) = Cert.ReferenceIdeal.Bridge.dinv (m ((c : Thread nD τ).loc main_arg1)) p := by
  rw [Host.w3_v16]
  exact shapeCast_a_a1_apply _ _ p 0

/-- The argument arrays are as launched, and the column and the bias row are the reference's vectors. -/
theorem v3_arg0 : V3 (F := Ideal) m ρ c main_arg0 = (m ((c : Thread nD τ).loc main_arg0)) := Host.w3_arg0 m ρ c
theorem v3_arg2 : V3 (F := Ideal) m ρ c main_arg2 = (m ((c : Thread nD τ).loc main_arg2)) := Host.w3_arg2 m ρ c
theorem v3_arg4 : V3 (F := Ideal) m ρ c main_arg4 = (m ((c : Thread nD τ).loc main_arg4)) := Host.w3_arg4 m ρ c

theorem v3_v16_at (p : Fin 100000) :
    V3 (F := Ideal) m ρ c main_v16 (ix2 p (0 : Fin 1)) = Cert.ReferenceIdeal.Bridge.dinv (m ((c : Thread nD τ).loc main_arg1)) p := k16_at m ρ c p

theorem v3_v17_at (q : Fin 64) : V3 (F := Ideal) m ρ c main_v17 (ix2 (0 : Fin 1) q) = (m ((c : Thread nD τ).loc main_arg5)) (ix1 q) := by
  show W3 (F := Ideal) m ρ c (Proc.devRef .tc main_v17) (ix2 (0 : Fin 1) q) = _
  rw [Host.w3_v17]
  exact shapeCast_a_1a_apply _ _ 0 q

/-! ## The first region's outputs -/

/-- The first output: the reference's projected features, row p scaled by dinv p. -/
theorem k18_0_at (p : Fin 100000) (q : Fin 64) :
    W4 (F := Ideal) m ρ c (Proc.devRef .tc main_v18_0) (ix2 p q)
      = Cert.ReferenceIdeal.Read.val_main_v30 (F := Ideal) (m ((c : Thread nD τ).loc main_arg0)) (m ((c : Thread nD τ).loc main_arg2)) (ix2 p q) * Cert.ReferenceIdeal.Bridge.dinv (m ((c : Thread nD τ).loc main_arg1)) p := by
  rw [Host.w4_v18_0, Region0.final0_5_apply, v3_arg0, v3_arg2, v3_v16_at, Cert.ReferenceIdeal.Bridge.v30_at]

/-- The second output: the reference's direct branch of the first layer. -/
theorem k18_1_at (p : Fin 100000) (q : Fin 64) :
    W4 (F := Ideal) m ρ c (Proc.devRef .tc main_v18_1) (ix2 p q)
      = Cert.ReferenceIdeal.Read.val_main_v50 (F := Ideal) (m ((c : Thread nD τ).loc main_arg0)) (m ((c : Thread nD τ).loc main_arg4)) (m ((c : Thread nD τ).loc main_arg5)) (ix2 p q) := by
  rw [Host.w4_v18_1, Region0.final0_6_apply, v3_arg0, v3_arg4, v3_v17_at, Cert.ReferenceIdeal.Bridge.v50_at]

/-! ## At the second region's entry -/

/-- The column is untouched up to the second region. -/
theorem v5_v16_at (p : Fin 100000) :
    W5 (F := Ideal) m ρ c (Proc.devRef .tc main_v16) (ix2 p (0 : Fin 1)) = Cert.ReferenceIdeal.Bridge.dinv (m ((c : Thread nD τ).loc main_arg1)) p := by
  rw [Host.w5_v16, Host.w4_v16]
  exact k16_at m ρ c p

/-- The second region's bias row is the first layer's bias vector as a row. -/
theorem v5_v29_at (q : Fin 64) :
    W5 (F := Ideal) m ρ c (Proc.devRef .tc main_v29) (ix2 (0 : Fin 1) q) = (m ((c : Thread nD τ).loc main_arg3)) (ix1 q) := by
  rw [Host.w5_v29, Host.w4_arg3, Host.w3_arg3]
  exact shapeCast_a_1a_apply _ _ 0 q

/-- The aggregated table, over the reference's own index arrays: the edges' wrapped source numbers and raw target numbers
    are computed from the edge array by the same operations in both programs, and both scatters start from the zero array. -/
theorem v5_v28 :
    W5 (F := Ideal) m ρ c (Proc.devRef .tc main_v28)
      = Host.scatterAdd (F := Ideal) (φ := .f32) Cert.ReferenceIdeal.scatter_S100000x64_S1700000x1_S1700000x64_1_0_0_1
          (Cert.ReferenceIdeal.Read.val_main_v41 (F := Ideal)) (Cert.ReferenceIdeal.Read.val_main_v42 (F := Ideal) (m ((c : Thread nD τ).loc main_arg1)))
          (Host.gather Cert.ReferenceIdeal.gather_S100000x64_S1700000x1_S1700000x64_1_0_n_n_0_1_164
            (W4 (F := Ideal) m ρ c (Proc.devRef .tc main_v18_0)) (Cert.ReferenceIdeal.Read.val_main_v20 (F := Ideal) (m ((c : Thread nD τ).loc main_arg1)))) := by
  rw [Host.w5_v28, Host.w4_v6, Host.w4_v3, Host.w3_v6, Host.w3_v3]
  rfl

/-- What the second region computes first from its inputs — the aggregated row p scaled by dinv p, plus the bias — is the
    reference's first-layer aggregate. -/
theorem part1_at (p : Fin 100000) (q : Fin 64) :
    W5 (F := Ideal) m ρ c (Proc.devRef .tc main_v28) (ix2 p q) *ₑ W5 (F := Ideal) m ρ c (Proc.devRef .tc main_v16) (ix2 p (0 : Fin 1))
        +ₑ W5 (F := Ideal) m ρ c (Proc.devRef .tc main_v29) (ix2 (0 : Fin 1) q)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (ix2 p q) := by
  rw [v5_v16_at, v5_v29_at, v5_v28]
  exact Cert.ReferenceIdeal.Bridge.layer1 (m ((c : Thread nD τ).loc main_arg0)) (m ((c : Thread nD τ).loc main_arg1)) (m ((c : Thread nD τ).loc main_arg2)) (m ((c : Thread nD τ).loc main_arg3)) (W4 (F := Ideal) m ρ c (Proc.devRef .tc main_v18_0)) (k18_0_at m ρ c) p q

end Cert.KernelIdeal.Layer1

end
-- ==== Proof.Region1Value.lean ====
/-
  The second layer's fused kernel, read as a function of whole arrays, at the ideal values.

  The kernel runs on a grid of 50 points. A BLOCK of a row-blocked array at point t is its rows [2000 t, 2000 t + 2000):
  the element at row a of the block is the array's element at row 2000 t + a, same column. Five arrays are row-blocked
  this way: the aggregated features A [100000, 64], the inverse degrees D [100000, 1], the second branch P [100000, 64],
  and the two outputs [100000, 1]. The bias row B [1, 64], the two weight columns W [128, 1] and the scalar bias b [1, 1]
  are seen whole at every point.

  At a point the body computes, row by row of the block,
      h1(a, c) = max(A(a, c) · D(a, 0) + B(0, c), 0)          (first hidden half, 64 columns)
      h2(a, c) = max(P(a, c), 0)                              (second hidden half, 64 columns)
  and projects the 128 hidden features of row a on a weight column W. The column is cut in rows [0, 64) and [64, 128);
  each half is multiplied into a zero accumulator, and the two products are added:
      proj(a) = ∑ c < 64, h1(a, c) · W(c, 0)  +  ∑ c < 64, h2(a, c) · W(64 + c, 0).
  The casts to a narrower format are the identity at the ideal values, a product into the zero accumulator is the plain
  sum, and the constant 0.0 is the extended real 0. The first output's block is proj with the first weight, times D(a, 0);
  the second output's block is proj with the second weight, plus b(0, 0).

  So rows [2000 t, 2000 t + 2000) of each output depend only on the same rows of A, D and P (and on B, W, b): the block
  point t writes back is block t of ONE function of the whole entry arrays (G7, G8 below). The 50 blocks cover the
  100000 rows (row r lies in block ⌊r / 2000⌋), so each output array after the region IS that function; read at row p it
  is the closed form of the last two theorems.
-/
import proofs.«122140_j46574625358105_2_alg».proof.Proof.Gen.KernelIdeal.Frame
import proofs.«122140_j46574625358105_2_alg».proof.Proof.LibMatmulPlain
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-- the printed dimension numbers of the 2000×64 by 64×1 product are the plain ones -/
theorem dims_plain : dot_S2000x64_S64x1_S2000x1_1_0_0_1_n_n = DotDims.plain 2000 64 1 := rfl

/-- the first hidden half of a block, at row a and column c: max(agg·dinv + b1, 0); the cast to the narrower format
    is the identity at the ideal values -/
theorem pay3_apply (v0 : Vec Ideal S2000x1 .f32) (v2 : Vec Ideal S2000x64 .f32) (v6 : Vec Ideal S1x64 .f32) (a : Fin 2000) (c : Fin 64) :
    k1_pay3 v0 v2 v6 (ix2 a c) = max (v2 (ix2 a c) * v0 (ix2 a (0 : Fin 1)) + v6 (ix2 (0 : Fin 1) c)) 0 := by
  unfold k1_pay3 k1_pay2
  show max (shapeCast S2000x64 v2 _ (ix2 a c) * broadcastTo S2000x64 (shapeCast S2000x1 v0 _) _ (ix2 a c) + broadcastTo S2000x64 (shapeCast S1x64 v6 _) _ (ix2 a c)) (Ideal.ofBits .f32 0x00000000#32) = _
  rw [shapeCast_self, shapeCast_self, shapeCast_self, Ideal.ofBits_zero_f32]
  have e0 : broadcastTo S2000x64 v0 broadcasts_S2000x1_S2000x64 (ix2 a c) = v0 (ix2 a (0 : Fin 1)) :=
    broadcastTo_apply v0 _ (ix2 a c) (ix2 a (0 : Fin 1)) (fun ax => by
      match ax with
      | ⟨0, _⟩ => rfl
      | ⟨1, _⟩ => rfl)
  have e6 : broadcastTo S2000x64 v6 broadcasts_S1x64_S2000x64 (ix2 a c) = v6 (ix2 (0 : Fin 1) c) :=
    broadcastTo_apply v6 _ (ix2 a c) (ix2 (0 : Fin 1) c) (fun ax => by
      match ax with
      | ⟨0, _⟩ => rfl
      | ⟨1, _⟩ => rfl)
  rw [e0, e6]

/-- the second hidden half of a block, at row a and column c: max(part2, 0) -/
theorem pay4_apply (v10 : Vec Ideal S2000x64 .f32) (a : Fin 2000) (c : Fin 64) :
    k1_pay4 v10 (ix2 a c) = max (v10 (ix2 a c)) 0 := by
  unfold k1_pay4
  show max (shapeCast S2000x64 v10 _ (ix2 a c)) (Ideal.ofBits .f32 0x00000000#32) = _
  rw [shapeCast_self, Ideal.ofBits_zero_f32]

/-- rows [0, 64) of a 128-row column, read at a row of the half -/
theorem slice_top (v : FVec Ideal S128x1 .bf16) (c : Fin 64) :
    extractStridedSlice S64x1 ![0, 0] v slices_S128x1_o0_0_S64x1 (ix2 c (0 : Fin 1)) = v (ix2 (⟨c.val, by omega⟩ : Fin 128) (0 : Fin 1)) :=
  extractStridedSlice_apply _ v _ (ix2 c (0 : Fin 1)) (ix2 (⟨c.val, by omega⟩ : Fin 128) (0 : Fin 1)) (fun ax => by
    match ax with
    | ⟨0, _⟩ => show c.val = 0 + c.val; omega
    | ⟨1, _⟩ => rfl)

/-- rows [64, 128) of a 128-row column, read at a row of the half -/
theorem slice_bot (v : FVec Ideal S128x1 .bf16) (c : Fin 64) :
    extractStridedSlice S64x1 ![64, 0] v slices_S128x1_o64_0_S64x1 (ix2 c (0 : Fin 1)) = v (ix2 (⟨64 + c.val, by omega⟩ : Fin 128) (0 : Fin 1)) :=
  extractStridedSlice_apply _ v _ (ix2 c (0 : Fin 1)) (ix2 (⟨64 + c.val, by omega⟩ : Fin 128) (0 : Fin 1)) (fun ax => by
    match ax with
    | ⟨0, _⟩ => rfl
    | ⟨1, _⟩ => rfl)

/-- the projection of one block row: the 128-row weight cut in two 64-row halves, each half multiplied into a zero
    accumulator, the two products added -/
theorem proj_apply (h1 h2 : FVec Ideal S2000x64 .bf16) (w : Vec Ideal S128x1 .f32) (a : Fin 2000) :
    addf (matmul dot_S2000x64_S64x1_S2000x1_1_0_0_1_n_n none h1 (extractStridedSlice S64x1 ![0, 0] (truncf .bf16 w bitsLt_bf16_f32) slices_S128x1_o0_0_S64x1) (constant (F := Ideal) S2000x1 .f32 0x00000000#32))
         (matmul dot_S2000x64_S64x1_S2000x1_1_0_0_1_n_n none h2 (extractStridedSlice S64x1 ![64, 0] (truncf .bf16 w bitsLt_bf16_f32) slices_S128x1_o64_0_S64x1) (constant (F := Ideal) S2000x1 .f32 0x00000000#32)) (ix2 a (0 : Fin 1))
      = (∑ c : Fin 64, h1 (ix2 a c) * w (ix2 (⟨c.val, by omega⟩ : Fin 128) (0 : Fin 1))) + (∑ c : Fin 64, h2 (ix2 a c) * w (ix2 (⟨64 + c.val, by omega⟩ : Fin 128) (0 : Fin 1))) := by
  rw [addf_apply, dims_plain]
  rw [Cert.LibMatmulPlain.matmul_plain_zero_apply, Cert.LibMatmulPlain.matmul_plain_zero_apply]
  refine congrArg₂ (· + ·) (Finset.sum_congr rfl fun c _ => ?_) (Finset.sum_congr rfl fun c _ => ?_)
  · rw [slice_top]; rfl
  · rw [slice_bot]; rfl

/-- what the body stores in output window 7, at row a of the block -/
theorem pay6_apply (v0 : Vec Ideal S2000x1 .f32) (v2 : Vec Ideal S2000x64 .f32) (v6 : Vec Ideal S1x64 .f32) (v10 : Vec Ideal S2000x64 .f32)
    (v18 : Vec Ideal S128x1 .f32) (a : Fin 2000) :
    k1_pay6 v0 v2 v6 v10 v18 (ix2 a (0 : Fin 1))
      = ((∑ c : Fin 64, k1_pay3 v0 v2 v6 (ix2 a c) * v18 (ix2 (⟨c.val, by omega⟩ : Fin 128) (0 : Fin 1)))
          + (∑ c : Fin 64, k1_pay4 v10 (ix2 a c) * v18 (ix2 (⟨64 + c.val, by omega⟩ : Fin 128) (0 : Fin 1)))) * v0 (ix2 a (0 : Fin 1)) := by
  unfold k1_pay6 k1_pay2
  exact congrArg₂ (· * ·) (proj_apply (k1_pay3 v0 v2 v6) (k1_pay4 v10) v18 a) (congrFun (shapeCast_self v0 _) (ix2 a (0 : Fin 1)))

/-- what the body stores in output window 8, at row a of the block -/
theorem pay15_apply (v0 : Vec Ideal S2000x1 .f32) (v2 : Vec Ideal S2000x64 .f32) (v6 : Vec Ideal S1x64 .f32) (v10 : Vec Ideal S2000x64 .f32)
    (v20 : Vec Ideal S128x1 .f32) (v34 : Vec Ideal S1x1 .f32) (a : Fin 2000) :
    k1_pay1 (k1_pay5 v0 v2 v6 v10 v20) (k1_pay7 v34) (ix2 a (0 : Fin 1))
      = ((∑ c : Fin 64, k1_pay3 v0 v2 v6 (ix2 a c) * v20 (ix2 (⟨c.val, by omega⟩ : Fin 128) (0 : Fin 1)))
          + (∑ c : Fin 64, k1_pay4 v10 (ix2 a c) * v20 (ix2 (⟨64 + c.val, by omega⟩ : Fin 128) (0 : Fin 1)))) + v34 (ix2 (0 : Fin 1) (0 : Fin 1)) := by
  unfold k1_pay1 k1_pay5 k1_pay7
  have e : broadcastTo S2000x1 (shapeCast S1x1 v34 shapeCasts_S1x1_S1x1) broadcasts_S1x1_S2000x1 (ix2 a (0 : Fin 1)) = v34 (ix2 (0 : Fin 1) (0 : Fin 1)) := by
    rw [shapeCast_self]
    exact broadcastTo_apply v34 _ (ix2 a (0 : Fin 1)) (ix2 (0 : Fin 1) (0 : Fin 1)) (fun ax => by
      match ax with
      | ⟨0, _⟩ => rfl
      | ⟨1, _⟩ => rfl)
  exact congrArg₂ (· + ·) (proj_apply (k1_pay3 v0 v2 v6) (k1_pay4 v10) v20 a) e

variable (V : (c : Dev nD) → (b : Ref sig .tc) → Buf (Elt Ideal) ((c : Thread nD τ).loc b))

/-- rows of the first hidden half: max(agg·dinv + b1, 0) -/
def hid1 (A : S100000x64.Idx → EReal) (D : S100000x1.Idx → EReal) (B : S1x64.Idx → EReal) (p : Fin 100000) (c : Fin 64) : EReal :=
  max (A (ix2 p c) * D (ix2 p (0 : Fin 1)) + B (ix2 (0 : Fin 1) c)) 0

/-- rows of the second hidden half: max(part2, 0) -/
def hid2 (P : S100000x64.Idx → EReal) (p : Fin 100000) (c : Fin 64) : EReal := max (P (ix2 p c)) 0

/-- a 128-wide projection taken as two 64-wide halves -/
def proj (h1 h2 : Fin 64 → EReal) (W : S128x1.Idx → EReal) : EReal :=
  (∑ c : Fin 64, h1 c * W (ix2 (⟨c.val, by omega⟩ : Fin 128) (0 : Fin 1))) + (∑ c : Fin 64, h2 c * W (ix2 (⟨64 + c.val, by omega⟩ : Fin 128) (0 : Fin 1)))

/-- output array 7 as one function of the entry arrays: the projection of row i's hidden features, scaled by dinv at row i -/
def G7 (A : S100000x64.Idx → EReal) (D : S100000x1.Idx → EReal) (B : S1x64.Idx → EReal) (P : S100000x64.Idx → EReal)
    (W : S128x1.Idx → EReal) : S100000x1.Idx → EReal :=
  fun i => proj (hid1 A D B (i 0)) (hid2 P (i 0)) W * D (ix2 (i 0 : Fin 100000) (0 : Fin 1))

/-- output array 8 as one function of the entry arrays: the projection of row i's hidden features, plus the bias -/
def G8 (A : S100000x64.Idx → EReal) (D : S100000x1.Idx → EReal) (B : S1x64.Idx → EReal) (P : S100000x64.Idx → EReal)
    (W : S128x1.Idx → EReal) (b : S1x1.Idx → EReal) : S100000x1.Idx → EReal :=
  fun i => proj (hid1 A D B (i 0)) (hid2 P (i 0)) W + b (ix2 (0 : Fin 1) (0 : Fin 1))

/-- row a of a block whose rows are rows of the arrays: the stored value of window 7 is G7's at the array row p -/
theorem point7 (x0 : Vec Ideal S2000x64 .f32) (x1 : Vec Ideal S2000x1 .f32) (x2 : Vec Ideal S1x64 .f32) (x3 : Vec Ideal S2000x64 .f32)
    (x4 : Vec Ideal S128x1 .f32)
    (A : S100000x64.Idx → EReal) (D : S100000x1.Idx → EReal) (B : S1x64.Idx → EReal) (P : S100000x64.Idx → EReal) (W : S128x1.Idx → EReal)
    (a : Fin 2000) (p : Fin 100000)
    (h0 : ∀ cc : Fin 64, x0 (ix2 a cc) = A (ix2 p cc)) (h1 : x1 (ix2 a (0 : Fin 1)) = D (ix2 p (0 : Fin 1)))
    (h2 : ∀ cc : Fin 64, x2 (ix2 (0 : Fin 1) cc) = B (ix2 (0 : Fin 1) cc)) (h3 : ∀ cc : Fin 64, x3 (ix2 a cc) = P (ix2 p cc))
    (h4 : ∀ r : Fin 128, x4 (ix2 r (0 : Fin 1)) = W (ix2 r (0 : Fin 1))) :
    k1_pay6 x1 x0 x2 x3 x4 (ix2 a (0 : Fin 1)) = proj (hid1 A D B p) (hid2 P p) W * D (ix2 p (0 : Fin 1)) := by
  rw [pay6_apply, h1]
  unfold proj hid1 hid2
  refine congrArg (· * D (ix2 p (0 : Fin 1))) ?_
  refine congrArg₂ (· + ·) (Finset.sum_congr rfl fun cc _ => ?_) (Finset.sum_congr rfl fun cc _ => ?_)
  · rw [pay3_apply, h0, h1, h2, h4]
  · rw [pay4_apply, h3, h4]

/-- the same for window 8 -/
theorem point8 (x0 : Vec Ideal S2000x64 .f32) (x1 : Vec Ideal S2000x1 .f32) (x2 : Vec Ideal S1x64 .f32) (x3 : Vec Ideal S2000x64 .f32)
    (x5 : Vec Ideal S128x1 .f32) (x6 : Vec Ideal S1x1 .f32)
    (A : S100000x64.Idx → EReal) (D : S100000x1.Idx → EReal) (B : S1x64.Idx → EReal) (P : S100000x64.Idx → EReal) (W : S128x1.Idx → EReal)
    (b : S1x1.Idx → EReal)
    (a : Fin 2000) (p : Fin 100000)
    (h0 : ∀ cc : Fin 64, x0 (ix2 a cc) = A (ix2 p cc)) (h1 : x1 (ix2 a (0 : Fin 1)) = D (ix2 p (0 : Fin 1)))
    (h2 : ∀ cc : Fin 64, x2 (ix2 (0 : Fin 1) cc) = B (ix2 (0 : Fin 1) cc)) (h3 : ∀ cc : Fin 64, x3 (ix2 a cc) = P (ix2 p cc))
    (h5 : ∀ r : Fin 128, x5 (ix2 r (0 : Fin 1)) = W (ix2 r (0 : Fin 1)))
    (h6 : x6 (ix2 (0 : Fin 1) (0 : Fin 1)) = b (ix2 (0 : Fin 1) (0 : Fin 1))) :
    k1_pay1 (k1_pay5 x1 x0 x2 x3 x5) (k1_pay7 x6) (ix2 a (0 : Fin 1)) = proj (hid1 A D B p) (hid2 P p) W + b (ix2 (0 : Fin 1) (0 : Fin 1)) := by
  rw [pay15_apply, h6]
  unfold proj hid1 hid2
  refine congrArg (· + b (ix2 (0 : Fin 1) (0 : Fin 1))) ?_
  refine congrArg₂ (· + ·) (Finset.sum_congr rfl fun cc _ => ?_) (Finset.sum_congr rfl fun cc _ => ?_)
  · rw [pay3_apply, h0, h1, h2, h5]
  · rw [pay4_apply, h3, h5]

/-- the zero offsets of a whole-buffer access, spelt as the constant function -/
theorem hz : (![0, 0] : Fin 2 → Nat) = fun _ => 0 := funext fun a => by fin_cases a <;> rfl

/-- The printed index maps, decided over the 50 grid points: the row-blocked windows (aggregated features, dinv, second
    branch, both outputs) all sit at the same row block, below 50, in column block 0; the whole windows sit at block (0, 0). -/
theorem idx_facts : ∀ t : Fin cfg1.N,
    win1_0.index t (0 : Fin 2) = win1_7.index t (0 : Fin 2) ∧ win1_1.index t (0 : Fin 2) = win1_7.index t (0 : Fin 2)
    ∧ win1_3.index t (0 : Fin 2) = win1_7.index t (0 : Fin 2) ∧ win1_8.index t (0 : Fin 2) = win1_7.index t (0 : Fin 2)
    ∧ win1_7.index t (0 : Fin 2) ≤ 49
    ∧ win1_0.index t (1 : Fin 2) = 0 ∧ win1_1.index t (1 : Fin 2) = 0 ∧ win1_3.index t (1 : Fin 2) = 0
    ∧ win1_7.index t (1 : Fin 2) = 0 ∧ win1_8.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every row block of the outputs is some grid point's. -/
theorem idx_onto : ∀ q0 : Fin 50, ∃ t : Fin cfg1.N, win1_7.index t = ![q0.val, 0] ∧ win1_8.index t = ![q0.val, 0] :=
  (by decide +kernel : ∀ q0 : Fin 50, ∃ t : Fin grid1.N, win1_7.index t = ![q0.val, 0] ∧ win1_8.index t = ![q0.val, 0])

/-! ## The input blocks at a grid point, read at coordinates: a block element sits in its array, on each axis, at
    block index × block size + its own coordinate -/

/-- aggregated features: row a of block t is array row p = (row block of t) · 2000 + a -/
theorem blk0_apply (c : Dev nD) (t : Fin cfg1.N) (a : Fin 2000) (cc : Fin 64) (p : Fin 100000)
    (hp : p.val = win1_7.index t (0 : Fin 2) * 2000 + a.val) :
    iblk1 V c 0 t (ix2 a cc) = V c main_v28 (ix2 p cc) := by
  obtain ⟨e0, e1, e3, e8, le, z0, z1, z3, z7, z8, z2a, z2b, z4a, z4b, z5a, z5b, z6a, z6b⟩ := idx_facts t
  show V c main_v28 (((cfg1.win 0).blk t).view.emb (ix2 a cc)) = V c main_v28 (ix2 p cc)
  refine congrArg (V c main_v28) ?_
  funext ax; apply Fin.ext
  match ax with
  | ⟨0, _⟩ => show win1_0.index t (0 : Fin 2) * 2000 + 1 * a.val = p.val; omega
  | ⟨1, _⟩ => show win1_0.index t (1 : Fin 2) * 64 + 1 * cc.val = cc.val; omega

/-- dinv -/
theorem blk1_apply (c : Dev nD) (t : Fin cfg1.N) (a : Fin 2000) (p : Fin 100000)
    (hp : p.val = win1_7.index t (0 : Fin 2) * 2000 + a.val) :
    iblk1 V c 1 t (ix2 a (0 : Fin 1)) = V c main_v16 (ix2 p (0 : Fin 1)) := by
  obtain ⟨e0, e1, e3, e8, le, z0, z1, z3, z7, z8, z2a, z2b, z4a, z4b, z5a, z5b, z6a, z6b⟩ := idx_facts t
  show V c main_v16 (((cfg1.win 1).blk t).view.emb (ix2 a (0 : Fin 1))) = V c main_v16 (ix2 p (0 : Fin 1))
  refine congrArg (V c main_v16) ?_
  funext ax; apply Fin.ext
  match ax with
  | ⟨0, _⟩ => show win1_1.index t (0 : Fin 2) * 2000 + 1 * a.val = p.val; omega
  | ⟨1, _⟩ => show win1_1.index t (1 : Fin 2) * 1 + 1 * 0 = 0; omega

/-- the bias row, a whole window -/
theorem blk2_apply (c : Dev nD) (t : Fin cfg1.N) (cc : Fin 64) :
    iblk1 V c 2 t (ix2 (0 : Fin 1) cc) = V c main_v29 (ix2 (0 : Fin 1) cc) := by
  obtain ⟨e0, e1, e3, e8, le, z0, z1, z3, z7, z8, z2a, z2b, z4a, z4b, z5a, z5b, z6a, z6b⟩ := idx_facts t
  show V c main_v29 (((cfg1.win 2).blk t).view.emb (ix2 (0 : Fin 1) cc)) = V c main_v29 (ix2 (0 : Fin 1) cc)
  refine congrArg (V c main_v29) ?_
  funext ax; apply Fin.ext
  match ax with
  | ⟨0, _⟩ => show win1_2.index t (0 : Fin 2) * 1 + 1 * 0 = 0; omega
  | ⟨1, _⟩ => show win1_2.index t (1 : Fin 2) * 64 + 1 * cc.val = cc.val; omega

/-- the second branch -/
theorem blk3_apply (c : Dev nD) (t : Fin cfg1.N) (a : Fin 2000) (cc : Fin 64) (p : Fin 100000)
    (hp : p.val = win1_7.index t (0 : Fin 2) * 2000 + a.val) :
    iblk1 V c 3 t (ix2 a cc) = V c main_v18_1 (ix2 p cc) := by
  obtain ⟨e0, e1, e3, e8, le, z0, z1, z3, z7, z8, z2a, z2b, z4a, z4b, z5a, z5b, z6a, z6b⟩ := idx_facts t
  show V c main_v18_1 (((cfg1.win 3).blk t).view.emb (ix2 a cc)) = V c main_v18_1 (ix2 p cc)
  refine congrArg (V c main_v18_1) ?_
  funext ax; apply Fin.ext
  match ax with
  | ⟨0, _⟩ => show win1_3.index t (0 : Fin 2) * 2000 + 1 * a.val = p.val; omega
  | ⟨1, _⟩ => show win1_3.index t (1 : Fin 2) * 64 + 1 * cc.val = cc.val; omega

/-- the two weights and the scalar bias, whole windows -/
theorem blk4_apply (c : Dev nD) (t : Fin cfg1.N) (r : Fin 128) :
    iblk1 V c 4 t (ix2 r (0 : Fin 1)) = V c main_arg6 (ix2 r (0 : Fin 1)) := by
  obtain ⟨e0, e1, e3, e8, le, z0, z1, z3, z7, z8, z2a, z2b, z4a, z4b, z5a, z5b, z6a, z6b⟩ := idx_facts t
  show V c main_arg6 (((cfg1.win 4).blk t).view.emb (ix2 r (0 : Fin 1))) = V c main_arg6 (ix2 r (0 : Fin 1))
  refine congrArg (V c main_arg6) ?_
  funext ax; apply Fin.ext
  match ax with
  | ⟨0, _⟩ => show win1_4.index t (0 : Fin 2) * 128 + 1 * r.val = r.val; omega
  | ⟨1, _⟩ => show win1_4.index t (1 : Fin 2) * 1 + 1 * 0 = 0; omega

theorem blk5_apply (c : Dev nD) (t : Fin cfg1.N) (r : Fin 128) :
    iblk1 V c 5 t (ix2 r (0 : Fin 1)) = V c main_arg8 (ix2 r (0 : Fin 1)) := by
  obtain ⟨e0, e1, e3, e8, le, z0, z1, z3, z7, z8, z2a, z2b, z4a, z4b, z5a, z5b, z6a, z6b⟩ := idx_facts t
  show V c main_arg8 (((cfg1.win 5).blk t).view.emb (ix2 r (0 : Fin 1))) = V c main_arg8 (ix2 r (0 : Fin 1))
  refine congrArg (V c main_arg8) ?_
  funext ax; apply Fin.ext
  match ax with
  | ⟨0, _⟩ => show win1_5.index t (0 : Fin 2) * 128 + 1 * r.val = r.val; omega
  | ⟨1, _⟩ => show win1_5.index t (1 : Fin 2) * 1 + 1 * 0 = 0; omega

theorem blk6_apply (c : Dev nD) (t : Fin cfg1.N) :
    iblk1 V c 6 t (ix2 (0 : Fin 1) (0 : Fin 1)) = V c main_v30 (ix2 (0 : Fin 1) (0 : Fin 1)) := by
  obtain ⟨e0, e1, e3, e8, le, z0, z1, z3, z7, z8, z2a, z2b, z4a, z4b, z5a, z5b, z6a, z6b⟩ := idx_facts t
  show V c main_v30 (((cfg1.win 6).blk t).view.emb (ix2 (0 : Fin 1) (0 : Fin 1))) = V c main_v30 (ix2 (0 : Fin 1) (0 : Fin 1))
  refine congrArg (V c main_v30) ?_
  funext ax; apply Fin.ext
  match ax with
  | ⟨0, _⟩ => show win1_6.index t (0 : Fin 2) * 1 + 1 * 0 = 0; omega
  | ⟨1, _⟩ => show win1_6.index t (1 : Fin 2) * 1 + 1 * 0 = 0; omega

/-! ## What a grid point writes back, the cover, and the arrays after the region -/

/-- WHAT POINT t WRITES BACK to output window 7 is block t of G7 of the entry arrays. -/
theorem flushed7_eq (c : Dev nD) (t : Fin cfg1.N) :
    (dat1 (F := Ideal) V c).flushed 7 t
      = ((cfg1.win 7).blk t).view.read (Elt Ideal) (G7 (V c main_v28) (V c main_v16) (V c main_v29) (V c main_v18_1) (V c main_arg6)) := by
  show (cfg1.win 7).cut (grid1.coords t) ((dat1 V c).after 7 t) = _
  rw [after1_7]
  unfold out1_7
  rw [View.canon_unit_zero hz]
  simp only [View.ld_unit_zero (S := S2000x1) hz, View.ld_unit_zero (S := S2000x64) hz, View.ld_unit_zero (S := S1x64) hz,
    View.ld_unit_zero (S := S128x1) hz]
  obtain ⟨e0, e1, e3, e8, le, z0, z1, z3, z7, z8, z2a, z2b, z4a, z4b, z5a, z5b, z6a, z6b⟩ := idx_facts t
  funext j
  obtain ⟨a, b, rfl⟩ : ∃ (a : Fin 2000) (b : Fin 1), j = ix2 a b := ⟨j 0, j 1, eq_ix2 j⟩
  obtain rfl : b = 0 := Subsingleton.elim _ _
  have ha : a.val < 2000 := a.isLt
  have hp : win1_7.index t (0 : Fin 2) * 2000 + a.val < 100000 := by omega
  have hemb : ((cfg1.win 7).blk t).view.emb (ix2 a (0 : Fin 1))
      = ix2 (⟨win1_7.index t (0 : Fin 2) * 2000 + a.val, hp⟩ : Fin 100000) (0 : Fin 1) := by
    funext ax; apply Fin.ext
    match ax with
    | ⟨0, _⟩ => show win1_7.index t (0 : Fin 2) * 2000 + 1 * a.val = win1_7.index t (0 : Fin 2) * 2000 + a.val; omega
    | ⟨1, _⟩ => show win1_7.index t (1 : Fin 2) * 1 + 1 * 0 = 0; omega
  show k1_pay6 (iblk1 V c 1 t) (iblk1 V c 0 t) (iblk1 V c 2 t) (iblk1 V c 3 t) (iblk1 V c 4 t) (ix2 a (0 : Fin 1))
    = G7 (V c main_v28) (V c main_v16) (V c main_v29) (V c main_v18_1) (V c main_arg6) (((cfg1.win 7).blk t).view.emb (ix2 a (0 : Fin 1)))
  rw [hemb]
  exact point7 (iblk1 V c 0 t) (iblk1 V c 1 t) (iblk1 V c 2 t) (iblk1 V c 3 t) (iblk1 V c 4 t)
    (V c main_v28) (V c main_v16) (V c main_v29) (V c main_v18_1) (V c main_arg6) a ⟨_, hp⟩
    (fun cc => blk0_apply V c t a cc _ rfl) (blk1_apply V c t a _ rfl) (fun cc => blk2_apply V c t cc)
    (fun cc => blk3_apply V c t a cc _ rfl) (fun r => blk4_apply V c t r)

/-- WHAT POINT t WRITES BACK to output window 8 is block t of G8 of the entry arrays. -/
theorem flushed8_eq (c : Dev nD) (t : Fin cfg1.N) :
    (dat1 (F := Ideal) V c).flushed 8 t
      = ((cfg1.win 8).blk t).view.read (Elt Ideal)
          (G8 (V c main_v28) (V c main_v16) (V c main_v29) (V c main_v18_1) (V c main_arg8) (V c main_v30)) := by
  show (cfg1.win 8).cut (grid1.coords t) ((dat1 V c).after 8 t) = _
  rw [after1_8]
  unfold out1_8
  rw [View.canon_unit_zero hz]
  simp only [View.ld_unit_zero (S := S2000x1) hz, View.ld_unit_zero (S := S2000x64) hz, View.ld_unit_zero (S := S1x64) hz,
    View.ld_unit_zero (S := S128x1) hz, View.ld_unit_zero (S := S1x1) hz]
  obtain ⟨e0, e1, e3, e8, le, z0, z1, z3, z7, z8, z2a, z2b, z4a, z4b, z5a, z5b, z6a, z6b⟩ := idx_facts t
  funext j
  obtain ⟨a, b, rfl⟩ : ∃ (a : Fin 2000) (b : Fin 1), j = ix2 a b := ⟨j 0, j 1, eq_ix2 j⟩
  obtain rfl : b = 0 := Subsingleton.elim _ _
  have ha : a.val < 2000 := a.isLt
  have hp : win1_7.index t (0 : Fin 2) * 2000 + a.val < 100000 := by omega
  have hemb : ((cfg1.win 8).blk t).view.emb (ix2 a (0 : Fin 1))
      = ix2 (⟨win1_7.index t (0 : Fin 2) * 2000 + a.val, hp⟩ : Fin 100000) (0 : Fin 1) := by
    funext ax; apply Fin.ext
    match ax with
    | ⟨0, _⟩ => show win1_8.index t (0 : Fin 2) * 2000 + 1 * a.val = win1_7.index t (0 : Fin 2) * 2000 + a.val; omega
    | ⟨1, _⟩ => show win1_8.index t (1 : Fin 2) * 1 + 1 * 0 = 0; omega
  show k1_pay1 (k1_pay5 (iblk1 V c 1 t) (iblk1 V c 0 t) (iblk1 V c 2 t) (iblk1 V c 3 t) (iblk1 V c 5 t)) (k1_pay7 (iblk1 V c 6 t)) (ix2 a (0 : Fin 1))
    = G8 (V c main_v28) (V c main_v16) (V c main_v29) (V c main_v18_1) (V c main_arg8) (V c main_v30) (((cfg1.win 8).blk t).view.emb (ix2 a (0 : Fin 1)))
  rw [hemb]
  exact point8 (iblk1 V c 0 t) (iblk1 V c 1 t) (iblk1 V c 2 t) (iblk1 V c 3 t) (iblk1 V c 5 t) (iblk1 V c 6 t)
    (V c main_v28) (V c main_v16) (V c main_v29) (V c main_v18_1) (V c main_arg8) (V c main_v30) a ⟨_, hp⟩
    (fun cc => blk0_apply V c t a cc _ rfl) (blk1_apply V c t a _ rfl) (fun cc => blk2_apply V c t cc)
    (fun cc => blk3_apply V c t a cc _ rfl) (fun r => blk5_apply V c t r) (blk6_apply V c t)

/-- An index of output array 7 is in point t's block iff each coordinate is in the block's range on its axis. -/
theorem mem_blk7 (t : Fin cfg1.N) (i : S100000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v31_0).slice (win1_7.rect t)).set ↔ _
  rw [View.set_slice_whole, Rect.mem_set_unit]
  exact Iff.rfl

/-- The same for output array 8. -/
theorem mem_blk8 (t : Fin cfg1.N) (i : S100000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v31_1).slice (win1_8.rect t)).set ↔ _
  rw [View.set_slice_whole, Rect.mem_set_unit]
  exact Iff.rfl

/-- THE COVER: row r of an output lies in the block of the point whose row block is ⌊r / 2000⌋. -/
theorem cover7 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht, -⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 1 ≤ (i 1).val ∧ (i 1).val < win1_7.index t (1 : Fin 2) * 1 + 1; omega

theorem cover8 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  obtain ⟨t, -, ht⟩ := idx_onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 1 ≤ (i 1).val ∧ (i 1).val < win1_8.index t (1 : Fin 2) * 1 + 1; omega

/-- OUTPUT ARRAY 7 after the region is G7 of the entry arrays: every block written back is G7's, and the blocks cover the array. -/
theorem final1_7 (c : Dev nD) :
    (dat1 (F := Ideal) V c).arrAt 7 cfg1.N = G7 (V c main_v28) (V c main_v16) (V c main_v29) (V c main_v18_1) (V c main_arg6) :=
  (dat1 V c).arrAt_eq_of_cover 7 (G7 (V c main_v28) (V c main_v16) (V c main_v29) (V c main_v18_1) (V c main_arg6))
    (fun t _ => flushed7_eq V c t) cover7

/-- OUTPUT ARRAY 8 after the region is G8 of the entry arrays. -/
theorem final1_8 (c : Dev nD) :
    (dat1 (F := Ideal) V c).arrAt 8 cfg1.N
      = G8 (V c main_v28) (V c main_v16) (V c main_v29) (V c main_v18_1) (V c main_arg8) (V c main_v30) :=
  (dat1 V c).arrAt_eq_of_cover 8 (G8 (V c main_v28) (V c main_v16) (V c main_v29) (V c main_v18_1) (V c main_arg8) (V c main_v30))
    (fun t _ => flushed8_eq V c t) cover8

/-- Output array 7 after the region, read at row p: the projection by W2 of row p's hidden features, scaled by dinv at p. -/
theorem final1_7_apply (c : Dev nD) (p : Fin 100000) :
    (dat1 (F := Ideal) V c).arrAt 7 cfg1.N (ix2 p (0 : Fin 1))
      = proj (hid1 (V c main_v28) (V c main_v16) (V c main_v29) p) (hid2 (V c main_v18_1) p) (V c main_arg6) * V c main_v16 (ix2 p (0 : Fin 1)) := by
  rw [final1_7]
  rfl

/-- Output array 8 after the region, read at row p: the projection by Wf2 of row p's hidden features, plus the bias bf2. -/
theorem final1_8_apply (c : Dev nD) (p : Fin 100000) :
    (dat1 (F := Ideal) V c).arrAt 8 cfg1.N (ix2 p (0 : Fin 1))
      = proj (hid1 (V c main_v28) (V c main_v16) (V c main_v29) p) (hid2 (V c main_v18_1) p) (V c main_arg8) + V c main_v30 (ix2 (0 : Fin 1) (0 : Fin 1)) := by
  rw [final1_8]
  rfl

end Cert.KernelIdeal.Region1

end
-- ==== Proof.KernelLayer2.lean ====
/-
  The second layer of the kernel program against the reference's stages.

  Write dinv p for the reference's guarded inverse square root of node p's in-degree, agg1 for the reference's first-layer
  aggregate [100000, 64], dir1 for its direct branch of the first layer [100000, 64], W and W' for the two 128×1 weight
  columns, b and b' for the two one-element bias vectors.

  THE HIDDEN ROW. The reference's hidden layer is max(·, 0) of agg1 and dir1 side by side, 128 columns. The second region
  of the kernel program never builds the 128-wide row: from its inputs it computes max(·, 0) of the aggregated row scaled by
  dinv p plus the bias — which is agg1's row p — and max(·, 0) of dir1's row p, as two 64-wide halves.

  THE PRODUCT SPLITS IN TWO. A 128-term product of the hidden row with a weight column is the sum of its two 64-term halves:
  the first half against rows [0, 64) of the column, the second against rows [64, 128). So the region's projection of node
  p's two halves on W is the reference's projected second-layer feature of p, and on W' (plus b') the reference's direct
  branch of the second layer.

  SCALING ON THE NODE SIDE. The region's first output is the projected feature of node p times dinv p. After the region the
  program gathers these pre-scaled values by the edges' source numbers, scatter-adds them by the edges' target numbers, and
  multiplies row p of the sum by dinv p. An edge landing on row p has target p, and 0 ≤ dinv p < ⊤, so this is the reference's
  sum of the gathered values each scaled by the edge factor dinv(src e) · dinv(tgt e). Adding b and the second output gives
  the reference's result, node by node; the result vector is the [100000, 1] column read as a vector.
-/
import proofs.«122140_j46574625358105_2_alg».proof.Proof.KernelHost
import proofs.«122140_j46574625358105_2_alg».proof.Proof.KernelLayer1
import proofs.«122140_j46574625358105_2_alg».proof.Proof.Region1Value
import proofs.«122140_j46574625358105_2_alg».proof.Proof.RefBridge
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem

/-! ## Vectors as columns, columns as vectors, and the broadcast of a one-element vector -/

/-- An [a] array cast to [a, 1] reads, at (i, u), the operand at i, whatever the unit coordinate u. -/
theorem shapeCast_vec_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- An [a, 1] array cast to [a] reads, at i, the operand at (i, 0). -/
theorem shapeCast_col_vec_apply {α : Type} {a : ℕ} (y : (⟨2, ![a, 1]⟩ : Shape).Idx → α)
    (h : (⟨2, ![a, 1]⟩ : Shape).ShapeCasts ⟨1, ![a]⟩) (i : Fin a) :
    shapeCast ⟨1, ![a]⟩ y h (ix1 i) = y (ix2 i (0 : Fin 1)) :=
  shapeCast_apply y h _ _ (by
    rw [Shape.rowMajor_val_two, Shape.rowMajor_val_one]
    show i.val * 1 + 0 = i.val
    omega)

/-- A one-element vector broadcast to [1, 1] and then to [100000, 1] reads, at every row, its one element. -/
theorem bias_bcast_apply {α : Type} (x : S1.Idx → α) (p : Fin 100000) :
    broadcastInDim S100000x1 ![0, 1] bcast_S1x1_S100000x1_0_1 (broadcastInDim S1x1 ![1] bcast_S1_S1x1_1 x) (ix2 p (0 : Fin 1))
      = x (ix1 (0 : Fin 1)) := by
  have e1 : ∀ (y : S1x1.Idx → α), broadcastInDim S100000x1 ![0, 1] bcast_S1x1_S100000x1_0_1 y (ix2 p (0 : Fin 1))
      = y (ix2 (0 : Fin 1) (0 : Fin 1)) := fun y =>
    broadcastInDim_apply _ bcast_S1x1_S100000x1_0_1 y (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl])
  rw [e1]
  exact broadcastInDim_apply _ bcast_S1_S1x1_1 x (ix2 (0 : Fin 1) (0 : Fin 1)) (ix1 (0 : Fin 1)) (fun a => match a with
    | ⟨0, _⟩ => by show 0 = if (1 : Nat) = 1 then 0 else 0; rw [if_pos rfl])

variable (m : (ℓ : Loc nD τ sig) → Buf (Elt Ideal) ℓ) (ρ : Dev nD → PrngReg) (c : Dev nD)

/-- Product and sum of extended reals with the type written out: an element read off a buffer is an extended real. The
    terms built are the ordinary product and sum. -/
local infixl:70 " *ₑ " => (HMul.hMul : EReal → EReal → EReal)
local infixl:65 " +ₑ " => (HAdd.hAdd : EReal → EReal → EReal)

/-! ## The second region's inputs, against the reference's stages -/

/-- The dinv column at the second region's entry. -/
theorem v5_v16_at (p : Fin 100000) :
    V5 (F := Ideal) m ρ c main_v16 (ix2 p (0 : Fin 1)) = Cert.ReferenceIdeal.Bridge.dinv (m ((c : Thread nD τ).loc main_arg1)) p := by
  show W5 (F := Ideal) m ρ c (Proc.devRef .tc main_v16) (ix2 p (0 : Fin 1)) = _
  rw [Host.w5_v16, Host.w4_v16]
  exact Layer1.k16_at m ρ c p

/-- The two weight columns are the arguments, as launched. -/
theorem v5_arg6 : V5 (F := Ideal) m ρ c main_arg6 = m ((c : Thread nD τ).loc main_arg6) := by
  show W5 (F := Ideal) m ρ c (Proc.devRef .tc main_arg6) = _
  rw [Host.w5_arg6, Host.w4_arg6, Host.w3_arg6]
theorem v5_arg8 : V5 (F := Ideal) m ρ c main_arg8 = m ((c : Thread nD τ).loc main_arg8) := by
  show W5 (F := Ideal) m ρ c (Proc.devRef .tc main_arg8) = _
  rw [Host.w5_arg8, Host.w4_arg8, Host.w3_arg8]

/-- The scalar bias of the direct branch, kept as a [1, 1] array. -/
theorem v5_v30_at : V5 (F := Ideal) m ρ c main_v30 (ix2 (0 : Fin 1) (0 : Fin 1)) = m ((c : Thread nD τ).loc main_arg9) (ix1 (0 : Fin 1)) := by
  show W5 (F := Ideal) m ρ c (Proc.devRef .tc main_v30) (ix2 (0 : Fin 1) (0 : Fin 1)) = _
  rw [Host.w5_v30, Host.w4_arg9, Host.w3_arg9]
  exact shapeCast_vec_col_apply _ _ 0 0

/-- A row of the first hidden half: max(·, 0) of the reference's first-layer aggregate. -/
theorem hid1_at (p : Fin 100000) (q : Fin 64) :
    Region1.hid1 (V5 (F := Ideal) m ρ c main_v28) (V5 (F := Ideal) m ρ c main_v16) (V5 (F := Ideal) m ρ c main_v29) p q
      = max (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (ix2 p q)) 0 := by
  unfold Region1.hid1
  exact congrArg (fun x : EReal => max x 0) (Layer1.part1_at m ρ c p q)

/-- A row of the second hidden half: max(·, 0) of the reference's direct branch of the first layer. -/
theorem hid2_at (p : Fin 100000) (q : Fin 64) :
    Region1.hid2 (V5 (F := Ideal) m ρ c main_v18_1) p q
      = max (Cert.ReferenceIdeal.Read.val_main_v50 (F := Ideal) (m ((c : Thread nD τ).loc main_arg0)) (m ((c : Thread nD τ).loc main_arg4)) (m ((c : Thread nD τ).loc main_arg5)) (ix2 p q)) 0 := by
  unfold Region1.hid2
  have e : V5 (F := Ideal) m ρ c main_v18_1 (ix2 p q)
      = Cert.ReferenceIdeal.Read.val_main_v50 (F := Ideal) (m ((c : Thread nD τ).loc main_arg0)) (m ((c : Thread nD τ).loc main_arg4)) (m ((c : Thread nD τ).loc main_arg5)) (ix2 p q) := by
    show W5 (F := Ideal) m ρ c (Proc.devRef .tc main_v18_1) (ix2 p q) = _
    rw [Host.w5_v18_1]
    exact Layer1.k18_1_at m ρ c p q
  rw [e]

/-- The projection of node p's hidden row on a weight column, taken as two 64-wide halves, is the reference's 128-term
    product of the hidden row with the column. -/
theorem proj_at (W : S128x1.Idx → EReal) (p : Fin 100000) :
    Region1.proj (Region1.hid1 (V5 (F := Ideal) m ρ c main_v28) (V5 (F := Ideal) m ρ c main_v16) (V5 (F := Ideal) m ρ c main_v29) p)
        (Region1.hid2 (V5 (F := Ideal) m ρ c main_v18_1) p) W
      = ∑ k : Fin 128, Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 p k) *ₑ W (ix2 k (0 : Fin 1)) := by
  refine Eq.trans ?_ (Cert.ReferenceIdeal.Bridge.hidden_dot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) W p).symm
  unfold Region1.proj
  refine congrArg₂ (· + ·) (Finset.sum_congr rfl fun q _ => ?_) (Finset.sum_congr rfl fun q _ => ?_)
  · rw [hid1_at]
  · rw [hid2_at]

/-! ## The second region's outputs -/

/-- The first output: the reference's projected second-layer feature of node p, scaled by dinv p. -/
theorem k31_0_at (p : Fin 100000) :
    W6 (F := Ideal) m ρ c (Proc.devRef .tc main_v31_0) (ix2 p (0 : Fin 1))
      = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p (0 : Fin 1))
        * Cert.ReferenceIdeal.Bridge.dinv (m ((c : Thread nD τ).loc main_arg1)) p := by
  rw [Host.w6_v31_0, Region1.final1_7_apply, v5_v16_at, v5_arg6, proj_at, Cert.ReferenceIdeal.Bridge.v53_at]

/-- The second output: the reference's direct branch of the second layer at node p. -/
theorem k31_1_at (p : Fin 100000) :
    W6 (F := Ideal) m ρ c (Proc.devRef .tc main_v31_1) (ix2 p (0 : Fin 1))
      = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (ix2 p (0 : Fin 1)) := by
  rw [Host.w6_v31_1, Region1.final1_8_apply, v5_v30_at, v5_arg8, proj_at, Cert.ReferenceIdeal.Bridge.v72_at]

/-! ## The result -/

/-- The dinv column is untouched up to the last operations. -/
theorem w6_v16_at (p : Fin 100000) :
    W6 (F := Ideal) m ρ c (Proc.devRef .tc main_v16) (ix2 p (0 : Fin 1)) = Cert.ReferenceIdeal.Bridge.dinv (m ((c : Thread nD τ).loc main_arg1)) p := by
  rw [Host.w6_v16, Host.w5_v16, Host.w4_v16]
  exact Layer1.k16_at m ρ c p

/-- The program's last operations, over the reference's own index arrays and zero start: the edges' wrapped source numbers and
    raw target numbers are computed from the edge array by the same operations in both programs. -/
theorem w7_ref :
    W7 (F := Ideal) m ρ c (Proc.devRef .tc main_v47)
      = shapeCast S100000
          (addf (F := Ideal)
            (addf (F := Ideal)
              (mulf (F := Ideal) (W6 (F := Ideal) m ρ c (Proc.devRef .tc main_v16))
                (Host.scatterAdd (F := Ideal) (φ := .f32) Cert.ReferenceIdeal.scatter_S100000x1_S1700000x1_S1700000x1_1_0_0_1
                  (Cert.ReferenceIdeal.Read.val_main_v63 (F := Ideal)) (Cert.ReferenceIdeal.Read.val_main_v42 (F := Ideal) (m ((c : Thread nD τ).loc main_arg1)))
                  (Host.gather Cert.ReferenceIdeal.gather_S100000x1_S1700000x1_S1700000x1_1_0_n_n_0_1_11
                    (W6 (F := Ideal) m ρ c (Proc.devRef .tc main_v31_0)) (Cert.ReferenceIdeal.Read.val_main_v20 (F := Ideal) (m ((c : Thread nD τ).loc main_arg1))))))
              (broadcastInDim S100000x1 ![0, 1] bcast_S1x1_S100000x1_0_1 (broadcastInDim S1x1 ![1] bcast_S1_S1x1_1 (m ((c : Thread nD τ).loc main_arg7)))))
            (W6 (F := Ideal) m ρ c (Proc.devRef .tc main_v31_1)))
          shapeCasts_S100000x1_S100000 := by
  rw [Host.w7_v47, Host.w6_v6, Host.w5_v6, Host.w4_v6, Host.w3_v6, Host.w6_v3, Host.w5_v3, Host.w4_v3, Host.w3_v3,
    Host.w6_arg7, Host.w5_arg7, Host.w4_arg7, Host.w3_arg7]
  rfl

/-- The result at node p: dinv p times the aggregate of the pre-scaled second-layer feature, plus the bias, plus the direct
    branch, is the reference's result. -/
theorem result_at (p : Fin 100000) :
    W7 (F := Ideal) m ρ c (Proc.devRef .tc main_v47) (ix1 p)
      = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix1 p) := by
  rw [w7_ref, Cert.ReferenceIdeal.Bridge.v74_at]
  refine (shapeCast_col_vec_apply _ _ p).trans ?_
  rw [addf_apply, addf_apply, mulf_apply, bias_bcast_apply, k31_1_at, w6_v16_at,
    Cert.ReferenceIdeal.Bridge.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (W6 (F := Ideal) m ρ c (Proc.devRef .tc main_v31_0)) (k31_0_at m ρ c) p]

/-- THE RESULT VECTOR of the kernel program is the reference's. -/
theorem result_eq :
    W7 (F := Ideal) m ρ c (Proc.devRef .tc main_v47)
      = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨p, rfl⟩ : ∃ p : Fin 100000, i = ix1 p := ⟨i 0, eq_ix1 i⟩
  exact result_at m ρ c p

end Cert.KernelIdeal.Layer2

end
-- ==== Proof.lean ====
/-
  A two-layer graph convolution network on 100000 nodes and 1700000 edges (1600000 given edges and one self loop per node),
  computed by two tiled kernels between host gathers and scatter-adds, against its plain reference.

  Both programs build from the edge array the edges' source and target numbers, the in-degree deg of every node and
  dinv = select(deg > 0, deg^(-1/2), 0). The reference forms, per edge, norm e = dinv(src e) · dinv(tgt e), and per layer gathers
  the projected features by source, multiplies by norm, scatter-adds by target and adds the bias; between the layers it takes
  max(·, 0) of the first layer's output beside a direct branch x·Wf1 + bf1, and to the second layer's output it adds the direct
  branch h·Wf2 + bf2. The kernel program never forms norm: its first kernel scales row n of x·W1 by dinv n, the host gathers and
  scatter-adds those rows, and its second kernel scales row n of the aggregate by dinv n, adds the bias, takes max(·, 0), projects
  the two 64-wide halves of the hidden layer separately and scales row n by dinv n again; the host aggregates once more and scales
  by dinv n. For an edge that lands on node n

      T(src e) · (dinv(src e) · dinv n) = (T(src e) · dinv(src e)) · dinv n,

  and because 0 ≤ dinv n < ⊤ the factor dinv n moves out of the sum over the edges that land on n, for arbitrary extended-real
  summands: the two programs agree at every input, finite or not. Every kernel region writes rows [2000 t, 2000 t + 2000) at
  grid point t from the same rows of its inputs, so its output arrays are one function of its input arrays, row by row.

  The modules: LibScatterScale (the law), LibGatherRows / LibRowIndex (which row a gather reads and a scatter lands on),
  RefOps / RefRead / RefRunFast (the reference's operations, its stages, and its run read stage by stage), RefIndex / RefBridge
  (the two layers over the reference's stages),
  KernelRun (the kernel program's run), KernelHost (its host operations), Region0Value / Region1Value (its two regions),
  KernelLayer1 / KernelLayer2 (its values are the reference's stages).
-/
import proofs.«122140_j46574625358105_2_alg».proof.Defs
import proofs.«122140_j46574625358105_2_alg».proof.Proof.Gen.Kernel
import proofs.«122140_j46574625358105_2_alg».proof.Proof.Gen.Kernel.Skeleton
import proofs.«122140_j46574625358105_2_alg».proof.Proof.Gen.Kernel.Launch
import proofs.«122140_j46574625358105_2_alg».proof.Proof.Gen.Kernel.Points
import proofs.«122140_j46574625358105_2_alg».proof.Proof.Gen.Kernel.Frame
import proofs.«122140_j46574625358105_2_alg».proof.Proof.Gen.KernelIdeal
import proofs.«122140_j46574625358105_2_alg».proof.Proof.Gen.KernelIdeal.Skeleton
import proofs.«122140_j46574625358105_2_alg».proof.Proof.Gen.KernelIdeal.Launch
import proofs.«122140_j46574625358105_2_alg».proof.Proof.Gen.KernelIdeal.Points
import proofs.«122140_j46574625358105_2_alg».proof.Proof.Gen.KernelIdeal.Frame
import proofs.«122140_j46574625358105_2_alg».proof.Proof.Gen.ReferenceIdeal
import proofs.«122140_j46574625358105_2_alg».proof.Proof.Gen.Pre_finite_inputs
import proofs.«122140_j46574625358105_2_alg».proof.Proof.RefOps
import proofs.«122140_j46574625358105_2_alg».proof.Proof.RefRead
import proofs.«122140_j46574625358105_2_alg».proof.Proof.RefRunFast
import proofs.«122140_j46574625358105_2_alg».proof.Proof.KernelRun
import proofs.«122140_j46574625358105_2_alg».proof.Proof.KernelLayer2
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Fast.run m ρ)

/-- From memories that agree on the arguments both idealized programs end with the same result vector: the kernel program's
    is the reference's last stage of the kernel's arguments, which are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 (F := Ideal) m ρ c (Proc.devRef .tc Cert.KernelIdeal.main_v47),
    Cert.KernelIdeal.Run.run_value (F := Ideal) m ρ, ?_⟩
  refine (θ_run Cert.ReferenceIdeal.defs _ _).mono (fun _ h c => ⟨(h c).1.trans ?_, (h c).2⟩)
    (Cert.ReferenceIdeal.Fast.run m' ρ')
  obtain ⟨e0, e1, e2, e3, e4, e5, e6, e7, e8, e9⟩ := hagree c
  rw [e0, e1, e2, e3, e4, e5, e6, e7, e8, e9]
  exact (Cert.KernelIdeal.Layer2.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
